-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x512 : Shape := ⟨3, ![4, 1024, 512]⟩
abbrev S4x1024x1024 : Shape := ⟨3, ![4, 1024, 1024]⟩
abbrev S512x512 : Shape := ⟨2, ![512, 512]⟩
abbrev S512 : Shape := ⟨1, ![512]⟩
abbrev S4 : Shape := ⟨1, ![4]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S4 .f32) (main_arg13 : FVec F S4 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S4 .f32) (main_arg13 : FVec F S4 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S4 .f32) (main_arg13 : FVec F S4 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x1024x512 .f32) (main_arg1 : FVec F S4x1024x512 .f32) (main_arg2 : FVec F S4x1024x512 .f32) (main_arg3 : FVec F S4x1024x1024 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S4 .f32) (main_arg13 : FVec F S4 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x1024x512 .f32 := Host.absf main_arg1
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : IVec S_ 1 := andi main_v3 main_v7
  let main_v9 : FVec F S4x1024x512 .f32 := Host.absf main_arg2
  let main_cst_2 : FVec F S_ .f32 := constant S_ .f32 0x7F800000#32
  let main_v10 : FVec F S4x1024x512 .f32 := broadcastInDim S4x1024x512 ![] bcast_S_S4x1024x512 main_cst_2
  let main_v11 : IVec S4x1024x512 1 := cmpf .olt main_v9 main_v10
  let main_c_3 : IVec S_ 1 := constantI S_ 1 1#1
  let main_v12 : IVec S_ 1 := (fun x v => Host.reduce IntOp.andi x v reducesTo_S4x1024x512_S_d0_1_2 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x1024x512 : Shape := ⟨3, ![4, 1024, 512]⟩
abbrev S4x1024x1024 : Shape := ⟨3, ![4, 1024, 1024]⟩
abbrev S512x512 : Shape := ⟨2, ![512, 512]⟩
abbrev S512 : Shape := ⟨1, ![512]⟩
abbrev S4 : Shape := ⟨1, ![4]⟩
abbrev S4096x512 : Shape := ⟨2, ![4096, 512]⟩
abbrev S1024x512 : Shape := ⟨2, ![1024, 512]⟩
abbrev S1x512 : Shape := ⟨2, ![1, 512]⟩
abbrev S4x1024x8x64 : Shape := ⟨4, ![4, 1024, 8, 64]⟩
abbrev S4x8x1024x64 : Shape := ⟨4, ![4, 8, 1024, 64]⟩
abbrev S4x8x1024x1024 : Shape := ⟨4, ![4, 8, 1024, 1024]⟩
abbrev S1x8x128x64 : Shape := ⟨4, ![1, 8, 128, 64]⟩
abbrev S1x8x1024x64 : Shape := ⟨4, ![1, 8, 1024, 64]⟩
abbrev S1x128x1024 : Shape := ⟨3, ![1, 128, 1024]⟩
abbrev S1x8x128x1024 : Shape := ⟨4, ![1, 8, 128, 1024]⟩
abbrev S8x128x64 : Shape := ⟨3, ![8, 128, 64]⟩
abbrev S8x1024x64 : Shape := ⟨3, ![8, 1024, 64]⟩
abbrev S128x1024 : Shape := ⟨2, ![128, 1024]⟩
abbrev S4x128x64 : Shape := ⟨3, ![4, 128, 64]⟩
abbrev S4x1024x64 : Shape := ⟨3, ![4, 1024, 64]⟩
abbrev S4x128x1024 : Shape := ⟨3, ![4, 128, 1024]⟩
abbrev S4x1x1 : Shape := ⟨3, ![4, 1, 1]⟩
abbrev S4x128 : Shape := ⟨2, ![4, 128]⟩
abbrev S4x128x1 : Shape := ⟨3, ![4, 128, 1]⟩
abbrev S1x4x128x64 : Shape := ⟨4, ![1, 4, 128, 64]⟩
abbrev S1x4x128x1024 : Shape := ⟨4, ![1, 4, 128, 1024]⟩

abbrev nBuf : Space → Nat
  | .hbm => 36
  | .vmem => 38
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S4, .f32⟩
  | .hbm, ⟨13, _⟩ => ⟨S4, .f32⟩
  | .hbm, ⟨14, _⟩ => ⟨S4096x512, .f32⟩
  | .hbm, ⟨15, _⟩ => ⟨S512x512, .f32⟩
  | .hbm, ⟨16, _⟩ => ⟨S4096x512, .f32⟩
  | .hbm, ⟨17, _⟩ => ⟨S4x1024x8x64, .f32⟩
  | .hbm, ⟨18, _⟩ => ⟨S4x8x1024x64, .f32⟩
  | .hbm, ⟨19, _⟩ => ⟨S4096x512, .f32⟩
  | .hbm, ⟨20, _⟩ => ⟨S512x512, .f32⟩
  | .hbm, ⟨21, _⟩ => ⟨S4096x512, .f32⟩
  | .hbm, ⟨22, _⟩ => ⟨S4x1024x8x64, .f32⟩
  | .hbm, ⟨23, _⟩ => ⟨S4x8x1024x64, .f32⟩
  | .hbm, ⟨24, _⟩ => ⟨S4096x512, .f32⟩
  | .hbm, ⟨25, _⟩ => ⟨S512x512, .f32⟩
  | .hbm, ⟨26, _⟩ => ⟨S4096x512, .f32⟩
  | .hbm, ⟨27, _⟩ => ⟨S4x1024x8x64, .f32⟩
  | .hbm, ⟨28, _⟩ => ⟨S4x8x1024x64, .f32⟩
  | .hbm, ⟨29, _⟩ => ⟨S4x8x1024x64, .f32⟩
  | .hbm, ⟨30, _⟩ => ⟨S4x8x1024x1024, .f32⟩
  | .hbm, ⟨31, _⟩ => ⟨S4x1024x8x64, .f32⟩
  | .hbm, ⟨32, _⟩ => ⟨S4096x512, .f32⟩
  | .hbm, ⟨33, _⟩ => ⟨S512x512, .f32⟩
  | .hbm, ⟨34, _⟩ => ⟨S4096x512, .f32⟩
  | .hbm, ⟨35, _⟩ => ⟨S4x1024x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S512, .f32⟩
  | .local _ .vmem, ⟨16, _⟩ => ⟨S1024x512, .f32⟩
  | .local _ .vmem, ⟨17, _⟩ => ⟨S1024x512, .f32⟩
  | .local _ .vmem, ⟨18, _⟩ => ⟨S1x8x128x64, .f32⟩
  | .local _ .vmem, ⟨19, _⟩ => ⟨S1x8x128x64, .f32⟩
  | .local _ .vmem, ⟨20, _⟩ => ⟨S1x8x1024x64, .f32⟩
  | .local _ .vmem, ⟨21, _⟩ => ⟨S1x8x1024x64, .f32⟩
  | .local _ .vmem, ⟨22, _⟩ => ⟨S1x8x1024x64, .f32⟩
  | .local _ .vmem, ⟨23, _⟩ => ⟨S1x8x1024x64, .f32⟩
  | .local _ .vmem, ⟨24, _⟩ => ⟨S1x128x1024, .f32⟩
  | .local _ .vmem, ⟨25, _⟩ => ⟨S1x128x1024, .f32⟩
  | .local _ .vmem, ⟨26, _⟩ => ⟨S4, .f32⟩
  | .local _ .vmem, ⟨27, _⟩ => ⟨S4, .f32⟩
  | .local _ .vmem, ⟨28, _⟩ => ⟨S1x8x128x64, .f32⟩
  | .local _ .vmem, ⟨29, _⟩ => ⟨S1x8x128x64, .f32⟩
  | .local _ .vmem, ⟨30, _⟩ => ⟨S1x8x128x1024, .f32⟩
  | .local _ .vmem, ⟨31, _⟩ => ⟨S1x8x128x1024, .f32⟩
  | .local _ .vmem, ⟨32, _⟩ => ⟨S1024x512, .f32⟩
  | .local _ .vmem, ⟨33, _⟩ => ⟨S1024x512, .f32⟩
  | .local _ .vmem, ⟨34, _⟩ => ⟨S512x512, .f32⟩
  | .local _ .vmem, ⟨35, _⟩ => ⟨S512, .f32⟩
  | .local _ .vmem, ⟨36, _⟩ => ⟨S1024x512, .f32⟩
  | .local _ .vmem, ⟨37, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x8x128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x8x1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x8x128x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x8x128x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x1024x512_S4096x512 : S4x1024x512.ShapeCasts S4096x512
  transposes_S512x512_S512x512_1_0 : S512x512.Transposes [1, 0] S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S4096x512_S4x1024x8x64 : S4096x512.ShapeCasts S4x1024x8x64
  transposes_S4x1024x8x64_S4x8x1024x64_0_2_1_3 : S4x1024x8x64.Transposes [0, 2, 1, 3] S4x8x1024x64
  inb_S1x8x128x64_S1x8x128x64_0_0_0_0 : ∀ a, (![0, 0, 0, 0] : Fin 4 → Nat) a + S1x8x128x64.size a ≤ S1x8x128x64.size a
  h_S1x8x128x64 : 0 < S1x8x128x64.numel
  shapeCasts_S1x8x128x64_S8x128x64 : S1x8x128x64.ShapeCasts S8x128x64
  inb_S1x8x1024x64_S1x8x1024x64_0_0_0_0 : ∀ a, (![0, 0, 0, 0] : Fin 4 → Nat) a + S1x8x1024x64.size a ≤ S1x8x1024x64.size a
  h_S1x8x1024x64 : 0 < S1x8x1024x64.numel
  shapeCasts_S1x8x1024x64_S8x1024x64 : S1x8x1024x64.ShapeCasts S8x1024x64
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  slices_S8x128x64_o0_0_0_S4x128x64 : S8x128x64.Slices ![0, 0, 0] S4x128x64
  slices_S8x128x64_o4_0_0_S4x128x64 : S8x128x64.Slices ![4, 0, 0] S4x128x64
  slices_S8x1024x64_o0_0_0_S4x1024x64 : S8x1024x64.Slices ![0, 0, 0] S4x1024x64
  slices_S8x1024x64_o4_0_0_S4x1024x64 : S8x1024x64.Slices ![4, 0, 0] S4x1024x64
  inb_S4_S4_0 : ∀ a, (![0] : Fin 1 → Nat) a + S4.size a ≤ S4.size a
  h_S4 : 0 < S4.numel
  shapeCasts_S128x1024_S1x128x1024 : S128x1024.ShapeCasts S1x128x1024
  shapeCasts_S4_S4x1x1 : S4.ShapeCasts S4x1x1
  broadcasts_S1x128x1024_S4x128x1024 : S1x128x1024.Broadcasts S4x128x1024
  broadcasts_S4x1x1_S4x128x1024 : S4x1x1.Broadcasts S4x128x1024
  reduces_S4x128x1024_S4x128 : S4x128x1024.Reduces [2] S4x128
  shapeCasts_S4x128_S4x128x1 : S4x128.ShapeCasts S4x128x1
  broadcasts_S4x128x1_S4x128x1024 : S4x128x1.Broadcasts S4x128x1024
  inb_S1x8x128x64_S1x4x128x64_0_0_0_0 : ∀ a, (![0, 0, 0, 0] : Fin 4 → Nat) a + S1x4x128x64.size a ≤ S1x8x128x64.size a
  h_S1x4x128x64 : 0 < S1x4x128x64.numel
  shapeCasts_S1x4x128x64_S4x128x64 : S1x4x128x64.ShapeCasts S4x128x64
  shapeCasts_S4x128x64_S1x4x128x64 : S4x128x64.ShapeCasts S1x4x128x64
  inb_S1x8x128x1024_S1x4x128x1024_0_0_0_0 : ∀ a, (![0, 0, 0, 0] : Fin 4 → Nat) a + S1x4x128x1024.size a ≤ S1x8x128x1024.size a
  h_S1x4x128x1024 : 0 < S1x4x128x1024.numel
  shapeCasts_S1x4x128x1024_S4x128x1024 : S1x4x128x1024.ShapeCasts S4x128x1024
  shapeCasts_S4x128x1024_S1x4x128x1024 : S4x128x1024.ShapeCasts S1x4x128x1024
  inb_S1x8x128x64_S1x4x128x64_0_4_0_0 : ∀ a, (![0, 4, 0, 0] : Fin 4 → Nat) a + S1x4x128x64.size a ≤ S1x8x128x64.size a
  inb_S1x8x128x1024_S1x4x128x1024_0_4_0_0 : ∀ a, (![0, 4, 0, 0] : Fin 4 → Nat) a + S1x4x128x1024.size a ≤ S1x8x128x1024.size a
  transposes_S4x8x1024x64_S4x1024x8x64_0_2_1_3 : S4x8x1024x64.Transposes [0, 2, 1, 3] S4x1024x8x64
  shapeCasts_S4x1024x8x64_S4096x512 : S4x1024x8x64.ShapeCasts S4096x512
  shapeCasts_S4096x512_S4x1024x512 : S4096x512.ShapeCasts S4x1024x512
  dot_S1024x512_S512x512_S1024x512_1_0_0_1_n_n_wf : DotDims.WF S1024x512 S512x512 S1024x512 [1] [0] [0] [1] [] []
  dot_S4x128x64_S4x1024x64_S4x128x1024_2_2_1_1_0_0_wf : DotDims.WF S4x128x64 S4x1024x64 S4x128x1024 [2] [2] [1] [1] [0] [0]
  dot_S4x128x1024_S4x1024x64_S4x128x64_2_1_1_2_0_0_wf : DotDims.WF S4x128x1024 S4x1024x64 S4x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x512.size a
  hwx1_3 : ∀ i : grid1.Coords, EltTy.bits .f32 = 32 ∨ (Rect.block (s := S4096x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x512.size a
  hwx2_3 : ∀ i : grid2.Coords, EltTy.bits .f32 = 32 ∨ (Rect.block (s := S4096x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8x128x64.size a ≤ S4x8x1024x64.size a
  hwx3_0 : ∀ i : grid3.Coords, EltTy.bits .f32 = 32 ∨ (Rect.block (s := S4x8x1024x64) S1x8x128x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8x1024x64.size a ≤ S4x8x1024x64.size a
  hwx3_1 : ∀ i : grid3.Coords, EltTy.bits .f32 = 32 ∨ (Rect.block (s := S4x8x1024x64) S1x8x1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x8x1024x64.size a ≤ S4x8x1024x64.size a
  hwx3_2 : ∀ i : grid3.Coords, EltTy.bits .f32 = 32 ∨ (Rect.block (s := S4x8x1024x64) S1x8x1024x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128x1024.size a ≤ S4x1024x1024.size a
  hwx3_3 : ∀ i : grid3.Coords, EltTy.bits .f32 = 32 ∨ (Rect.block (s := S4x1024x1024) S1x128x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4.size a ≤ S4.size a
  hwx3_4 : ∀ i : grid3.Coords, EltTy.bits .f32 = 32 ∨ (Rect.block (s := S4) S4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4.size a ≤ S4.size a
  hwx3_5 : ∀ i : grid3.Coords, EltTy.bits .f32 = 32 ∨ (Rect.block (s := S4) S4.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8x128x64.size a ≤ S4x8x1024x64.size a
  hwx3_6 : ∀ i : grid3.Coords, EltTy.bits .f32 = 32 ∨ (Rect.block (s := S4x8x1024x64) S1x8x128x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8x128x1024.size a ≤ S4x8x1024x1024.size a
  hwx3_7 : ∀ i : grid3.Coords, EltTy.bits .f32 = 32 ∨ (Rect.block (s := S4x8x1024x1024) S1x8x128x1024.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x512.size a
  hwx4_0 : ∀ i : grid4.Coords, EltTy.bits .f32 = 32 ∨ (Rect.block (s := S4096x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S4096x512.size a
  hwx4_3 : ∀ i : grid4.Coords, EltTy.bits .f32 = 32 ∨ (Rect.block (s := S4096x512) S1024x512.size (cc4_transform_3 i) (hinb4_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S4x128x64_S4x1024x64_S4x128x1024_2_2_1_1_0_0 : DotDims S4x128x64 S4x1024x64 S4x128x1024 where
  lhsContracting := [2]
  rhsContracting := [2]
  lhsNonContracting := [1]
  rhsNonContracting := [1]
  lhsBatch := [0]
  rhsBatch := [0]
  wf := dot_S4x128x64_S4x1024x64_S4x128x1024_2_2_1_1_0_0_wf
def dot_S4x128x1024_S4x1024x64_S4x128x64_2_1_1_2_0_0 : DotDims S4x128x1024 S4x1024x64 S4x128x64 where
  lhsContracting := [2]
  rhsContracting := [1]
  lhsNonContracting := [1]
  rhsNonContracting := [2]
  lhsBatch := [0]
  rhsBatch := [0]
  wf := dot_S4x128x1024_S4x1024x64_S4x128x64_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S1x8x128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x8x1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x8x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x128x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15_0) S1x8x128x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v15_1) S1x8x128x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v17) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x1024x512 : Shape := ⟨3, ![4, 1024, 512]⟩
abbrev S4x1024x1024 : Shape := ⟨3, ![4, 1024, 1024]⟩
abbrev S512x512 : Shape := ⟨2, ![512, 512]⟩
abbrev S512 : Shape := ⟨1, ![512]⟩
abbrev S4 : Shape := ⟨1, ![4]⟩
abbrev S1x1x512 : Shape := ⟨3, ![1, 1, 512]⟩
abbrev S4x1024x8x64 : Shape := ⟨4, ![4, 1024, 8, 64]⟩
abbrev S4x8x1024x64 : Shape := ⟨4, ![4, 8, 1024, 64]⟩
abbrev S4x4x1024x64 : Shape := ⟨4, ![4, 4, 1024, 64]⟩
abbrev S4x4x1024x1024 : Shape := ⟨4, ![4, 4, 1024, 1024]⟩
abbrev S_ : Shape := ⟨0, ![]⟩
abbrev S4x1x1024x1024 : Shape := ⟨4, ![4, 1, 1024, 1024]⟩
abbrev S1x4x1x1 : Shape := ⟨4, ![1, 4, 1, 1]⟩
abbrev S4x4x1024 : Shape := ⟨3, ![4, 4, 1024]⟩
abbrev S4x4x1024x1 : Shape := ⟨4, ![4, 4, 1024, 1]⟩
abbrev S4x8x1024x1024 : Shape := ⟨4, ![4, 8, 1024, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S4, .f32⟩
  | .hbm, ⟨13, _⟩ => ⟨S4, .f32⟩
  | .hbm, ⟨14, _⟩ => ⟨S4x1024x512, .f32⟩
  | .hbm, ⟨15, _⟩ => ⟨S1x1x512, .f32⟩
  | .hbm, ⟨16, _⟩ => ⟨S4x1024x512, .f32⟩
  | .hbm, ⟨17, _⟩ => ⟨S4x1024x512, .f32⟩
  | .hbm, ⟨18, _⟩ => ⟨S4x1024x8x64, .f32⟩
  | .hbm, ⟨19, _⟩ => ⟨S4x8x1024x64, .f32⟩
  | .hbm, ⟨20, _⟩ => ⟨S4x1024x512, .f32⟩
  | .hbm, ⟨21, _⟩ => ⟨S1x1x512, .f32⟩
  | .hbm, ⟨22, _⟩ => ⟨S4x1024x512, .f32⟩
  | .hbm, ⟨23, _⟩ => ⟨S4x1024x512, .f32⟩
  | .hbm, ⟨24, _⟩ => ⟨S4x1024x8x64, .f32⟩
  | .hbm, ⟨25, _⟩ => ⟨S4x8x1024x64, .f32⟩
  | .hbm, ⟨26, _⟩ => ⟨S4x1024x512, .f32⟩
  | .hbm, ⟨27, _⟩ => ⟨S1x1x512, .f32⟩
  | .hbm, ⟨28, _⟩ => ⟨S4x1024x512, .f32⟩
  | .hbm, ⟨29, _⟩ => ⟨S4x1024x512, .f32⟩
  | .hbm, ⟨30, _⟩ => ⟨S4x1024x8x64, .f32⟩
  | .hbm, ⟨31, _⟩ => ⟨S4x8x1024x64, .f32⟩
  | .hbm, ⟨32, _⟩ => ⟨S4x4x1024x64, .f32⟩
  | .hbm, ⟨33, _⟩ => ⟨S4x4x1024x64, .f32⟩
  | .hbm, ⟨34, _⟩ => ⟨S4x4x1024x64, .f32⟩
  | .hbm, ⟨35, _⟩ => ⟨S4x4x1024x64, .f32⟩
  | .hbm, ⟨36, _⟩ => ⟨S4x4x1024x64, .f32⟩
  | .hbm, ⟨37, _⟩ => ⟨S4x4x1024x64, .f32⟩
  | .hbm, ⟨38, _⟩ => ⟨S4x4x1024x1024, .f32⟩
  | .hbm, ⟨39, _⟩ => ⟨S_, .f32⟩
  | .hbm, ⟨40, _⟩ => ⟨S4x4x1024x1024, .f32⟩
  | .hbm, ⟨41, _⟩ => ⟨S4x4x1024x1024, .f32⟩
  | .hbm, ⟨42, _⟩ => ⟨S4x1x1024x1024, .f32⟩
  | .hbm, ⟨43, _⟩ => ⟨S1x4x1x1, .f32⟩
  | .hbm, ⟨44, _⟩ => ⟨S4x4x1024x1024, .f32⟩
  | .hbm, ⟨45, _⟩ => ⟨S4x4x1024x1024, .f32⟩
  | .hbm, ⟨46, _⟩ => ⟨S4x4x1024x1024, .f32⟩
  | .hbm, ⟨47, _⟩ => ⟨S_, .f32⟩
  | .hbm, ⟨48, _⟩ => ⟨S4x4x1024x1024, .f32⟩
  | .hbm, ⟨49, _⟩ => ⟨S4x4x1024x1024, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S1x4x1x1, .f32⟩
  | .hbm, ⟨59, _⟩ => ⟨S4x4x1024x1024, .f32⟩
  | .hbm, ⟨60, _⟩ => ⟨S4x4x1024x1024, .f32⟩
  | .hbm, ⟨61, _⟩ => ⟨S4x4x1024x1024, .f32⟩
  | .hbm, ⟨62, _⟩ => ⟨S_, .f32⟩
  | .hbm, ⟨63, _⟩ => ⟨S4x4x1024, .f32⟩
  | .hbm, ⟨64, _⟩ => ⟨S_, .f32⟩
  | .hbm, ⟨65, _⟩ => ⟨S4x4x1024, .f32⟩
  | .hbm, ⟨66, _⟩ => ⟨S4x4x1024, .f32⟩
  | .hbm, ⟨67, _⟩ => ⟨S4x4x1024x1, .f32⟩
  | .hbm, ⟨68, _⟩ => ⟨S4x4x1024x1024, .f32⟩
  | .hbm, ⟨69, _⟩ => ⟨S4x4x1024x1024, .f32⟩
  | .hbm, ⟨70, _⟩ => ⟨S4x4x1024x1024, .f32⟩
  | .hbm, ⟨71, _⟩ => ⟨S_, .f32⟩
  | .hbm, ⟨72, _⟩ => ⟨S4x4x1024, .f32⟩
  | .hbm, ⟨73, _⟩ => ⟨S4x4x1024x1, .f32⟩
  | .hbm, ⟨74, _⟩ => ⟨S4x4x1024x1024, .f32⟩
  | .hbm, ⟨75, _⟩ => ⟨S4x4x1024x1024, .f32⟩
  | .hbm, ⟨76, _⟩ => ⟨S4x4x1024x64, .f32⟩
  | .hbm, ⟨77, _⟩ => ⟨S4x4x1024x1024, .f32⟩
  | .hbm, ⟨78, _⟩ => ⟨S_, .f32⟩
  | .hbm, ⟨79, _⟩ => ⟨S4x4x1024x1024, .f32⟩
  | .hbm, ⟨80, _⟩ => ⟨S4x4x1024x1024, .f32⟩
  | .hbm, ⟨81, _⟩ => ⟨S_, .f32⟩
  | .hbm, ⟨82, _⟩ => ⟨S4x4x1024, .f32⟩
  | .hbm, ⟨83, _⟩ => ⟨S_, .f32⟩
  | .hbm, ⟨84, _⟩ => ⟨S4x4x1024, .f32⟩
  | .hbm, ⟨85, _⟩ => ⟨S4x4x1024, .f32⟩
  | .hbm, ⟨86, _⟩ => ⟨S4x4x1024x1, .f32⟩
  | .hbm, ⟨87, _⟩ => ⟨S4x4x1024x1024, .f32⟩
  | .hbm, ⟨88, _⟩ => ⟨S4x4x1024x1024, .f32⟩
  | .hbm, ⟨89, _⟩ => ⟨S4x4x1024x1024, .f32⟩
  | .hbm, ⟨90, _⟩ => ⟨S_, .f32⟩
  | .hbm, ⟨91, _⟩ => ⟨S4x4x1024, .f32⟩
  | .hbm, ⟨92, _⟩ => ⟨S4x4x1024x1, .f32⟩
  | .hbm, ⟨93, _⟩ => ⟨S4x4x1024x1024, .f32⟩
  | .hbm, ⟨94, _⟩ => ⟨S4x4x1024x1024, .f32⟩
  | .hbm, ⟨95, _⟩ => ⟨S4x4x1024x64, .f32⟩
  | .hbm, ⟨96, _⟩ => ⟨S4x8x1024x64, .f32⟩
  | .hbm, ⟨97, _⟩ => ⟨S4x8x1024x1024, .f32⟩
  | .hbm, ⟨98, _⟩ => ⟨S4x1024x8x64, .f32⟩
  | .hbm, ⟨99, _⟩ => ⟨S4x1024x512, .f32⟩
  | .hbm, ⟨100, _⟩ => ⟨S4x1024x512, .f32⟩
  | .hbm, ⟨101, _⟩ => ⟨S1x1x512, .f32⟩
  | .hbm, ⟨102, _⟩ => ⟨S4x1024x512, .f32⟩
  | .hbm, ⟨103, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  shapeCasts_S4x1024x512_S4x1024x8x64 : S4x1024x512.ShapeCasts S4x1024x8x64
  transposes_S4x1024x8x64_S4x8x1024x64_0_2_1_3 : S4x1024x8x64.Transposes [0, 2, 1, 3] S4x8x1024x64
  slices_S4x8x1024x64_S4x4x1024x64_0_0_0_0 : S4x8x1024x64.Slices ![0, 0, 0, 0] S4x4x1024x64
  slices_S4x8x1024x64_S4x4x1024x64_0_4_0_0 : S4x8x1024x64.Slices ![0, 4, 0, 0] S4x4x1024x64
  bcast_S_S4x4x1024x1024 : S_.BroadcastsInDim S4x4x1024x1024 (![] : Fin 0 → Fin S4x4x1024x1024.rank)
  bcast_S4x1024x1024_S4x1x1024x1024_0_2_3 : S4x1024x1024.BroadcastsInDim S4x1x1024x1024 (![0, 2, 3] : Fin 3 → Fin S4x1x1024x1024.rank)
  bcast_S4_S1x4x1x1_1 : S4.BroadcastsInDim S1x4x1x1 (![1] : Fin 1 → Fin S1x4x1x1.rank)
  bcast_S4x1x1024x1024_S4x4x1024x1024_0_1_2_3 : S4x1x1024x1024.BroadcastsInDim S4x4x1024x1024 (![0, 1, 2, 3] : Fin 4 → Fin S4x4x1024x1024.rank)
  bcast_S1x4x1x1_S4x4x1024x1024_0_1_2_3 : S1x4x1x1.BroadcastsInDim S4x4x1024x1024 (![0, 1, 2, 3] : Fin 4 → Fin S4x4x1024x1024.rank)
  bcast_S_S4 : S_.BroadcastsInDim S4 (![] : Fin 0 → Fin S4.rank)
  reducesTo_S4x4x1024x1024_S4x4x1024_d3 : S4x4x1024x1024.ReducesTo [3] S4x4x1024
  h_S_ : 0 < S_.numel
  bcast_S_S4x4x1024 : S_.BroadcastsInDim S4x4x1024 (![] : Fin 0 → Fin S4x4x1024.rank)
  bcast_S4x4x1024_S4x4x1024x1_0_1_2 : S4x4x1024.BroadcastsInDim S4x4x1024x1 (![0, 1, 2] : Fin 3 → Fin S4x4x1024x1.rank)
  bcast_S4x4x1024x1_S4x4x1024x1024_0_1_2_3 : S4x4x1024x1.BroadcastsInDim S4x4x1024x1024 (![0, 1, 2, 3] : Fin 4 → Fin S4x4x1024x1024.rank)
  concatenates_S4x4x1024x64_S4x4x1024x64_S4x8x1024x64_d1 : Shape.Concatenates [S4x4x1024x64, S4x4x1024x64] S4x8x1024x64 1
  concatenates_S4x4x1024x1024_S4x4x1024x1024_S4x8x1024x1024_d1 : Shape.Concatenates [S4x4x1024x1024, S4x4x1024x1024] S4x8x1024x1024 1
  transposes_S4x8x1024x64_S4x1024x8x64_0_2_1_3 : S4x8x1024x64.Transposes [0, 2, 1, 3] S4x1024x8x64
  shapeCasts_S4x1024x8x64_S4x1024x512 : S4x1024x8x64.ShapeCasts S4x1024x512
  dot_S4x1024x512_S512x512_S4x1024x512_2_1_01_0_n_n_wf : DotDims.WF S4x1024x512 S512x512 S4x1024x512 [2] [1] [0, 1] [0] [] []
  dot_S4x4x1024x64_S4x4x1024x64_S4x4x1024x1024_3_3_2_2_01_01_wf : DotDims.WF S4x4x1024x64 S4x4x1024x64 S4x4x1024x1024 [3] [3] [2] [2] [0, 1] [0, 1]
  dot_S4x4x1024x1024_S4x4x1024x64_S4x4x1024x64_3_2_2_3_01_01_wf : DotDims.WF S4x4x1024x1024 S4x4x1024x64 S4x4x1024x64 [3] [2] [2] [3] [0, 1] [0, 1]

variable [Facts₀]

def dot_S4x1024x512_S512x512_S4x1024x512_2_1_01_0_n_n : DotDims S4x1024x512 S512x512 S4x1024x512 where
  lhsContracting := [2]
  rhsContracting := [1]
  lhsNonContracting := [0, 1]
  rhsNonContracting := [0]
  lhsBatch := []
  rhsBatch := []
  wf := dot_S4x1024x512_S512x512_S4x1024x512_2_1_01_0_n_n_wf
def dot_S4x4x1024x64_S4x4x1024x64_S4x4x1024x1024_3_3_2_2_01_01 : DotDims S4x4x1024x64 S4x4x1024x64 S4x4x1024x1024 where
  lhsContracting := [3]
  rhsContracting := [3]
  lhsNonContracting := [2]
  rhsNonContracting := [2]
  lhsBatch := [0, 1]
  rhsBatch := [0, 1]
  wf := dot_S4x4x1024x64_S4x4x1024x64_S4x4x1024x1024_3_3_2_2_01_01_wf
def dot_S4x4x1024x1024_S4x4x1024x64_S4x4x1024x64_3_2_2_3_01_01 : DotDims S4x4x1024x1024 S4x4x1024x64 S4x4x1024x64 where
  lhsContracting := [3]
  rhsContracting := [2]
  lhsNonContracting := [2]
  rhsNonContracting := [3]
  lhsBatch := [0, 1]
  rhsBatch := [0, 1]
  wf := dot_S4x4x1024x1024_S4x4x1024x64_S4x4x1024x64_3_2_2_3_01_01_wf

class Facts : Prop extends Facts₀ where

variable [Facts]
-- ==== Proof.Spec.lean ====
/-
  Two-branch multi-head attention on the extended reals, entry by entry.

  Inputs: `q, k, v : [4, 1024, 512]`, a hop-distance array `sph : [4, 1024, 1024]`, four `[512, 512]` weight matrices with
  their `[512]` biases, and per short head a hop threshold and a decay parameter (`[4]` each).
  * `head x W b` is the projection `x · Wᵀ + b` split into 8 heads of width 64: entry `(bi, h, n, d)` is
    `(∑ k, x (bi, n, k) · W (64 h + d, k)) + b (64 h + d)`.
  * `score` is `(∑ d, qh (bi, h, n, d) · kh (bi, h, m, d)) · 1/8`.
  * Heads 0–3 multiply the score by a decay mask `msk (bi, h, n, m)` (a parameter here: the two programs spell it
    differently, `γ ^ e` against `1` if `e = 0` else `exp (e · log γ)`, with `γ` the logistic of the head's parameter
    and `e = max (sph − hop) 0`); heads 4–7 use the score as it is.
  * Each row of logits is turned into weights by the max-shifted softmax `exp (l − M) / ∑ exp (l − M)`.
  * `headOut` is `∑ m, w (bi, h, n, m) · vh (bi, h, m, d)`; the heads are laid side by side again (column `64 h + d`) and
    projected once more: `final`.
-/
import Idealize.ShloMosaic.PureOps.Ideal
import Idealize.ShloMosaic.Lib.ValueIdx

noncomputable section

open scoped BigOperators

namespace Cert.Attn

open Idealize.ShloMosaic Idealize.ShloMosaic.ValueIdx

abbrev TX := (⟨3, ![4, 1024, 512]⟩ : Shape).Idx → EReal
abbrev TS := (⟨3, ![4, 1024, 1024]⟩ : Shape).Idx → EReal
abbrev TW := (⟨2, ![512, 512]⟩ : Shape).Idx → EReal
abbrev TB := (⟨1, ![512]⟩ : Shape).Idx → EReal
abbrev TP := (⟨1, ![4]⟩ : Shape).Idx → EReal
abbrev TH := (⟨4, ![4, 8, 1024, 64]⟩ : Shape).Idx → EReal
abbrev TA := (⟨4, ![4, 8, 1024, 1024]⟩ : Shape).Idx → EReal
/-- Heads as a function of their four coordinates. -/
abbrev Heads := Fin 4 → Fin 8 → Fin 1024 → Fin 64 → EReal
/-- Attention rows as a function of their four coordinates. -/
abbrev Rows := Fin 4 → Fin 8 → Fin 1024 → Fin 1024 → EReal

/-- Column `64 h + d` of a 512-wide row. -/
def col (h : Fin 8) (d : Fin 64) : Fin 512 := ⟨h.val * 64 + d.val, by have := h.isLt; have := d.isLt; omega⟩
/-- The head a column belongs to. -/
def colHead (e : Fin 512) : Fin 8 := ⟨e.val / 64, by have := e.isLt; omega⟩
/-- The column's place inside its head. -/
def colLane (e : Fin 512) : Fin 64 := ⟨e.val % 64, Nat.mod_lt _ (by decide)⟩
/-- The short head (0–3) whose parameters head `h` would use. -/
def shortOf (h : Fin 8) : Fin 4 := ⟨h.val % 4, Nat.mod_lt _ (by decide)⟩

/-- The projection `x · Wᵀ + b`, entry `(bi, n, e)`. -/
def proj (x : TX) (W : TW) (b : TB) (bi : Fin 4) (n : Fin 1024) (e : Fin 512) : EReal :=
  (∑ k : Fin 512, x (ix3 bi n k) * W (ix2 e k)) + b (ix1 e)

/-- The projection split into heads. -/
def head (x : TX) (W : TW) (b : TB) : Heads := fun bi h n d => proj x W b bi n (col h d)

/-- The literal 1/8 both programs scale the scores by. -/
def eighth : EReal := Ideal.ofBits .f32 0x3E000000#32
/-- The literal −∞ both programs start a row maximum from. -/
def negInf : EReal := Ideal.ofBits .f32 0xFF800000#32

/-- Scaled dot-product scores. -/
def score (qh kh : Heads) : Rows := fun bi h n m => (∑ d : Fin 64, qh bi h n d * kh bi h m d) * eighth

/-- The logits: heads 0–3 carry the decay mask, heads 4–7 do not. -/
def logit (qh kh : Heads) (msk : Rows) : Rows := fun bi h n m =>
  if h.val < 4 then score qh kh bi h n m * msk bi h n m else score qh kh bi h n m

/-- The maximum of a row, folded from −∞. -/
def rowMax (f : Fin 1024 → EReal) : EReal := (Finset.univ : Finset (Fin 1024)).fold max negInf f

/-- The max-shifted softmax of a row. -/
def softRow (l : Fin 1024 → EReal) (m : Fin 1024) : EReal :=
  Ideal.div (Ideal.exp (l m - rowMax l)) (∑ k : Fin 1024, Ideal.exp (l k - rowMax l))

/-- The attention weights. -/
def attnW (qh kh : Heads) (msk : Rows) : Rows := fun bi h n m => softRow (logit qh kh msk bi h n) m

/-- Weighted sums of the value heads. -/
def headOut (w : Rows) (vh : Heads) : Heads := fun bi h n d => ∑ m : Fin 1024, w bi h n m * vh bi h m d

/-- The heads laid side by side and projected: entry `(bi, n, e)`. -/
def final (o : Heads) (Wo : TW) (bo : TB) (bi : Fin 4) (n : Fin 1024) (e : Fin 512) : EReal :=
  (∑ k : Fin 512, o bi (colHead k) n (colLane k) * Wo (ix2 e k)) + bo (ix1 e)

/-- The mask of one entry spelt as a power: `γ ^ e` with `γ` the logistic of the head's parameter `gv` and
    `e = max (s − hopv) 0` the hop excess. -/
def maskPowAt (s hopv gv : EReal) : EReal := Ideal.pow (Ideal.logistic gv) (max (s - hopv) 0)

/-- The same mask spelt as `1` at excess zero and `exp (e · log γ)` elsewhere. -/
def maskExpAt (s hopv gv : EReal) : EReal :=
  if max (s - hopv) 0 = 0 then 1 else Ideal.exp (max (s - hopv) 0 * Ideal.log (Ideal.logistic gv))

/-- The mask array in the power spelling: head `h` uses the parameters of short head `h mod 4`. -/
def maskPow (sph : TS) (hop g : TP) : Rows := fun bi h n m =>
  maskPowAt (sph (ix3 bi n m)) (hop (ix1 (shortOf h))) (g (ix1 (shortOf h)))

/-- The mask array in the exponential spelling. -/
def maskExp (sph : TS) (hop g : TP) : Rows := fun bi h n m =>
  maskExpAt (sph (ix3 bi n m)) (hop (ix1 (shortOf h))) (g (ix1 (shortOf h)))

/-- The second result: the attention weights as a `[4, 8, 1024, 1024]` array. -/
def weights (q k : TX) (Wq : TW) (bq : TB) (Wk : TW) (bk : TB) (msk : Rows) : TA :=
  fun i => attnW (head q Wq bq) (head k Wk bk) msk (i 0) (i 1) (i 2) (i 3)

/-- The first result: the projected attention output as a `[4, 1024, 512]` array. -/
def output (q k v : TX) (Wq : TW) (bq : TB) (Wk : TW) (bk : TB) (Wv : TW) (bv : TB) (Wo : TW) (bo : TB) (msk : Rows) : TX :=
  fun i => final (headOut (attnW (head q Wq bq) (head k Wk bk) msk) (head v Wv bv)) Wo bo (i 0) (i 1) (i 2)

/-! ## The same, in the shapes the kernels compute it in -/

abbrev T2 := (⟨2, ![4096, 512]⟩ : Shape).Idx → EReal
abbrev TQ := (⟨4, ![1, 8, 128, 64]⟩ : Shape).Idx → EReal
abbrev TK := (⟨4, ![1, 8, 1024, 64]⟩ : Shape).Idx → EReal
abbrev TSb := (⟨3, ![1, 128, 1024]⟩ : Shape).Idx → EReal

/-- A dense layer on 4096 rows: entry `(r, e)` of `x · w + b` is `(∑ k, x (r, k) · w (k, e)) + b e`. -/
def dense2 (x : T2) (w : TW) (b : TB) : T2 := fun i => (∑ k : Fin 512, x (ix2 (i 0) k) * w (ix2 k (i 1))) + b (ix1 (i 1))

/-- A `[4, 8, 1024, 64]` array as a function of its coordinates. -/
def asHeads (a : TH) : Heads := fun bi h n d => a (ix4 bi h n d)

/-- Scores of one block of 128 query rows (all 8 heads of one batch entry) against all 1024 keys. -/
def blkScore (xq : TQ) (xk : TK) (h : Fin 8) (r : Fin 128) (m : Fin 1024) : EReal :=
  (∑ d : Fin 64, xq (ix4 0 h r d) * xk (ix4 0 h m d)) * eighth

/-- Logits of the block: heads 0–3 carry the mask in its exponential spelling. -/
def blkLogit (xq : TQ) (xk : TK) (xs : TSb) (hop g : TP) (h : Fin 8) (r : Fin 128) (m : Fin 1024) : EReal :=
  if h.val < 4 then blkScore xq xk h r m * maskExpAt (xs (ix3 0 r m)) (hop (ix1 (shortOf h))) (g (ix1 (shortOf h)))
  else blkScore xq xk h r m

/-- Attention weights of the block. -/
def blkW (xq : TQ) (xk : TK) (xs : TSb) (hop g : TP) (h : Fin 8) (r : Fin 128) (m : Fin 1024) : EReal :=
  softRow (blkLogit xq xk xs hop g h r) m

/-- Attention output of the block. -/
def blkOut (xq : TQ) (xk xv : TK) (xs : TSb) (hop g : TP) (h : Fin 8) (r : Fin 128) (d : Fin 64) : EReal :=
  ∑ m : Fin 1024, blkW xq xk xs hop g h r m * xv (ix4 0 h m d)

end Cert.Attn

end
-- ==== Proof.MaskLaw.lean ====
/-
  The decay mask in its two spellings. For a real base parameter `g` the base `γ = 1 / (1 + e^(−g))` is a real in (0, 1);
  for real `s` and `hop` the excess `e = max (s − hop) 0` is a real ≥ 0. Then `γ ^ e = exp (e · log γ)` (the definition of a
  real power of a positive base), and at `e = 0` both sides are `1`. So on finite inputs the power spelling and the
  "`1` at zero, else `exp (e · log γ)`" spelling are one function.
-/
import proofs.«158447_j8366596293037_2_alg».proof.Proof.Spec
import Mathlib.Analysis.SpecialFunctions.Pow.Real

noncomputable section

namespace Cert.Attn

open Idealize.ShloMosaic

/-- On reals the two spellings of the mask agree. -/
theorem maskExpAt_eq_maskPowAt (a b g : ℝ) :
    maskExpAt (a : EReal) (b : EReal) (g : EReal) = maskPowAt (a : EReal) (b : EReal) (g : EReal) := by
  have he : max ((a : EReal) - (b : EReal)) 0 = ((max (a - b) 0 : ℝ) : EReal) := by
    rw [← EReal.coe_sub, ← EReal.coe_zero]
    exact (EReal.coe_strictMono.monotone.map_max).symm
  have hγ : 0 < (1 + Real.exp (-g))⁻¹ := inv_pos.mpr (by positivity)
  unfold maskExpAt maskPowAt
  rw [he, Ideal.logistic_coe, Ideal.pow_coe_coe]
  by_cases h0 : max (a - b) 0 = 0
  · rw [h0, EReal.coe_zero, if_pos rfl]
    show (1 : EReal) = ((Real.rpow (1 + Real.exp (-g))⁻¹ 0 : ℝ) : EReal)
    rw [Real.rpow_eq_pow, Real.rpow_zero, EReal.coe_one]
  · have hne : ((max (a - b) 0 : ℝ) : EReal) ≠ 0 := fun h => h0 (by exact_mod_cast h)
    rw [if_neg hne, Ideal.log_coe, if_neg (not_le.mpr hγ), ← EReal.coe_mul, Ideal.exp_coe]
    show ((Real.exp (max (a - b) 0 * Real.log (1 + Real.exp (-g))⁻¹) : ℝ) : EReal) = ((Real.rpow (1 + Real.exp (-g))⁻¹ (max (a - b) 0) : ℝ) : EReal)
    rw [Real.rpow_eq_pow, Real.rpow_def_of_pos hγ, mul_comm]

/-- So the two mask arrays agree when `sph`, `hop` and the base parameters are real. -/
theorem maskExp_eq_maskPow (sph : TS) (hop g : TP) (hs : ∀ i, ∃ r : ℝ, sph i = r) (hh : ∀ i, ∃ r : ℝ, hop i = r)
    (hg : ∀ i, ∃ r : ℝ, g i = r) : maskExp sph hop g = maskPow sph hop g := by
  funext bi h n m
  unfold maskExp maskPow
  obtain ⟨a, ha⟩ := hs (ValueIdx.ix3 bi n m)
  obtain ⟨b, hb⟩ := hh (ValueIdx.ix1 (shortOf h))
  obtain ⟨c, hc⟩ := hg (ValueIdx.ix1 (shortOf h))
  rw [ha, hb, hc]
  exact maskExpAt_eq_maskPowAt a b c

end Cert.Attn

end
-- ==== Proof.Finite.lean ====
/-
  From the precondition to the reals. The precondition says of every float argument that all its entries have absolute
  value below +∞. An extended real `x` with `max x (−x) < ⊤` is neither `⊤` nor `⊥`, so it is a real number. Only three of the
  fourteen facts are used: `sph`, the hop thresholds and the decay parameters are arrays of reals.
-/
import proofs.«158447_j8366596293037_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Finite

open Cert.Pre_finite_inputs Idealize.ShloMosaic Idealize.ShloMosaic.ValueIdx

instance : Subsingleton S_.Idx := ⟨fun a b => funext fun d => d.elim0⟩

/-- The literal the precondition compares against is +∞. -/
theorem ofBits_inf : Idealize.ShloMosaic.Ideal.ofBits .f32 0x7F800000#32 = (⊤ : EReal) := by
  simp [Idealize.ShloMosaic.Ideal.ofBits, Idealize.ShloMosaic.Ideal.ieee]

/-- An extended real whose absolute value is below +∞ is a real. -/
theorem real_of_abs_lt_top (x : EReal) (h : max x (-x) < ⊤) : ∃ r : ℝ, x = r := by
  induction x using EReal.rec with
  | bot => simp at h
  | coe r => exact ⟨r, rfl⟩
  | top => simp at h

/-- One entry of an array the precondition's comparison holds of. -/
theorem real_of_cmp {s : Shape} (a : FVec Idealize.ShloMosaic.Ideal s .f32) (hb : S_.BroadcastsInDim s (![] : Fin 0 → Fin s.rank)) (i : s.Idx)
    (e : cmpf CmpFPredicate.olt (Host.absf a) (broadcastInDim s ![] hb (constant (F := Idealize.ShloMosaic.Ideal) S_ .f32 0x7F800000#32)) i = 1#1) :
    ∃ r : ℝ, a i = r := by
  refine real_of_abs_lt_top (a i) ?_
  rw [cmpf_apply] at e
  have hc : broadcastInDim s ![] hb (constant (F := Idealize.ShloMosaic.Ideal) S_ .f32 0x7F800000#32) i = (⊤ : EReal) := by
    show constant (F := Idealize.ShloMosaic.Ideal) S_ .f32 0x7F800000#32 _ = _
    rw [constant_apply, ofBits_inf]
  rw [hc] at e
  have ha : Host.absf a i = max (a i) (-(a i)) := rfl
  rw [ha, Idealize.ShloMosaic.Ideal.cmpf_def] at e
  unfold Idealize.ShloMosaic.Ideal.cmp at e
  by_contra hlt
  simp [hlt] at e

/-- The three facts used: every entry of `sph`, of the hop thresholds and of the decay parameters is a real. -/
theorem reals_of_pre (a0 a1 a2 : FVec Idealize.ShloMosaic.Ideal S4x1024x512 .f32) (a3 : FVec Idealize.ShloMosaic.Ideal S4x1024x1024 .f32)
    (a4 : FVec Idealize.ShloMosaic.Ideal S512x512 .f32) (a5 : FVec Idealize.ShloMosaic.Ideal S512 .f32)
    (a6 : FVec Idealize.ShloMosaic.Ideal S512x512 .f32) (a7 : FVec Idealize.ShloMosaic.Ideal S512 .f32)
    (a8 : FVec Idealize.ShloMosaic.Ideal S512x512 .f32) (a9 : FVec Idealize.ShloMosaic.Ideal S512 .f32)
    (a10 : FVec Idealize.ShloMosaic.Ideal S512x512 .f32) (a11 : FVec Idealize.ShloMosaic.Ideal S512 .f32)
    (a12 a13 : FVec Idealize.ShloMosaic.Ideal S4 .f32)
    (h : Cert.Pre_finite_inputs.fn (F := Idealize.ShloMosaic.Ideal) a0 a1 a2 a3 a4 a5 a6 a7 a8 a9 a10 a11 a12 a13 = fun _ => 1#1) :
    (∀ i, ∃ r : ℝ, a3 i = r) ∧ (∀ i, ∃ r : ℝ, a12 i = r) ∧ (∀ i, ∃ r : ℝ, a13 i = r) := by
  have h0 := congrFun h ValueIdx.ix0
  dsimp only [fn, fn_part1, fn_part2, fn_part3, fn_part4] at h0
  obtain ⟨h63, h67⟩ := IntOp.andi_eq_one.1 h0
  obtain ⟨h58, h62⟩ := IntOp.andi_eq_one.1 h63
  obtain ⟨h53, -⟩ := IntOp.andi_eq_one.1 h58
  obtain ⟨h48, -⟩ := IntOp.andi_eq_one.1 h53
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨-, h17⟩ := IntOp.andi_eq_one.1 h18
  exact ⟨fun i => real_of_cmp a3 _ i (Host.reduce_andi_all _ _ _ _ _ h17 i),
    fun i => real_of_cmp a12 _ i (Host.reduce_andi_all _ _ _ _ _ h62 i),
    fun i => real_of_cmp a13 _ i (Host.reduce_andi_all _ _ _ _ _ h67 i)⟩

end Cert.Attn.Finite

end
-- ==== Proof.KernelRun.lean ====
/-
  The idealized kernel program's run with its two results named: every weakly fair execution of @main terminates,
  nothing faulting, with the result buffers at the contents the last segment boundary gives them and the arguments as
  launched. The contents at the boundaries are a fold through @main: a stretch of host operations applies them, a region
  replaces its arrays by what its grid points wrote back.
-/
import proofs.«158447_j8366596293037_2_alg».proof.Proof.Gen.KernelIdeal.Frame

set_option maxRecDepth 16384

noncomputable section

namespace Cert.Attn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with both results read at the last boundary's contents. -/
theorem run : θ_run defs (onTc (τ := τ) (main (F := F))) ⟨m, fun _ => 0, ρ⟩ (fun r => ∀ c : Dev nD,
      r.2.mem ((c.tc : Thread nD τ).loc main_v20) = W11 m ρ c (Proc.devRef .tc main_v20)
      ∧ r.2.mem ((c.tc : Thread nD τ).loc main_v15_1) = W11 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v20 (by decide)),
       h c _ (mem_uc main_v15_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.Attn.KRun

end
-- ==== Proof.Layout.lean ====
/-
  The re-layings between the flat `[4096, 512]` form the dense layers work in and the per-head form the attention works
  in. Row `1024·bi + n` of the flat form is position `n` of batch entry `bi`; column `64·h + d` is lane `d` of head `h`.
  With them, a dense layer on the flattened rows against the transposed weights, re-laid into heads, is the projection
  `head`, and the same layer on the re-flattened attention output is `final`.
-/
import proofs.«158447_j8366596293037_2_alg».proof.Proof.Spec
import Idealize.ShloMosaic.Lib.Pipeline.Value
import Idealize.ShloMosaic.Lib.ValueLayout

noncomputable section

open scoped BigOperators

namespace Cert.Attn

open Idealize.ShloMosaic Idealize.ShloMosaic.ValueIdx

/-- Row `1024·bi + n` of the flat form. -/
def flatRow (bi : Fin 4) (n : Fin 1024) : Fin 4096 := ⟨bi.val * 1024 + n.val, by have := bi.isLt; have := n.isLt; omega⟩

theorem col_head_lane (k : Fin 512) : col (colHead k) (colLane k) = k :=
  Fin.ext (by show k.val / 64 * 64 + k.val % 64 = k.val; omega)

/-- `[4, 1024, 512]` flattened to `[4096, 512]`, read at row `1024·bi + n`. -/
theorem flatten_apply (x : TX) (h : (⟨3, ![4, 1024, 512]⟩ : Shape).ShapeCasts ⟨2, ![4096, 512]⟩) (bi : Fin 4) (n : Fin 1024) (k : Fin 512) :
    shapeCast ⟨2, ![4096, 512]⟩ x h (ix2 (flatRow bi n) k) = x (ix3 bi n k) := by
  refine shapeCast_apply x h _ _ ?_
  rw [Shape.rowMajor_val_three, Shape.rowMajor_val_two]
  rfl

/-- `[4096, 512]` unflattened to `[4, 1024, 512]`, read at `(bi, n, e)`. -/
theorem unflatten_apply (y : T2) (h : (⟨2, ![4096, 512]⟩ : Shape).ShapeCasts ⟨3, ![4, 1024, 512]⟩) (bi : Fin 4) (n : Fin 1024) (e : Fin 512) :
    shapeCast ⟨3, ![4, 1024, 512]⟩ y h (ix3 bi n e) = y (ix2 (flatRow bi n) e) := by
  refine shapeCast_apply y h _ _ ?_
  rw [Shape.rowMajor_val_three, Shape.rowMajor_val_two]
  rfl

/-- The flat form split into heads: `[4096, 512] → [4, 1024, 8, 64]`, then the two middle axes exchanged. -/
theorem toHeads_apply (y : T2) (hc : (⟨2, ![4096, 512]⟩ : Shape).ShapeCasts ⟨4, ![4, 1024, 8, 64]⟩)
    (ht : (⟨4, ![4, 1024, 8, 64]⟩ : Shape).Transposes [0, 2, 1, 3] ⟨4, ![4, 8, 1024, 64]⟩)
    (bi : Fin 4) (h : Fin 8) (n : Fin 1024) (d : Fin 64) :
    transpose ⟨4, ![4, 8, 1024, 64]⟩ [0, 2, 1, 3] (shapeCast ⟨4, ![4, 1024, 8, 64]⟩ y hc) ht (ix4 bi h n d)
      = y (ix2 (flatRow bi n) (col h d)) := by
  rw [transpose_apply [0, 2, 1, 3] _ ht (ix4 bi h n d) (ix4 bi n h d)
    (fun c => match c with | ⟨0, _⟩ => rfl | ⟨1, _⟩ => rfl | ⟨2, _⟩ => rfl | ⟨3, _⟩ => rfl)]
  refine shapeCast_apply y hc _ _ ?_
  rw [Shape.rowMajor_val_four, Shape.rowMajor_val_two]
  show (bi.val * 1024 + n.val) * 512 + (h.val * 64 + d.val) = ((bi.val * 1024 + n.val) * 8 + h.val) * 64 + d.val
  ring

/-- The heads laid side by side again: the two middle axes exchanged, then `[4, 1024, 8, 64] → [4096, 512]`. -/
theorem fromHeads_apply (o : TH) (ht : (⟨4, ![4, 8, 1024, 64]⟩ : Shape).Transposes [0, 2, 1, 3] ⟨4, ![4, 1024, 8, 64]⟩)
    (hc : (⟨4, ![4, 1024, 8, 64]⟩ : Shape).ShapeCasts ⟨2, ![4096, 512]⟩)
    (bi : Fin 4) (n : Fin 1024) (k : Fin 512) :
    shapeCast ⟨2, ![4096, 512]⟩ (transpose ⟨4, ![4, 1024, 8, 64]⟩ [0, 2, 1, 3] o ht) hc (ix2 (flatRow bi n) k)
      = o (ix4 bi (colHead k) n (colLane k)) := by
  rw [shapeCast_apply _ hc (ix2 (flatRow bi n) k) (ix4 bi n (colHead k) (colLane k)) (by
    rw [Shape.rowMajor_val_four, Shape.rowMajor_val_two]
    show ((bi.val * 1024 + n.val) * 8 + k.val / 64) * 64 + k.val % 64 = (bi.val * 1024 + n.val) * 512 + k.val
    omega)]
  exact transpose_apply [0, 2, 1, 3] o ht (ix4 bi n (colHead k) (colLane k)) (ix4 bi (colHead k) n (colLane k))
    (fun c => match c with | ⟨0, _⟩ => rfl | ⟨1, _⟩ => rfl | ⟨2, _⟩ => rfl | ⟨3, _⟩ => rfl)

/-- The dense layer on the flattened rows against the transposed weights is the projection. -/
theorem dense2_flat (x : TX) (W : TW) (b : TB) (h : (⟨3, ![4, 1024, 512]⟩ : Shape).ShapeCasts ⟨2, ![4096, 512]⟩)
    (ht : (⟨2, ![512, 512]⟩ : Shape).Transposes [1, 0] ⟨2, ![512, 512]⟩) (bi : Fin 4) (n : Fin 1024) (e : Fin 512) :
    dense2 (shapeCast ⟨2, ![4096, 512]⟩ x h) (transpose ⟨2, ![512, 512]⟩ [1, 0] W ht) b (ix2 (flatRow bi n) e) = proj x W b bi n e := by
  show (∑ k : Fin 512, shapeCast ⟨2, ![4096, 512]⟩ x h (ix2 (flatRow bi n) k) * transpose ⟨2, ![512, 512]⟩ [1, 0] W ht (ix2 k e)) + b (ix1 e) = _
  unfold proj
  refine congrArg (· + b (ix1 e)) (Finset.sum_congr rfl fun k _ => ?_)
  rw [flatten_apply, transpose_ix2_apply]

/-- So the projection's heads are the dense layer's flat result split into heads. -/
theorem heads_of_dense2 (x : TX) (W : TW) (b : TB) (h : (⟨3, ![4, 1024, 512]⟩ : Shape).ShapeCasts ⟨2, ![4096, 512]⟩)
    (ht : (⟨2, ![512, 512]⟩ : Shape).Transposes [1, 0] ⟨2, ![512, 512]⟩)
    (hc : (⟨2, ![4096, 512]⟩ : Shape).ShapeCasts ⟨4, ![4, 1024, 8, 64]⟩)
    (ht' : (⟨4, ![4, 1024, 8, 64]⟩ : Shape).Transposes [0, 2, 1, 3] ⟨4, ![4, 8, 1024, 64]⟩) :
    asHeads (transpose ⟨4, ![4, 8, 1024, 64]⟩ [0, 2, 1, 3]
      (shapeCast ⟨4, ![4, 1024, 8, 64]⟩ (dense2 (shapeCast ⟨2, ![4096, 512]⟩ x h) (transpose ⟨2, ![512, 512]⟩ [1, 0] W ht) b) hc) ht')
      = head x W b := by
  funext bi hh n d
  unfold asHeads head
  rw [toHeads_apply, dense2_flat]

/-- And the final projection is the dense layer on the re-flattened heads, unflattened. -/
theorem final_of_dense2 (o : TH) (Wo : TW) (bo : TB)
    (ht : (⟨4, ![4, 8, 1024, 64]⟩ : Shape).Transposes [0, 2, 1, 3] ⟨4, ![4, 1024, 8, 64]⟩)
    (hc : (⟨4, ![4, 1024, 8, 64]⟩ : Shape).ShapeCasts ⟨2, ![4096, 512]⟩)
    (ht' : (⟨2, ![512, 512]⟩ : Shape).Transposes [1, 0] ⟨2, ![512, 512]⟩)
    (hu : (⟨2, ![4096, 512]⟩ : Shape).ShapeCasts ⟨3, ![4, 1024, 512]⟩) (i : (⟨3, ![4, 1024, 512]⟩ : Shape).Idx) :
    shapeCast ⟨3, ![4, 1024, 512]⟩ (dense2 (shapeCast ⟨2, ![4096, 512]⟩ (transpose ⟨4, ![4, 1024, 8, 64]⟩ [0, 2, 1, 3] o ht) hc)
      (transpose ⟨2, ![512, 512]⟩ [1, 0] Wo ht') bo) hu i = final (asHeads o) Wo bo (i 0) (i 1) (i 2) := by
  obtain ⟨bi, n, e, rfl⟩ : ∃ (bi : Fin 4) (n : Fin 1024) (e : Fin 512), i = ix3 bi n e := ⟨i 0, i 1, i 2, eq_ix3 i⟩
  rw [unflatten_apply]
  show (∑ k : Fin 512, shapeCast ⟨2, ![4096, 512]⟩ (transpose ⟨4, ![4, 1024, 8, 64]⟩ [0, 2, 1, 3] o ht) hc (ix2 (flatRow bi n) k)
      * transpose ⟨2, ![512, 512]⟩ [1, 0] Wo ht' (ix2 k e)) + bo (ix1 e) = _
  unfold final asHeads
  refine congrArg (· + bo (ix1 e)) (Finset.sum_congr rfl fun k _ => ?_)
  rw [fromHeads_apply, transpose_ix2_apply]

end Cert.Attn

end
-- ==== Proof.Walk.lean ====
/-
  The buffer contents at the boundaries of the kernel program's segments, read one buffer at a time. A stretch of host
  operations changes only the buffers it writes, each to its operation's value of the stretch's inputs; a region changes
  only its own arrays. So every buffer a region reads is, by walking back, a re-laying (a reshape, a transpose) of an
  argument or of an earlier region's result.
-/
import proofs.«158447_j8366596293037_2_alg».proof.Proof.Gen.KernelIdeal.Frame
import Idealize.ShloMosaic.Lib.StableHlo.Run
import Idealize.ShloMosaic.PureOps.Ideal

set_option maxRecDepth 16384

noncomputable section

namespace Cert.Attn.Walk

open Cert.KernelIdeal Cert.KernelIdeal.Gen Idealize.ShloMosaic Idealize.ShloMosaic.TcCoe Idealize.SL.Sem Idealize.ShloMosaic.StableHlo

variable (m : (ℓ : Loc nD τ sig) → Buf (Elt Idealize.ShloMosaic.Ideal) ℓ) (ρ : Dev nD → PrngReg) (c : Dev nD)

/-! ## A buffer a stretch does not write keeps its contents -/

theorem skip0 {b : Ref sig .tc} (h0 : b ≠ main_v0) (h1 : b ≠ main_v1) :
    W1 m ρ c (Proc.devRef .tc b) = W0 m ρ c (Proc.devRef .tc b) := by
  show StableHlo.after hostOps0 (W0 m ρ c) (Proc.devRef .tc b) = _
  dsimp only [hostOps0]
  simp only [after_cons, after_nil]
  rw [unary_result_ne (h := h1), reshape_result_ne (h := h0)]

theorem skip1 {b : Ref sig .tc} (h0 : b ≠ main_v3) (h1 : b ≠ main_v4) (h2 : b ≠ main_v5) (h3 : b ≠ main_v6) :
    W3 m ρ c (Proc.devRef .tc b) = W2 m ρ c (Proc.devRef .tc b) := by
  show StableHlo.after hostOps1 (W2 m ρ c) (Proc.devRef .tc b) = _
  dsimp only [hostOps1]
  simp only [after_cons, after_nil]
  rw [unary_result_ne (h := h3), reshape_result_ne (h := h2), unary_result_ne (h := h1), reshape_result_ne (h := h0)]

theorem skip2 {b : Ref sig .tc} (h0 : b ≠ main_v8) (h1 : b ≠ main_v9) (h2 : b ≠ main_v10) (h3 : b ≠ main_v11) :
    W5 m ρ c (Proc.devRef .tc b) = W4 m ρ c (Proc.devRef .tc b) := by
  show StableHlo.after hostOps2 (W4 m ρ c) (Proc.devRef .tc b) = _
  dsimp only [hostOps2]
  simp only [after_cons, after_nil]
  rw [unary_result_ne (h := h3), reshape_result_ne (h := h2), unary_result_ne (h := h1), reshape_result_ne (h := h0)]

theorem skip3 {b : Ref sig .tc} (h0 : b ≠ main_v13) (h1 : b ≠ main_v14) :
    W7 m ρ c (Proc.devRef .tc b) = W6 m ρ c (Proc.devRef .tc b) := by
  show StableHlo.after hostOps3 (W6 m ρ c) (Proc.devRef .tc b) = _
  dsimp only [hostOps3]
  simp only [after_cons, after_nil]
  rw [unary_result_ne (h := h1), reshape_result_ne (h := h0)]

theorem skip4 {b : Ref sig .tc} (h0 : b ≠ main_v16) (h1 : b ≠ main_v17) (h2 : b ≠ main_v18) :
    W9 m ρ c (Proc.devRef .tc b) = W8 m ρ c (Proc.devRef .tc b) := by
  show StableHlo.after hostOps4 (W8 m ρ c) (Proc.devRef .tc b) = _
  dsimp only [hostOps4]
  simp only [after_cons, after_nil]
  rw [unary_result_ne (h := h2), reshape_result_ne (h := h1), unary_result_ne (h := h0)]

theorem skip5 {b : Ref sig .tc} (h0 : b ≠ main_v20) :
    W11 m ρ c (Proc.devRef .tc b) = W10 m ρ c (Proc.devRef .tc b) := by
  show StableHlo.after hostOps5 (W10 m ρ c) (Proc.devRef .tc b) = _
  dsimp only [hostOps5]
  simp only [after_cons, after_nil]
  rw [reshape_result_ne (h := h0)]

/-! ## Region 0's inputs: the flattened `q`, the transposed weights, the bias -/

theorem in0_x : W1 m ρ c (Proc.devRef .tc main_v0)
    = shapeCast S4096x512 (m ((c : Thread nD τ).loc main_arg0)) shapeCasts_S4x1024x512_S4096x512 := by
  show StableHlo.after hostOps0 (W0 m ρ c) (Proc.devRef .tc main_v0) = _
  dsimp only [hostOps0]; after_results; all_goals rfl

theorem in0_w : W1 m ρ c (Proc.devRef .tc main_v1)
    = transpose S512x512 [1, 0] (m ((c : Thread nD τ).loc main_arg4)) transposes_S512x512_S512x512_1_0 := by
  show StableHlo.after hostOps0 (W0 m ρ c) (Proc.devRef .tc main_v1) = _
  dsimp only [hostOps0]; after_results; all_goals rfl

theorem in0_b : W1 m ρ c (Proc.devRef .tc main_arg5) = m ((c : Thread nD τ).loc main_arg5) :=
  skip0 m ρ c (by decide) (by decide)

/-- Region 0 writes only its result: every other buffer is as it entered. -/
theorem keep0 {b : Ref sig .tc} (h : ∀ w, Pipeline.arrRef spec0 w ≠ b) (h0 : b ≠ main_v0) (h1 : b ≠ main_v1) :
    W2 m ρ c (Proc.devRef .tc b) = m ((c : Thread nD τ).loc b) :=
  (W2_of_ne m ρ c b h).trans (skip0 m ρ c h0 h1)

/-! ## Region 1's inputs -/

theorem in1_x : W3 m ρ c (Proc.devRef .tc main_v5)
    = shapeCast S4096x512 (m ((c : Thread nD τ).loc main_arg1)) shapeCasts_S4x1024x512_S4096x512 := by
  have e : W3 m ρ c (Proc.devRef .tc main_v5)
      = shapeCast S4096x512 (W2 m ρ c (Proc.devRef .tc main_arg1)) shapeCasts_S4x1024x512_S4096x512 := by
    show StableHlo.after hostOps1 (W2 m ρ c) (Proc.devRef .tc main_v5) = _
    dsimp only [hostOps1]; after_results; all_goals rfl
  rw [e, keep0 m ρ c (by decide) (by decide) (by decide)]

theorem in1_w : W3 m ρ c (Proc.devRef .tc main_v6)
    = transpose S512x512 [1, 0] (m ((c : Thread nD τ).loc main_arg6)) transposes_S512x512_S512x512_1_0 := by
  have e : W3 m ρ c (Proc.devRef .tc main_v6)
      = transpose S512x512 [1, 0] (W2 m ρ c (Proc.devRef .tc main_arg6)) transposes_S512x512_S512x512_1_0 := by
    show StableHlo.after hostOps1 (W2 m ρ c) (Proc.devRef .tc main_v6) = _
    dsimp only [hostOps1]; after_results; all_goals rfl
  rw [e, keep0 m ρ c (by decide) (by decide) (by decide)]

theorem in1_b : W3 m ρ c (Proc.devRef .tc main_arg7) = m ((c : Thread nD τ).loc main_arg7) :=
  (skip1 m ρ c (by decide) (by decide) (by decide) (by decide)).trans (keep0 m ρ c (by decide) (by decide) (by decide))

/-- The `q` heads as the stretch after region 0 leaves them. -/
theorem heads_q : W3 m ρ c (Proc.devRef .tc main_v4)
    = transpose S4x8x1024x64 [0, 2, 1, 3] (shapeCast S4x1024x8x64 (W2 m ρ c (Proc.devRef .tc main_v2)) shapeCasts_S4096x512_S4x1024x8x64)
        transposes_S4x1024x8x64_S4x8x1024x64_0_2_1_3 := by
  show StableHlo.after hostOps1 (W2 m ρ c) (Proc.devRef .tc main_v4) = _
  dsimp only [hostOps1]; after_results; all_goals rfl

/-- Past region 1 a buffer neither region 1 nor the two first stretches write is as launched. -/
theorem keep1 {b : Ref sig .tc} (h1 : ∀ w, Pipeline.arrRef spec1 w ≠ b) (a0 : b ≠ main_v3) (a1 : b ≠ main_v4) (a2 : b ≠ main_v5)
    (a3 : b ≠ main_v6) (h : ∀ w, Pipeline.arrRef spec0 w ≠ b) (h0 : b ≠ main_v0) (h1' : b ≠ main_v1) :
    W4 m ρ c (Proc.devRef .tc b) = m ((c : Thread nD τ).loc b) :=
  (W4_of_ne m ρ c b h1).trans ((skip1 m ρ c a0 a1 a2 a3).trans (keep0 m ρ c h h0 h1'))

/-! ## Region 2's inputs -/

theorem in2_x : W5 m ρ c (Proc.devRef .tc main_v10)
    = shapeCast S4096x512 (m ((c : Thread nD τ).loc main_arg2)) shapeCasts_S4x1024x512_S4096x512 := by
  have e : W5 m ρ c (Proc.devRef .tc main_v10)
      = shapeCast S4096x512 (W4 m ρ c (Proc.devRef .tc main_arg2)) shapeCasts_S4x1024x512_S4096x512 := by
    show StableHlo.after hostOps2 (W4 m ρ c) (Proc.devRef .tc main_v10) = _
    dsimp only [hostOps2]; after_results; all_goals rfl
  rw [e, keep1 m ρ c (by decide) (by decide) (by decide) (by decide) (by decide) (by decide) (by decide) (by decide)]

theorem in2_w : W5 m ρ c (Proc.devRef .tc main_v11)
    = transpose S512x512 [1, 0] (m ((c : Thread nD τ).loc main_arg8)) transposes_S512x512_S512x512_1_0 := by
  have e : W5 m ρ c (Proc.devRef .tc main_v11)
      = transpose S512x512 [1, 0] (W4 m ρ c (Proc.devRef .tc main_arg8)) transposes_S512x512_S512x512_1_0 := by
    show StableHlo.after hostOps2 (W4 m ρ c) (Proc.devRef .tc main_v11) = _
    dsimp only [hostOps2]; after_results; all_goals rfl
  rw [e, keep1 m ρ c (by decide) (by decide) (by decide) (by decide) (by decide) (by decide) (by decide) (by decide)]

theorem in2_b : W5 m ρ c (Proc.devRef .tc main_arg9) = m ((c : Thread nD τ).loc main_arg9) :=
  (skip2 m ρ c (by decide) (by decide) (by decide) (by decide)).trans
    (keep1 m ρ c (by decide) (by decide) (by decide) (by decide) (by decide) (by decide) (by decide) (by decide))

/-- The `k` heads as the stretch after region 1 leaves them. -/
theorem heads_k : W5 m ρ c (Proc.devRef .tc main_v9)
    = transpose S4x8x1024x64 [0, 2, 1, 3] (shapeCast S4x1024x8x64 (W4 m ρ c (Proc.devRef .tc main_v7)) shapeCasts_S4096x512_S4x1024x8x64)
        transposes_S4x1024x8x64_S4x8x1024x64_0_2_1_3 := by
  show StableHlo.after hostOps2 (W4 m ρ c) (Proc.devRef .tc main_v9) = _
  dsimp only [hostOps2]; after_results; all_goals rfl

/-- Past region 2 likewise. -/
theorem keep2 {b : Ref sig .tc} (h2 : ∀ w, Pipeline.arrRef spec2 w ≠ b) (b0 : b ≠ main_v8) (b1 : b ≠ main_v9) (b2 : b ≠ main_v10)
    (b3 : b ≠ main_v11) (h1 : ∀ w, Pipeline.arrRef spec1 w ≠ b) (a0 : b ≠ main_v3) (a1 : b ≠ main_v4) (a2 : b ≠ main_v5)
    (a3 : b ≠ main_v6) (h : ∀ w, Pipeline.arrRef spec0 w ≠ b) (h0 : b ≠ main_v0) (h1' : b ≠ main_v1) :
    W6 m ρ c (Proc.devRef .tc b) = m ((c : Thread nD τ).loc b) :=
  (W6_of_ne m ρ c b h2).trans ((skip2 m ρ c b0 b1 b2 b3).trans (keep1 m ρ c h1 a0 a1 a2 a3 h h0 h1'))

/-! ## Region 3's inputs: the three head arrays, `sph`, the thresholds and the decay parameters -/

theorem in3_q : W7 m ρ c (Proc.devRef .tc main_v4) = W3 m ρ c (Proc.devRef .tc main_v4) :=
  (skip3 m ρ c (by decide) (by decide)).trans ((W6_of_ne m ρ c main_v4 (by decide)).trans
    ((skip2 m ρ c (by decide) (by decide) (by decide) (by decide)).trans (W4_of_ne m ρ c main_v4 (by decide))))

theorem in3_k : W7 m ρ c (Proc.devRef .tc main_v9) = W5 m ρ c (Proc.devRef .tc main_v9) :=
  (skip3 m ρ c (by decide) (by decide)).trans (W6_of_ne m ρ c main_v9 (by decide))

/-- The `v` heads as the stretch after region 2 leaves them. -/
theorem in3_v : W7 m ρ c (Proc.devRef .tc main_v14)
    = transpose S4x8x1024x64 [0, 2, 1, 3] (shapeCast S4x1024x8x64 (W6 m ρ c (Proc.devRef .tc main_v12)) shapeCasts_S4096x512_S4x1024x8x64)
        transposes_S4x1024x8x64_S4x8x1024x64_0_2_1_3 := by
  show StableHlo.after hostOps3 (W6 m ρ c) (Proc.devRef .tc main_v14) = _
  dsimp only [hostOps3]; after_results; all_goals rfl

theorem in3_sph : W7 m ρ c (Proc.devRef .tc main_arg3) = m ((c : Thread nD τ).loc main_arg3) :=
  (skip3 m ρ c (by decide) (by decide)).trans (keep2 m ρ c (by decide) (by decide) (by decide) (by decide) (by decide) (by decide)
    (by decide) (by decide) (by decide) (by decide) (by decide) (by decide) (by decide))

theorem in3_hop : W7 m ρ c (Proc.devRef .tc main_arg12) = m ((c : Thread nD τ).loc main_arg12) :=
  (skip3 m ρ c (by decide) (by decide)).trans (keep2 m ρ c (by decide) (by decide) (by decide) (by decide) (by decide) (by decide)
    (by decide) (by decide) (by decide) (by decide) (by decide) (by decide) (by decide))

theorem in3_g : W7 m ρ c (Proc.devRef .tc main_arg13) = m ((c : Thread nD τ).loc main_arg13) :=
  (skip3 m ρ c (by decide) (by decide)).trans (keep2 m ρ c (by decide) (by decide) (by decide) (by decide) (by decide) (by decide)
    (by decide) (by decide) (by decide) (by decide) (by decide) (by decide) (by decide))

/-- Past region 3 likewise. -/
theorem keep3 {b : Ref sig .tc} (h3 : ∀ w, Pipeline.arrRef spec3 w ≠ b) (c0 : b ≠ main_v13) (c1 : b ≠ main_v14)
    (h2 : ∀ w, Pipeline.arrRef spec2 w ≠ b) (b0 : b ≠ main_v8) (b1 : b ≠ main_v9) (b2 : b ≠ main_v10)
    (b3 : b ≠ main_v11) (h1 : ∀ w, Pipeline.arrRef spec1 w ≠ b) (a0 : b ≠ main_v3) (a1 : b ≠ main_v4) (a2 : b ≠ main_v5)
    (a3 : b ≠ main_v6) (h : ∀ w, Pipeline.arrRef spec0 w ≠ b) (h0 : b ≠ main_v0) (h1' : b ≠ main_v1) :
    W8 m ρ c (Proc.devRef .tc b) = m ((c : Thread nD τ).loc b) :=
  (W8_of_ne m ρ c b h3).trans ((skip3 m ρ c c0 c1).trans (keep2 m ρ c h2 b0 b1 b2 b3 h1 a0 a1 a2 a3 h h0 h1'))

/-! ## Region 4's inputs, and the two results -/

theorem in4_x : W9 m ρ c (Proc.devRef .tc main_v17)
    = shapeCast S4096x512 (transpose S4x1024x8x64 [0, 2, 1, 3] (W8 m ρ c (Proc.devRef .tc main_v15_0)) transposes_S4x8x1024x64_S4x1024x8x64_0_2_1_3)
        shapeCasts_S4x1024x8x64_S4096x512 := by
  show StableHlo.after hostOps4 (W8 m ρ c) (Proc.devRef .tc main_v17) = _
  dsimp only [hostOps4]; after_results; all_goals rfl

theorem in4_w : W9 m ρ c (Proc.devRef .tc main_v18)
    = transpose S512x512 [1, 0] (m ((c : Thread nD τ).loc main_arg10)) transposes_S512x512_S512x512_1_0 := by
  have e : W9 m ρ c (Proc.devRef .tc main_v18)
      = transpose S512x512 [1, 0] (W8 m ρ c (Proc.devRef .tc main_arg10)) transposes_S512x512_S512x512_1_0 := by
    show StableHlo.after hostOps4 (W8 m ρ c) (Proc.devRef .tc main_v18) = _
    dsimp only [hostOps4]; after_results; all_goals rfl
  rw [e, keep3 m ρ c (by decide) (by decide) (by decide) (by decide) (by decide) (by decide) (by decide) (by decide) (by decide)
    (by decide) (by decide) (by decide) (by decide) (by decide) (by decide) (by decide)]

theorem in4_b : W9 m ρ c (Proc.devRef .tc main_arg11) = m ((c : Thread nD τ).loc main_arg11) :=
  (skip4 m ρ c (by decide) (by decide) (by decide)).trans
    (keep3 m ρ c (by decide) (by decide) (by decide) (by decide) (by decide) (by decide) (by decide) (by decide) (by decide)
      (by decide) (by decide) (by decide) (by decide) (by decide) (by decide) (by decide))

/-- The first result is region 4's result unflattened. -/
theorem res_out : W11 m ρ c (Proc.devRef .tc main_v20)
    = shapeCast S4x1024x512 (W10 m ρ c (Proc.devRef .tc main_v19)) shapeCasts_S4096x512_S4x1024x512 := by
  show StableHlo.after hostOps5 (W10 m ρ c) (Proc.devRef .tc main_v20) = _
  dsimp only [hostOps5]; after_results; all_goals rfl

/-- The second result is region 3's weights array, untouched afterwards. -/
theorem res_weights : W11 m ρ c (Proc.devRef .tc main_v15_1) = W8 m ρ c (Proc.devRef .tc main_v15_1) :=
  (skip5 m ρ c (by decide)).trans ((W10_of_ne m ρ c main_v15_1 (by decide)).trans (skip4 m ρ c (by decide) (by decide) (by decide)))

end Cert.Attn.Walk

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LinearBody.lean ====
/-
  The dense-layer kernel's arithmetic, entry by entry.

  The kernel body loads a block `x : [1024, 512]`, the weights `w : [512, 512]` and the bias `b : [512]`, narrows
  `x` and `w` (the identity on the extended reals), multiplies them into a zero accumulator, and adds the bias laid
  along every row. At the entry `(p, q)` this is `(∑ k, x (p, k) · w (k, q)) + b q`: the product is the plain
  `[1024, 512] · [512, 512]` contraction, the bias is first viewed as one row `[1, 512]` and then repeated over the
  1024 rows, so its entry at `(p, q)` is `b q`.

  The four dense regions of the program run the same body; their payload terms are the same term under four names.
-/
import proofs.«158447_j8366596293037_2_alg».proof.Proof.Gen.KernelIdeal.Skeleton
import proofs.«158447_j8366596293037_2_alg».proof.Proof.LibPlainMatmul
import Idealize.ShloMosaic.Lib.ValueLayout
import Idealize.ShloMosaic.Lib.ValueIdx

noncomputable section

open scoped BigOperators

namespace Cert.Attn.Lin

open Idealize.ShloMosaic Idealize.ShloMosaic.ValueIdx
open Cert.KernelIdeal Cert.KernelIdeal.Gen

/-- The body's result at `(p, q)`: the row `p` of `x` against the column `q` of `w`, plus `b q`. -/
theorem pay0_apply (x : Vec Ideal S1024x512 .f32) (w : Vec Ideal S512x512 .f32) (b : Vec Ideal S512 .f32)
    (p : Fin 1024) (q : Fin 512) :
    Gen.k0_pay1 (F := Ideal) x w b (ix2 p q) = (∑ k : Fin 512, x (ix2 p k) * w (ix2 k q)) + b (ix1 q) := by
  unfold Gen.k0_pay1
  refine (addf_apply _ _ _).trans ?_
  congr 1
  · refine (Cert.LibPlainMatmul.matmul_plain_zero_apply _ rfl none _ _ p q).trans ?_
    refine Finset.sum_congr rfl fun k _ => ?_
    rw [truncf_apply, truncf_apply, shapeCast_self, shapeCast_self]
  · refine (broadcastTo_1b_ab_apply _ _ p q).trans ?_
    exact shapeCast_a_1a_apply b _ 0 q

/-- The second dense region's body is the first one's. -/
theorem pay1_eq (x : Vec Ideal S1024x512 .f32) (w : Vec Ideal S512x512 .f32) (b : Vec Ideal S512 .f32) :
    Gen.k1_pay1 (F := Ideal) x w b = Gen.k0_pay1 x w b := rfl

/-- The third dense region's body is the first one's. -/
theorem pay2_eq (x : Vec Ideal S1024x512 .f32) (w : Vec Ideal S512x512 .f32) (b : Vec Ideal S512 .f32) :
    Gen.k2_pay1 (F := Ideal) x w b = Gen.k0_pay1 x w b := rfl

/-- The last dense region's body is the first one's. -/
theorem pay4_eq (x : Vec Ideal S1024x512 .f32) (w : Vec Ideal S512x512 .f32) (b : Vec Ideal S512 .f32) :
    Gen.k4_pay1 (F := Ideal) x w b = Gen.k0_pay1 x w b := rfl

end Cert.Attn.Lin

end
-- ==== Proof.LinearEntry.lean ====
/-
  One entry of a block of rows of the dense layer.

  A grid point of a dense region works on 1024 consecutive rows of the `[4096, 512]` input, with the whole weight
  matrix and the whole bias. If row `j 0` of the block is row `i 0` of the array, the block's entry `j` is the
  array's entry `(i 0, j 1)` of `dense2`: the same sum over the 512 columns plus the same bias entry.
-/
import proofs.«158447_j8366596293037_2_alg».proof.Proof.Spec
import proofs.«158447_j8366596293037_2_alg».proof.Proof.LinearBody

noncomputable section

open scoped BigOperators

namespace Cert.Attn.Lin

open Idealize.ShloMosaic Idealize.ShloMosaic.ValueIdx
open Cert.KernelIdeal Cert.KernelIdeal.Gen

/-- The all-zero offsets of a rank-2 whole-buffer access. -/
theorem hz2 : (![0, 0] : Fin 2 → Nat) = fun _ => 0 := funext fun a => by fin_cases a <;> rfl
/-- The all-zero offsets of a rank-1 whole-buffer access. -/
theorem hz1 : (![0] : Fin 1 → Nat) = fun _ => 0 := funext fun a => by fin_cases a; rfl

/-- Entry `j` of the body's result on a block `x0` whose row `j 0` is row `i 0` of `X`, with the whole weights
    and bias, is entry `i` of `dense2 X W B` when `i` and `j` name the same column. -/
theorem entry_eq (X : T2) (W : TW) (B : TB) (x0 : Vec Ideal S1024x512 .f32) (x1 : Vec Ideal S512x512 .f32)
    (x2 : Vec Ideal S512 .f32) (j : S1024x512.Idx) (i : S4096x512.Idx)
    (h0 : ∀ k : Fin 512, x0 (ix2 (j 0) k) = X (ix2 (i 0) k)) (h1 : x1 = W) (h2 : x2 = B)
    (hi : (i 1).val = (j 1).val) :
    Gen.k0_pay1 (F := Ideal) x0 x1 x2 j = dense2 X W B i := by
  obtain ⟨p, q, rfl⟩ : ∃ (p : Fin 1024) (q : Fin 512), j = ix2 p q := ⟨j 0, j 1, eq_ix2 j⟩
  obtain ⟨r, s, rfl⟩ : ∃ (r : Fin 4096) (s : Fin 512), i = ix2 r s := ⟨i 0, i 1, eq_ix2 i⟩
  obtain rfl : s = q := Fin.ext hi
  subst h1 h2
  rw [pay0_apply]
  show _ = (∑ k : Fin 512, X (ix2 r k) * x1 (ix2 k s)) + x2 (ix1 s)
  congr 1
  exact Finset.sum_congr rfl fun k _ => by rw [h0 k]

end Cert.Attn.Lin

end
-- ==== Proof.LinearRegion0.lean ====
/-
  The first dense region, from blocks to the array.

  The region's grid has four points; point `t` reads rows `1024 t … 1024 t + 1023` of the `[4096, 512]` input, the
  whole weight matrix and the whole bias, and writes the same rows of the output. What point `t` writes back is
  therefore block `t` of ONE function of the three arrays as the region finds them, `dense2`; row `r` of the
  output lies in the block of point `r / 1024`, so the four blocks cover the array and the output ends holding
  `dense2` of the inputs.
-/
import proofs.«158447_j8366596293037_2_alg».proof.Proof.LinearEntry
import proofs.«158447_j8366596293037_2_alg».proof.Proof.Gen.KernelIdeal.Frame
import Idealize.ShloMosaic.Lib.Pipeline.Value

noncomputable section

open scoped BigOperators

namespace Cert.Attn.Lin

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices at each grid point: the input rows and the output rows move with the point, the columns, the
    weights and the bias stay at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `dense2` of the arrays as the region finds them. -/
theorem flushed0 (c : Dev nD) (t : Fin cfg0.N) :
    (Gen.dat0 (F := Ideal) V c).flushed 3 t = ((cfg0.win 3).blk t).view.read (Elt Ideal)
      (dense2 (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero hz2]
  simp only [View.ld_unit_zero (S := S1024x512) hz2, View.ld_unit_zero (S := S512x512) hz2, View.ld_unit_zero (S := S512) hz1]
  obtain ⟨e00, e01, e10, e11, e20, e30, e31⟩ := idx0 t
  funext j
  show Gen.k0_pay1 (Gen.iblk0 V c 0 t) (Gen.iblk0 V c 1 t) (Gen.iblk0 V c 2 t) j
    = dense2 (V c (Pipeline.arrRef spec0 0)) (V c (Pipeline.arrRef spec0 1)) (V c (Pipeline.arrRef spec0 2))
        (((cfg0.win 3).blk t).view.emb j)
  refine entry_eq (V c (Pipeline.arrRef spec0 0)) (V c (Pipeline.arrRef spec0 1)) (V c (Pipeline.arrRef spec0 2))
    (Gen.iblk0 V c 0 t) (Gen.iblk0 V c 1 t) (Gen.iblk0 V c 2 t) j (((cfg0.win 3).blk t).view.emb j) ?_ ?_ ?_ ?_
  · intro k
    show V c (Pipeline.arrRef spec0 0) (((cfg0.win 0).blk t).view.emb (ix2 (j 0) k)) = V c (Pipeline.arrRef spec0 0) _
    refine congrArg (V c (Pipeline.arrRef spec0 0)) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * k.val = k.val; omega
  · funext y
    show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 512 + 1 * (y 0).val = (y 0).val; omega
    | ⟨1, _⟩ => show win0_1.index t (1 : Fin 2) * 512 + 1 * (y 1).val = (y 1).val; omega
  · funext y
    show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 1) * 512 + 1 * (y 0).val = (y 0).val; omega
  · show win0_3.index t (1 : Fin 2) * 512 + 1 * (j 1).val = (j 1).val; omega

/-- An index of the output lies in point `t`'s block iff each coordinate lies in the block's range on its axis. -/
theorem mem_blk0 (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Row `r` of the output lies in the block of point `r / 1024`. -/
theorem cover0 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 4 := N_0
  refine ⟨⟨(i 0).val / 1024, by rw [hN]; omega⟩, flush0_3 _, ?_⟩
  rw [mem_blk0]
  obtain ⟨e00, e01, e10, e11, e20, e30, e31⟩ := idx0 ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]
    show (i 0).val / 1024 * 1024 ≤ (i 0).val ∧ (i 0).val < (i 0).val / 1024 * 1024 + 1024
    omega
  | ⟨1, _⟩ =>
    show win0_3.index _ (1 : Fin 2) * 512 ≤ (i 1).val ∧ (i 1).val < win0_3.index _ (1 : Fin 2) * 512 + 512
    rw [e31]
    omega

/-- After the region its output array holds `dense2` of the three input arrays as the region found them. -/
theorem arr0 (c : Dev nD) : (Gen.dat0 (F := Ideal) V c).arrAt 3 cfg0.N
    = dense2 (V c (Pipeline.arrRef spec0 0)) (V c (Pipeline.arrRef spec0 1)) (V c (Pipeline.arrRef spec0 2)) :=
  (Gen.dat0 (F := Ideal) V c).arrAt_eq_of_cover 3
    (dense2 (V c (Pipeline.arrRef spec0 0)) (V c (Pipeline.arrRef spec0 1)) (V c (Pipeline.arrRef spec0 2)))
    (fun t _ => flushed0 V c t) cover0

end Cert.Attn.Lin

end
-- ==== Proof.LinearRegion1.lean ====
/-
  The second dense region, from blocks to the array.

  The region's grid has four points; point `t` reads rows `1024 t … 1024 t + 1023` of the `[4096, 512]` input, the
  whole weight matrix and the whole bias, and writes the same rows of the output. What point `t` writes back is
  therefore block `t` of ONE function of the three arrays as the region finds them, `dense2`; row `r` of the
  output lies in the block of point `r / 1024`, so the four blocks cover the array and the output ends holding
  `dense2` of the inputs.
-/
import proofs.«158447_j8366596293037_2_alg».proof.Proof.LinearEntry
import proofs.«158447_j8366596293037_2_alg».proof.Proof.Gen.KernelIdeal.Frame
import Idealize.ShloMosaic.Lib.Pipeline.Value

noncomputable section

open scoped BigOperators

namespace Cert.Attn.Lin

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices at each grid point: the input rows and the output rows move with the point, the columns, the
    weights and the bias stay at block zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of `dense2` of the arrays as the region finds them. -/
theorem flushed1 (c : Dev nD) (t : Fin cfg1.N) :
    (Gen.dat1 (F := Ideal) V c).flushed 3 t = ((cfg1.win 3).blk t).view.read (Elt Ideal)
      (dense2 (V c (Pipeline.arrRef spec1 0)) (V c (Pipeline.arrRef spec1 1)) (V c (Pipeline.arrRef spec1 2))) := by
  show (cfg1.win 3).cut (grid1.coords t) ((Gen.dat1 V c).after 3 t) = _
  rw [Gen.after1_3]
  unfold Gen.out1_3
  rw [View.canon_unit_zero hz2]
  simp only [View.ld_unit_zero (S := S1024x512) hz2, View.ld_unit_zero (S := S512x512) hz2, View.ld_unit_zero (S := S512) hz1]
  rw [pay1_eq]
  obtain ⟨e00, e01, e10, e11, e20, e30, e31⟩ := idx1 t
  funext j
  show Gen.k0_pay1 (Gen.iblk1 V c 0 t) (Gen.iblk1 V c 1 t) (Gen.iblk1 V c 2 t) j
    = dense2 (V c (Pipeline.arrRef spec1 0)) (V c (Pipeline.arrRef spec1 1)) (V c (Pipeline.arrRef spec1 2))
        (((cfg1.win 3).blk t).view.emb j)
  refine entry_eq (V c (Pipeline.arrRef spec1 0)) (V c (Pipeline.arrRef spec1 1)) (V c (Pipeline.arrRef spec1 2))
    (Gen.iblk1 V c 0 t) (Gen.iblk1 V c 1 t) (Gen.iblk1 V c 2 t) j (((cfg1.win 3).blk t).view.emb j) ?_ ?_ ?_ ?_
  · intro k
    show V c (Pipeline.arrRef spec1 0) (((cfg1.win 0).blk t).view.emb (ix2 (j 0) k)) = V c (Pipeline.arrRef spec1 0) _
    refine congrArg (V c (Pipeline.arrRef spec1 0)) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 512 + 1 * k.val = k.val; omega
  · funext y
    show V c (Pipeline.arrRef spec1 1) (((cfg1.win 1).blk t).view.emb y) = V c (Pipeline.arrRef spec1 1) y
    refine congrArg (V c (Pipeline.arrRef spec1 1)) (funext fun a => Fin.ext ?_)
    match a with
    | ⟨0, _⟩ => show win1_1.index t (0 : Fin 2) * 512 + 1 * (y 0).val = (y 0).val; omega
    | ⟨1, _⟩ => show win1_1.index t (1 : Fin 2) * 512 + 1 * (y 1).val = (y 1).val; omega
  · funext y
    show V c (Pipeline.arrRef spec1 2) (((cfg1.win 2).blk t).view.emb y) = V c (Pipeline.arrRef spec1 2) y
    refine congrArg (V c (Pipeline.arrRef spec1 2)) (funext fun a => Fin.ext ?_)
    match a with
    | ⟨0, _⟩ => show win1_2.index t (0 : Fin 1) * 512 + 1 * (y 0).val = (y 0).val; omega
  · show win1_3.index t (1 : Fin 2) * 512 + 1 * (j 1).val = (j 1).val; omega

/-- An index of the output lies in point `t`'s block iff each coordinate lies in the block's range on its axis. -/
theorem mem_blk1 (t : Fin cfg1.N) (i : S4096x512.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v7).slice (win1_3.rect t)).set ↔ _
  rw [View.set_slice_whole, Rect.mem_set_unit]
  exact Iff.rfl

/-- Row `r` of the output lies in the block of point `r / 1024`. -/
theorem cover1 (i : S4096x512.Idx) :
    ∃ t : Fin cfg1.N, (cfg1.win 3).flush t = true ∧ i ∈ ((cfg1.win 3).blk t).view.set := by
  have hi0 : (i 0).val < 4096 := (i 0).isLt
  have hi1 : (i 1).val < 512 := (i 1).isLt
  have hN : cfg1.N = 4 := N_1
  refine ⟨⟨(i 0).val / 1024, by rw [hN]; omega⟩, flush1_3 _, ?_⟩
  rw [mem_blk1]
  obtain ⟨e00, e01, e10, e11, e20, e30, e31⟩ := idx1 ⟨(i 0).val / 1024, by rw [hN]; omega⟩
  intro a
  match a with
  | ⟨0, _⟩ =>
    show win1_3.index _ (0 : Fin 2) * 1024 ≤ (i 0).val ∧ (i 0).val < win1_3.index _ (0 : Fin 2) * 1024 + 1024
    rw [e30]
    show (i 0).val / 1024 * 1024 ≤ (i 0).val ∧ (i 0).val < (i 0).val / 1024 * 1024 + 1024
    omega
  | ⟨1, _⟩ =>
    show win1_3.index _ (1 : Fin 2) * 512 ≤ (i 1).val ∧ (i 1).val < win1_3.index _ (1 : Fin 2) * 512 + 512
    rw [e31]
    omega

/-- After the region its output array holds `dense2` of the three input arrays as the region found them. -/
theorem arr1 (c : Dev nD) : (Gen.dat1 (F := Ideal) V c).arrAt 3 cfg1.N
    = dense2 (V c (Pipeline.arrRef spec1 0)) (V c (Pipeline.arrRef spec1 1)) (V c (Pipeline.arrRef spec1 2)) :=
  (Gen.dat1 (F := Ideal) V c).arrAt_eq_of_cover 3
    (dense2 (V c (Pipeline.arrRef spec1 0)) (V c (Pipeline.arrRef spec1 1)) (V c (Pipeline.arrRef spec1 2)))
    (fun t _ => flushed1 V c t) cover1

end Cert.Attn.Lin

end
-- ==== Proof.LinearRegion2.lean ====
/-
  The third dense region, from blocks to the array.

  The region's grid has four points; point `t` reads rows `1024 t … 1024 t + 1023` of the `[4096, 512]` input, the
  whole weight matrix and the whole bias, and writes the same rows of the output. What point `t` writes back is
  therefore block `t` of ONE function of the three arrays as the region finds them, `dense2`; row `r` of the
  output lies in the block of point `r / 1024`, so the four blocks cover the array and the output ends holding
  `dense2` of the inputs.
-/
import proofs.«158447_j8366596293037_2_alg».proof.Proof.LinearEntry
import proofs.«158447_j8366596293037_2_alg».proof.Proof.Gen.KernelIdeal.Frame
import Idealize.ShloMosaic.Lib.Pipeline.Value

noncomputable section

open scoped BigOperators

namespace Cert.Attn.Lin

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices at each grid point: the input rows and the output rows move with the point, the columns, the
    weights and the bias stay at block zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of `dense2` of the arrays as the region finds them. -/
theorem flushed2 (c : Dev nD) (t : Fin cfg2.N) :
    (Gen.dat2 (F := Ideal) V c).flushed 3 t = ((cfg2.win 3).blk t).view.read (Elt Ideal)
      (dense2 (V c (Pipeline.arrRef spec2 0)) (V c (Pipeline.arrRef spec2 1)) (V c (Pipeline.arrRef spec2 2))) := by
  show (cfg2.win 3).cut (grid2.coords t) ((Gen.dat2 V c).after 3 t) = _
  rw [Gen.after2_3]
  unfold Gen.out2_3
  rw [View.canon_unit_zero hz2]
  simp only [View.ld_unit_zero (S := S1024x512) hz2, View.ld_unit_zero (S := S512x512) hz2, View.ld_unit_zero (S := S512) hz1]
  rw [pay2_eq]
  obtain ⟨e00, e01, e10, e11, e20, e30, e31⟩ := idx2 t
  funext j
  show Gen.k0_pay1 (Gen.iblk2 V c 0 t) (Gen.iblk2 V c 1 t) (Gen.iblk2 V c 2 t) j
    = dense2 (V c (Pipeline.arrRef spec2 0)) (V c (Pipeline.arrRef spec2 1)) (V c (Pipeline.arrRef spec2 2))
        (((cfg2.win 3).blk t).view.emb j)
  refine entry_eq (V c (Pipeline.arrRef spec2 0)) (V c (Pipeline.arrRef spec2 1)) (V c (Pipeline.arrRef spec2 2))
    (Gen.iblk2 V c 0 t) (Gen.iblk2 V c 1 t) (Gen.iblk2 V c 2 t) j (((cfg2.win 3).blk t).view.emb j) ?_ ?_ ?_ ?_
  · intro k
    show V c (Pipeline.arrRef spec2 0) (((cfg2.win 0).blk t).view.emb (ix2 (j 0) k)) = V c (Pipeline.arrRef spec2 0) _
    refine congrArg (V c (Pipeline.arrRef spec2 0)) (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 512 + 1 * k.val = k.val; omega
  · funext y
    show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 512 + 1 * (y 0).val = (y 0).val; omega
    | ⟨1, _⟩ => show win2_1.index t (1 : Fin 2) * 512 + 1 * (y 1).val = (y 1).val; omega
  · funext y
    show V c (Pipeline.arrRef spec2 2) (((cfg2.win 2).blk t).view.emb y) = V c (Pipeline.arrRef spec2 2) y
    refine congrArg (V c (Pipeline.arrRef spec2 2)) (funext fun a => Fin.ext ?_)
    match a with
    | ⟨0, _⟩ => show win2_2.index t (0 : Fin 1) * 512 + 1 * (y 0).val = (y 0).val; omega
  · show win2_3.index t (1 : Fin 2) * 512 + 1 * (j 1).val = (j 1).val; omega

/-- An index of the output lies in point `t`'s block iff each coordinate lies in the block's range on its axis. -/
theorem mem_blk2 (t : Fin cfg2.N) (i : S4096x512.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v12).slice (win2_3.rect t)).set ↔ _
  rw [View.set_slice_whole, Rect.mem_set_unit]
  exact Iff.rfl

/-- Row `r` of the output lies in the block of point `r / 1024`. -/
theorem cover2 (i : S4096x512.Idx) :
    ∃ t : Fin cfg2.N, (cfg2.win 3).flush t = true ∧ i ∈ ((cfg2.win 3).blk t).view.set := by
  have hi0 : (i 0).val < 4096 := (i 0).isLt
  have hi1 : (i 1).val < 512 := (i 1).isLt
  have hN : cfg2.N = 4 := N_2
  refine ⟨⟨(i 0).val / 1024, by rw [hN]; omega⟩, flush2_3 _, ?_⟩
  rw [mem_blk2]
  obtain ⟨e00, e01, e10, e11, e20, e30, e31⟩ := idx2 ⟨(i 0).val / 1024, by rw [hN]; omega⟩
  intro a
  match a with
  | ⟨0, _⟩ =>
    show win2_3.index _ (0 : Fin 2) * 1024 ≤ (i 0).val ∧ (i 0).val < win2_3.index _ (0 : Fin 2) * 1024 + 1024
    rw [e30]
    show (i 0).val / 1024 * 1024 ≤ (i 0).val ∧ (i 0).val < (i 0).val / 1024 * 1024 + 1024
    omega
  | ⟨1, _⟩ =>
    show win2_3.index _ (1 : Fin 2) * 512 ≤ (i 1).val ∧ (i 1).val < win2_3.index _ (1 : Fin 2) * 512 + 512
    rw [e31]
    omega

/-- After the region its output array holds `dense2` of the three input arrays as the region found them. -/
theorem arr2 (c : Dev nD) : (Gen.dat2 (F := Ideal) V c).arrAt 3 cfg2.N
    = dense2 (V c (Pipeline.arrRef spec2 0)) (V c (Pipeline.arrRef spec2 1)) (V c (Pipeline.arrRef spec2 2)) :=
  (Gen.dat2 (F := Ideal) V c).arrAt_eq_of_cover 3
    (dense2 (V c (Pipeline.arrRef spec2 0)) (V c (Pipeline.arrRef spec2 1)) (V c (Pipeline.arrRef spec2 2)))
    (fun t _ => flushed2 V c t) cover2

end Cert.Attn.Lin

end
-- ==== Proof.LinearRegion4.lean ====
/-
  The last dense region, from blocks to the array.

  The region's grid has four points; point `t` reads rows `1024 t … 1024 t + 1023` of the `[4096, 512]` input, the
  whole weight matrix and the whole bias, and writes the same rows of the output. What point `t` writes back is
  therefore block `t` of ONE function of the three arrays as the region finds them, `dense2`; row `r` of the
  output lies in the block of point `r / 1024`, so the four blocks cover the array and the output ends holding
  `dense2` of the inputs.
-/
import proofs.«158447_j8366596293037_2_alg».proof.Proof.LinearEntry
import proofs.«158447_j8366596293037_2_alg».proof.Proof.Gen.KernelIdeal.Frame
import Idealize.ShloMosaic.Lib.Pipeline.Value

noncomputable section

open scoped BigOperators

namespace Cert.Attn.Lin

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices at each grid point: the input rows and the output rows move with the point, the columns, the
    weights and the bias stay at block zero. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What point `t` writes back is block `t` of `dense2` of the arrays as the region finds them. -/
theorem flushed4 (c : Dev nD) (t : Fin cfg4.N) :
    (Gen.dat4 (F := Ideal) V c).flushed 3 t = ((cfg4.win 3).blk t).view.read (Elt Ideal)
      (dense2 (V c (Pipeline.arrRef spec4 0)) (V c (Pipeline.arrRef spec4 1)) (V c (Pipeline.arrRef spec4 2))) := by
  show (cfg4.win 3).cut (grid4.coords t) ((Gen.dat4 V c).after 3 t) = _
  rw [Gen.after4_3]
  unfold Gen.out4_3
  rw [View.canon_unit_zero hz2]
  simp only [View.ld_unit_zero (S := S1024x512) hz2, View.ld_unit_zero (S := S512x512) hz2, View.ld_unit_zero (S := S512) hz1]
  rw [pay4_eq]
  obtain ⟨e00, e01, e10, e11, e20, e30, e31⟩ := idx4 t
  funext j
  show Gen.k0_pay1 (Gen.iblk4 V c 0 t) (Gen.iblk4 V c 1 t) (Gen.iblk4 V c 2 t) j
    = dense2 (V c (Pipeline.arrRef spec4 0)) (V c (Pipeline.arrRef spec4 1)) (V c (Pipeline.arrRef spec4 2))
        (((cfg4.win 3).blk t).view.emb j)
  refine entry_eq (V c (Pipeline.arrRef spec4 0)) (V c (Pipeline.arrRef spec4 1)) (V c (Pipeline.arrRef spec4 2))
    (Gen.iblk4 V c 0 t) (Gen.iblk4 V c 1 t) (Gen.iblk4 V c 2 t) j (((cfg4.win 3).blk t).view.emb j) ?_ ?_ ?_ ?_
  · intro k
    show V c (Pipeline.arrRef spec4 0) (((cfg4.win 0).blk t).view.emb (ix2 (j 0) k)) = V c (Pipeline.arrRef spec4 0) _
    refine congrArg (V c (Pipeline.arrRef spec4 0)) (funext fun a => Fin.ext ?_)
    match a with
    | ⟨0, _⟩ => show win4_0.index t (0 : Fin 2) * 1024 + 1 * (j 0).val = win4_3.index t (0 : Fin 2) * 1024 + 1 * (j 0).val; omega
    | ⟨1, _⟩ => show win4_0.index t (1 : Fin 2) * 512 + 1 * k.val = k.val; omega
  · funext y
    show V c (Pipeline.arrRef spec4 1) (((cfg4.win 1).blk t).view.emb y) = V c (Pipeline.arrRef spec4 1) y
    refine congrArg (V c (Pipeline.arrRef spec4 1)) (funext fun a => Fin.ext ?_)
    match a with
    | ⟨0, _⟩ => show win4_1.index t (0 : Fin 2) * 512 + 1 * (y 0).val = (y 0).val; omega
    | ⟨1, _⟩ => show win4_1.index t (1 : Fin 2) * 512 + 1 * (y 1).val = (y 1).val; omega
  · funext y
    show V c (Pipeline.arrRef spec4 2) (((cfg4.win 2).blk t).view.emb y) = V c (Pipeline.arrRef spec4 2) y
    refine congrArg (V c (Pipeline.arrRef spec4 2)) (funext fun a => Fin.ext ?_)
    match a with
    | ⟨0, _⟩ => show win4_2.index t (0 : Fin 1) * 512 + 1 * (y 0).val = (y 0).val; omega
  · show win4_3.index t (1 : Fin 2) * 512 + 1 * (j 1).val = (j 1).val; omega

/-- An index of the output lies in point `t`'s block iff each coordinate lies in the block's range on its axis. -/
theorem mem_blk4 (t : Fin cfg4.N) (i : S4096x512.Idx) :
    i ∈ ((cfg4.win 3).blk t).view.set ↔ ∀ a : Fin 2, win4_3.index t a * S1024x512.size a ≤ (i a).val
      ∧ (i a).val < win4_3.index t a * S1024x512.size a + S1024x512.size a := by
  show i ∈ ((View.whole main_v19).slice (win4_3.rect t)).set ↔ _
  rw [View.set_slice_whole, Rect.mem_set_unit]
  exact Iff.rfl

/-- Row `r` of the output lies in the block of point `r / 1024`. -/
theorem cover4 (i : S4096x512.Idx) :
    ∃ t : Fin cfg4.N, (cfg4.win 3).flush t = true ∧ i ∈ ((cfg4.win 3).blk t).view.set := by
  have hi0 : (i 0).val < 4096 := (i 0).isLt
  have hi1 : (i 1).val < 512 := (i 1).isLt
  have hN : cfg4.N = 4 := N_4
  refine ⟨⟨(i 0).val / 1024, by rw [hN]; omega⟩, flush4_3 _, ?_⟩
  rw [mem_blk4]
  obtain ⟨e00, e01, e10, e11, e20, e30, e31⟩ := idx4 ⟨(i 0).val / 1024, by rw [hN]; omega⟩
  intro a
  match a with
  | ⟨0, _⟩ =>
    show win4_3.index _ (0 : Fin 2) * 1024 ≤ (i 0).val ∧ (i 0).val < win4_3.index _ (0 : Fin 2) * 1024 + 1024
    rw [e30]
    show (i 0).val / 1024 * 1024 ≤ (i 0).val ∧ (i 0).val < (i 0).val / 1024 * 1024 + 1024
    omega
  | ⟨1, _⟩ =>
    show win4_3.index _ (1 : Fin 2) * 512 ≤ (i 1).val ∧ (i 1).val < win4_3.index _ (1 : Fin 2) * 512 + 512
    rw [e31]
    omega

/-- After the region its output array holds `dense2` of the three input arrays as the region found them. -/
theorem arr4 (c : Dev nD) : (Gen.dat4 (F := Ideal) V c).arrAt 3 cfg4.N
    = dense2 (V c (Pipeline.arrRef spec4 0)) (V c (Pipeline.arrRef spec4 1)) (V c (Pipeline.arrRef spec4 2)) :=
  (Gen.dat4 (F := Ideal) V c).arrAt_eq_of_cover 3
    (dense2 (V c (Pipeline.arrRef spec4 0)) (V c (Pipeline.arrRef spec4 1)) (V c (Pipeline.arrRef spec4 2)))
    (fun t _ => flushed4 V c t) cover4

end Cert.Attn.Lin

end
-- ==== Proof.LinearArrays.lean ====
/-
  The four dense regions of the program (the three input projections and the output projection), each read as ONE
  function of the arrays it finds: after region `K` its output array holds `dense2 x w b`, entry `(r, e)` being
  `(∑ k, x (r, k) · w (k, e)) + b e`, for `x`, `w`, `b` the contents of its three input arrays at the region's entry
  (`Cert.Attn.Lin.arr0`, `arr1`, `arr2`, `arr4`).
-/
import proofs.«158447_j8366596293037_2_alg».proof.Proof.LinearRegion0
import proofs.«158447_j8366596293037_2_alg».proof.Proof.LinearRegion1
import proofs.«158447_j8366596293037_2_alg».proof.Proof.LinearRegion2
import proofs.«158447_j8366596293037_2_alg».proof.Proof.LinearRegion4
-- ==== Proof.AttnOps.lean ====
/-
  The attention kernel's vector operations, each read at one index.

  * the heads 0–3 / 4–7 of an [8, n, d] array;
  * the batched products: [4,128,64] · [4,1024,64]ᵀ at (h, r, m) is ∑ d, l (h, r, d) · r (h, m, d), and
    [4,128,1024] · [4,1024,64] at (h, r, d) is ∑ m, w (h, r, m) · v (h, m, d);
  * a row statistic kept as a unit last axis and spread back over the row ([4,128] → [4,128,1] → [4,128,1024])
    reads the statistic of the row, for the row maximum and the row sum;
  * a per-head parameter spread over a head's rows and columns ([4] → [4,1,1] → [4,128,1024]) and one [128,1024]
    table shared by the four heads ([1,128,1024] → [4,128,1024]);
  * the max-shifted softmax of every row of a [4,128,1024] array, as one function `softChain`.
-/
import Idealize.ShloMosaic.PureOps.Ideal.Laws
import Idealize.ShloMosaic.Lib.ValueIdx
import Idealize.ShloMosaic.Lib.ValueLayout
import Idealize.ShloMosaic.Lib.Pipeline.Value
import proofs.«158447_j8366596293037_2_alg».proof.Proof.Gen.KernelIdeal.Skeleton

noncomputable section

open scoped BigOperators

namespace Cert.Attn.Ops

open Cert.KernelIdeal Cert.KernelIdeal.Gen Idealize.ShloMosaic Idealize.ShloMosaic.ValueIdx

/-- Short head `hs` as one of the eight heads. -/
def lo (hs : Fin 4) : Fin 8 := ⟨hs.val, by have := hs.isLt; omega⟩
/-- Long head `hl` (the `hl`-th of heads 4–7) as one of the eight heads. -/
def hi (hl : Fin 4) : Fin 8 := ⟨4 + hl.val, by have := hl.isLt; omega⟩

section Layout
variable {α : Type}

/-- Heads 0–3 of an `[8, n, d]` array: entry `(hs, i, j)` is the source's `(hs, i, j)`. -/
theorem heads_lo_apply {n d : ℕ} (X : (⟨3, ![8, n, d]⟩ : Shape).Idx → α)
    (h : (⟨3, ![8, n, d]⟩ : Shape).Slices ![0, 0, 0] ⟨3, ![4, n, d]⟩) (hs : Fin 4) (i : Fin n) (j : Fin d) :
    extractStridedSlice ⟨3, ![4, n, d]⟩ ![0, 0, 0] X h (ix3 hs i j) = X (ix3 (lo hs) i j) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- Heads 4–7 of an `[8, n, d]` array: entry `(hl, i, j)` is the source's `(4 + hl, i, j)`. -/
theorem heads_hi_apply {n d : ℕ} (X : (⟨3, ![8, n, d]⟩ : Shape).Idx → α)
    (h : (⟨3, ![8, n, d]⟩ : Shape).Slices ![4, 0, 0] ⟨3, ![4, n, d]⟩) (hl : Fin 4) (i : Fin n) (j : Fin d) :
    extractStridedSlice ⟨3, ![4, n, d]⟩ ![4, 0, 0] X h (ix3 hl i j) = X (ix3 (hi hl) i j) :=
  extractStridedSlice_apply _ _ _ _ _ (fun ax => by
    match ax with
    | ⟨0, _⟩ => rfl
    | ⟨1, _⟩ => exact (Nat.zero_add _).symm
    | ⟨2, _⟩ => exact (Nat.zero_add _).symm)

/-- An `[a, b]` array given a unit last axis reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array spread along its last axis reads, at `(i, j, m)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (m : Fin c) :
    broadcastTo ⟨3, ![a, b, c]⟩ v h (ix3 i j m) = v (ix3 i j (0 : Fin 1)) := by
  refine broadcastTo_apply v h (ix3 i j m) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A vector of `a` entries given two unit axes reads, at `(i, u, w)`, its entry `i`. -/
theorem shapeCast_a_a11_apply {a : ℕ} (x : (⟨1, ![a]⟩ : Shape).Idx → α)
    (h : (⟨1, ![a]⟩ : Shape).ShapeCasts ⟨3, ![a, 1, 1]⟩) (i : Fin a) (u w : Fin 1) :
    shapeCast ⟨3, ![a, 1, 1]⟩ x h (ix3 i u w) = x (ix1 i) :=
  shapeCast_apply x h _ _ (by
    have hu : u.val = 0 := by omega
    have hw : w.val = 0 := by omega
    rw [Shape.rowMajor_val_one, Shape.rowMajor_val_three]
    show i.val = (i.val * 1 + u.val) * 1 + w.val
    omega)

/-- An `[a, 1, 1]` array spread over rows and columns reads, at `(i, j, m)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (m : Fin c) :
    broadcastTo ⟨3, ![a, b, c]⟩ v h (ix3 i j m) = v (ix3 i (0 : Fin 1) (0 : Fin 1)) := by
  refine broadcastTo_apply v h (ix3 i j m) (ix3 i (0 : Fin 1) (0 : Fin 1)) fun ax => ?_
  match ax with
  | ⟨0, _⟩ =>
    show i.val = if a = 1 then 0 else i.val
    split
    · have := i.isLt; omega
    · rfl
  | ⟨1, _⟩ => exact (if_pos rfl).symm
  | ⟨2, _⟩ => exact (if_pos rfl).symm

/-- A `[1, b, c]` array repeated along a new leading extent reads, at `(i, j, m)`, the operand at `(0, j, m)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (m : Fin c) :
    broadcastTo ⟨3, ![a, b, c]⟩ v h (ix3 i j m) = v (ix3 (0 : Fin 1) j m) := by
  refine broadcastTo_apply v h (ix3 i j m) (ix3 (0 : Fin 1) j m) fun ax => ?_
  match ax with
  | ⟨0, _⟩ => exact (if_pos rfl).symm
  | ⟨1, _⟩ =>
    show j.val = if b = 1 then 0 else j.val
    split
    · have := j.isLt; omega
    · rfl
  | ⟨2, _⟩ =>
    show m.val = if c = 1 then 0 else m.val
    split
    · have := m.isLt; omega
    · rfl

end Layout

/-! ## The two batched products -/

/-- The dimension numbers of scores: batch axis 0, rows of the left operand, rows of the right operand, contraction
    over the last axis of both. -/
abbrev DQK : DotDims S4x128x64 S4x1024x64 S4x128x1024 := dot_S4x128x64_S4x1024x64_S4x128x1024_2_2_1_1_0_0
/-- The dimension numbers of the weighted sum of values: batch axis 0, contraction of the left operand's last axis
    against the right operand's middle axis. -/
abbrev DWV : DotDims S4x128x1024 S4x1024x64 S4x128x64 := dot_S4x128x1024_S4x1024x64_S4x128x64_2_1_1_2_0_0

theorem qk_lhs0 (i : S4x128x1024.Idx) (q : DQK.contr.Idx) : (DQK.lhsIdx i q 0).val = (i 0).val := by
  unfold DotDims.lhsIdx
  rw [dif_pos (show (0 : Fin S4x128x64.rank) ∈ DQK.lhsBatch by decide)]
  rfl
theorem qk_lhs1 (i : S4x128x1024.Idx) (q : DQK.contr.Idx) : (DQK.lhsIdx i q 1).val = (i 1).val := by
  unfold DotDims.lhsIdx
  rw [dif_neg (show ¬(1 : Fin S4x128x64.rank) ∈ DQK.lhsBatch by decide),
    dif_pos (show (1 : Fin S4x128x64.rank) ∈ DQK.lhsNonContracting by decide)]
  rfl
theorem qk_lhs2 (i : S4x128x1024.Idx) (q : DQK.contr.Idx) : (DQK.lhsIdx i q 2).val = (q ⟨0, by decide⟩).val :=
  DQK.lhsIdx_val_of_single rfl i q
theorem qk_rhs0 (i : S4x128x1024.Idx) (q : DQK.contr.Idx) : (DQK.rhsIdx i q 0).val = (i 0).val := by
  unfold DotDims.rhsIdx
  rw [dif_pos (show (0 : Fin S4x1024x64.rank) ∈ DQK.rhsBatch by decide)]
  rfl
theorem qk_rhs1 (i : S4x128x1024.Idx) (q : DQK.contr.Idx) : (DQK.rhsIdx i q 1).val = (i 2).val := by
  unfold DotDims.rhsIdx
  rw [dif_neg (show ¬(1 : Fin S4x1024x64.rank) ∈ DQK.rhsBatch by decide),
    dif_pos (show (1 : Fin S4x1024x64.rank) ∈ DQK.rhsNonContracting by decide)]
  rfl
theorem qk_rhs2 (i : S4x128x1024.Idx) (q : DQK.contr.Idx) : (DQK.rhsIdx i q 2).val = (q ⟨0, by decide⟩).val :=
  DQK.rhsIdx_val_of_single rfl i q

/-- The scores' product into zero at `(hh, i, m)`: the sum over the 64 lanes of the left operand's row `i` times the
    right operand's row `m`, both of head `hh`. -/
theorem qk_apply {φ₁ φ₂ : FTy} (l : FVec Ideal S4x128x64 φ₁) (r : FVec Ideal S4x1024x64 φ₂) (hh : Fin 4) (i : Fin 128)
    (m : Fin 1024) :
    matmul DQK none l r (constant (F := Ideal) S4x128x1024 .f32 0x00000000#32) (ix3 hh i m)
      = ∑ d : Fin 64, l (ix3 hh i d) * r (ix3 hh m d) := by
  refine (Ideal.matmul_constant_zero_apply DQK none l r (ix3 hh i m)).trans ?_
  rw [← Equiv.sum_comp (contrEquiv1 DQK 64 rfl rfl).symm]
  refine Finset.sum_congr rfl fun k _ => ?_
  have hk := contrEquiv1_symm_val DQK 64 rfl rfl k
  have el : DQK.lhsIdx (ix3 hh i m) ((contrEquiv1 DQK 64 rfl rfl).symm k) = ix3 hh i k := funext fun a => Fin.ext (by
    match a with
    | ⟨0, _⟩ => exact qk_lhs0 _ _
    | ⟨1, _⟩ => exact qk_lhs1 _ _
    | ⟨2, _⟩ => exact (qk_lhs2 _ _).trans hk)
  have er : DQK.rhsIdx (ix3 hh i m) ((contrEquiv1 DQK 64 rfl rfl).symm k) = ix3 hh m k := funext fun a => Fin.ext (by
    match a with
    | ⟨0, _⟩ => exact qk_rhs0 _ _
    | ⟨1, _⟩ => exact qk_rhs1 _ _
    | ⟨2, _⟩ => exact (qk_rhs2 _ _).trans hk)
  rw [el, er]

theorem wv_lhs0 (i : S4x128x64.Idx) (q : DWV.contr.Idx) : (DWV.lhsIdx i q 0).val = (i 0).val := by
  unfold DotDims.lhsIdx
  rw [dif_pos (show (0 : Fin S4x128x1024.rank) ∈ DWV.lhsBatch by decide)]
  rfl
theorem wv_lhs1 (i : S4x128x64.Idx) (q : DWV.contr.Idx) : (DWV.lhsIdx i q 1).val = (i 1).val := by
  unfold DotDims.lhsIdx
  rw [dif_neg (show ¬(1 : Fin S4x128x1024.rank) ∈ DWV.lhsBatch by decide),
    dif_pos (show (1 : Fin S4x128x1024.rank) ∈ DWV.lhsNonContracting by decide)]
  rfl
theorem wv_lhs2 (i : S4x128x64.Idx) (q : DWV.contr.Idx) : (DWV.lhsIdx i q 2).val = (q ⟨0, by decide⟩).val :=
  DWV.lhsIdx_val_of_single rfl i q
theorem wv_rhs0 (i : S4x128x64.Idx) (q : DWV.contr.Idx) : (DWV.rhsIdx i q 0).val = (i 0).val := by
  unfold DotDims.rhsIdx
  rw [dif_pos (show (0 : Fin S4x1024x64.rank) ∈ DWV.rhsBatch by decide)]
  rfl
theorem wv_rhs1 (i : S4x128x64.Idx) (q : DWV.contr.Idx) : (DWV.rhsIdx i q 1).val = (q ⟨0, by decide⟩).val :=
  DWV.rhsIdx_val_of_single rfl i q
theorem wv_rhs2 (i : S4x128x64.Idx) (q : DWV.contr.Idx) : (DWV.rhsIdx i q 2).val = (i 2).val := by
  unfold DotDims.rhsIdx
  rw [dif_neg (show ¬(2 : Fin S4x1024x64.rank) ∈ DWV.rhsBatch by decide),
    dif_pos (show (2 : Fin S4x1024x64.rank) ∈ DWV.rhsNonContracting by decide)]
  rfl

/-- The weighted sum of values into zero at `(hh, i, d)`: the sum over the 1024 keys of the weight of key `m` in row
    `i` times lane `d` of value row `m`, both of head `hh`. -/
theorem wv_apply {φ₁ φ₂ : FTy} (w : FVec Ideal S4x128x1024 φ₁) (v : FVec Ideal S4x1024x64 φ₂) (hh : Fin 4) (i : Fin 128)
    (d : Fin 64) :
    matmul DWV none w v (constant (F := Ideal) S4x128x64 .f32 0x00000000#32) (ix3 hh i d)
      = ∑ m : Fin 1024, w (ix3 hh i m) * v (ix3 hh m d) := by
  refine (Ideal.matmul_constant_zero_apply DWV none w v (ix3 hh i d)).trans ?_
  rw [← Equiv.sum_comp (contrEquiv1 DWV 1024 rfl rfl).symm]
  refine Finset.sum_congr rfl fun k _ => ?_
  have hk := contrEquiv1_symm_val DWV 1024 rfl rfl k
  have el : DWV.lhsIdx (ix3 hh i d) ((contrEquiv1 DWV 1024 rfl rfl).symm k) = ix3 hh i k := funext fun a => Fin.ext (by
    match a with
    | ⟨0, _⟩ => exact wv_lhs0 _ _
    | ⟨1, _⟩ => exact wv_lhs1 _ _
    | ⟨2, _⟩ => exact (wv_lhs2 _ _).trans hk)
  have er : DWV.rhsIdx (ix3 hh i d) ((contrEquiv1 DWV 1024 rfl rfl).symm k) = ix3 hh k d := funext fun a => Fin.ext (by
    match a with
    | ⟨0, _⟩ => exact wv_rhs0 _ _
    | ⟨1, _⟩ => exact (wv_rhs1 _ _).trans hk
    | ⟨2, _⟩ => exact wv_rhs2 _ _)
  rw [el, er]

/-! ## Row statistics kept on a unit axis and spread back over the row -/

/-- Key `k` put back into the row index `(hh, r)`. -/
theorem lift_row (h : S4x128x1024.Reduces [2] S4x128) (hh : Fin 4) (r : Fin 128) (k : Fin 1024) :
    h.lift (ix2 hh r) k = ix3 hh r k :=
  funext fun c => Fin.ext (by
    match c with
    | ⟨0, _⟩ => rfl
    | ⟨1, _⟩ => rfl
    | ⟨2, _⟩ => rfl)

/-- Every row's maximum (folded from −∞), written back over the whole row. -/
def keepMax (L : FVec Ideal S4x128x1024 .f32) : FVec Ideal S4x128x1024 .f32 :=
  broadcastTo S4x128x1024
    (shapeCast S4x128x1
      (multiReduction (F := Ideal) .maximumf [2] S4x128 L 0xFF800000#32 reduces_S4x128x1024_S4x128 (.inl rfl) rfl)
      shapeCasts_S4x128_S4x128x1)
    broadcasts_S4x128x1_S4x128x1024

/-- Every row's sum, written back over the whole row. -/
def keepSum (E : FVec Ideal S4x128x1024 .f32) : FVec Ideal S4x128x1024 .f32 :=
  broadcastTo S4x128x1024
    (shapeCast S4x128x1
      (multiReduction (F := Ideal) .add [2] S4x128 E 0x00000000#32 reduces_S4x128x1024_S4x128 (.inl rfl) rfl)
      shapeCasts_S4x128_S4x128x1)
    broadcasts_S4x128x1_S4x128x1024

theorem keepMax_apply (L : FVec Ideal S4x128x1024 .f32) (hh : Fin 4) (r : Fin 128) (m : Fin 1024) :
    keepMax L (ix3 hh r m)
      = (Finset.univ : Finset (Fin 1024)).fold max (Ideal.ofBits .f32 0xFF800000#32) (fun k => L (ix3 hh r k)) := by
  unfold keepMax
  refine (broadcastTo_ab1_abc_apply _ _ hh r m).trans ?_
  refine (shapeCast_ab_ab1_apply _ _ hh r 0).trans ?_
  refine (Ideal.multiReduction_maximumf_single L _ reduces_S4x128x1024_S4x128 _ _ (ix2 hh r)).trans ?_
  have e : (L ∘ reduces_S4x128x1024_S4x128.lift (ix2 hh r)) = fun k : Fin 1024 => L (ix3 hh r k) :=
    funext fun k => congrArg L (lift_row _ hh r k)
  rw [e]
  rfl

theorem keepSum_apply (E : FVec Ideal S4x128x1024 .f32) (hh : Fin 4) (r : Fin 128) (m : Fin 1024) :
    keepSum E (ix3 hh r m) = ∑ k : Fin 1024, E (ix3 hh r k) := by
  unfold keepSum
  refine (broadcastTo_ab1_abc_apply _ _ hh r m).trans ?_
  refine (shapeCast_ab_ab1_apply _ _ hh r 0).trans ?_
  refine (Ideal.multiReduction_add_single E _ reduces_S4x128x1024_S4x128 _ _ (ix2 hh r)).trans ?_
  exact Finset.sum_congr rfl fun k _ => congrArg E (lift_row _ hh r k)

/-- The max-shifted softmax of every row: `exp (l − M) / ∑ exp (l − M)` with `M` the row's maximum. -/
def softChain (L : FVec Ideal S4x128x1024 .f32) : FVec Ideal S4x128x1024 .f32 :=
  divf (exp (subf L (keepMax L))) (keepSum (exp (subf L (keepMax L))))

/-- At `(hh, r, m)` it is the softmax weight of key `m` in the row `l` that `L` holds at `(hh, r, ·)`. -/
theorem softChain_apply (L : FVec Ideal S4x128x1024 .f32) (hh : Fin 4) (r : Fin 128) (m : Fin 1024)
    (l : Fin 1024 → EReal) (hl : ∀ k, L (ix3 hh r k) = l k) :
    softChain L (ix3 hh r m)
      = Ideal.div
          (Ideal.exp (l m - (Finset.univ : Finset (Fin 1024)).fold max (Ideal.ofBits .f32 0xFF800000#32) l))
          (∑ j : Fin 1024, Ideal.exp (l j - (Finset.univ : Finset (Fin 1024)).fold max (Ideal.ofBits .f32 0xFF800000#32) l)) := by
  have hM : ∀ j : Fin 1024, keepMax L (ix3 hh r j)
      = (Finset.univ : Finset (Fin 1024)).fold max (Ideal.ofBits .f32 0xFF800000#32) l := fun j => by
    rw [keepMax_apply, show (fun k => L (ix3 hh r k)) = l from funext hl]
  have hE : ∀ j : Fin 1024, exp (subf L (keepMax L)) (ix3 hh r j)
      = Ideal.exp (l j - (Finset.univ : Finset (Fin 1024)).fold max (Ideal.ofBits .f32 0xFF800000#32) l) := fun j => by
    show Ideal.exp (L (ix3 hh r j) - keepMax L (ix3 hh r j)) = _
    rw [hM j, hl j]
  show Ideal.div (exp (subf L (keepMax L)) (ix3 hh r m)) (keepSum (exp (subf L (keepMax L))) (ix3 hh r m)) = _
  rw [hE m, keepSum_apply]
  exact congrArg _ (Finset.sum_congr rfl fun j _ => hE j)

/-! ## Scores and heads -/

/-- The scaled scores of four heads: the product of the query rows with the key rows, times the literal 1/8. -/
def scoreOf (q : FVec Ideal S4x128x64 .f32) (k : FVec Ideal S4x1024x64 .f32) : FVec Ideal S4x128x1024 .f32 :=
  mulf (matmul DQK none (truncf .bf16 q bitsLt_bf16_f32) (truncf .bf16 k bitsLt_bf16_f32)
      (constant (F := Ideal) S4x128x1024 .f32 0x00000000#32))
    (broadcast S4x128x1024 (Scalar.ofBits (F := Ideal) .f32 0x3E000000#32))

theorem scoreOf_apply (q : FVec Ideal S4x128x64 .f32) (k : FVec Ideal S4x1024x64 .f32) (hh : Fin 4) (r : Fin 128)
    (m : Fin 1024) :
    scoreOf q k (ix3 hh r m) = (∑ d : Fin 64, q (ix3 hh r d) * k (ix3 hh m d)) * Ideal.ofBits .f32 0x3E000000#32 := by
  show matmul DQK none (truncf .bf16 q bitsLt_bf16_f32) (truncf .bf16 k bitsLt_bf16_f32)
      (constant (F := Ideal) S4x128x1024 .f32 0x00000000#32) (ix3 hh r m) * Ideal.ofBits .f32 0x3E000000#32 = _
  rw [qk_apply]
  rfl

/-- The weighted sum of four heads' value rows. -/
def mixOf (w : FVec Ideal S4x128x1024 .f32) (v : FVec Ideal S4x1024x64 .f32) : FVec Ideal S4x128x64 .f32 :=
  matmul DWV none (truncf .bf16 w bitsLt_bf16_f32) (truncf .bf16 v bitsLt_bf16_f32)
    (constant (F := Ideal) S4x128x64 .f32 0x00000000#32)

theorem mixOf_apply (w : FVec Ideal S4x128x1024 .f32) (v : FVec Ideal S4x1024x64 .f32) (hh : Fin 4) (r : Fin 128)
    (d : Fin 64) :
    mixOf w v (ix3 hh r d) = ∑ m : Fin 1024, w (ix3 hh r m) * v (ix3 hh m d) := by
  unfold mixOf
  rw [wv_apply]
  rfl

/-- Short head `hs` of the query block. -/
theorem q_lo_apply (x0 : Vec Ideal S1x8x128x64 .f32) (hs : Fin 4) (r : Fin 128) (d : Fin 64) :
    extractStridedSlice S4x128x64 ![0, 0, 0] (k3_pay3 (F := Ideal) x0) slices_S8x128x64_o0_0_0_S4x128x64 (ix3 hs r d)
      = x0 (ix4 0 (lo hs) r d) :=
  (heads_lo_apply _ _ hs r d).trans (shapeCast_1abc_abc_apply x0 _ (lo hs) r d)

/-- Short head `hs` of the key block. -/
theorem k_lo_apply (x1 : Vec Ideal S1x8x1024x64 .f32) (hs : Fin 4) (m : Fin 1024) (d : Fin 64) :
    extractStridedSlice S4x1024x64 ![0, 0, 0] (k3_pay4 (F := Ideal) x1) slices_S8x1024x64_o0_0_0_S4x1024x64 (ix3 hs m d)
      = x1 (ix4 0 (lo hs) m d) :=
  (heads_lo_apply _ _ hs m d).trans (shapeCast_1abc_abc_apply x1 _ (lo hs) m d)

/-- Long head `hl` of the query block. -/
theorem pay6_apply (x0 : Vec Ideal S1x8x128x64 .f32) (hl : Fin 4) (r : Fin 128) (d : Fin 64) :
    k3_pay6 (F := Ideal) x0 (ix3 hl r d) = x0 (ix4 0 (hi hl) r d) :=
  (heads_hi_apply _ slices_S8x128x64_o4_0_0_S4x128x64 hl r d).trans (shapeCast_1abc_abc_apply x0 _ (hi hl) r d)

/-- Long head `hl` of the key block. -/
theorem pay7_apply (x1 : Vec Ideal S1x8x1024x64 .f32) (hl : Fin 4) (m : Fin 1024) (d : Fin 64) :
    k3_pay7 (F := Ideal) x1 (ix3 hl m d) = x1 (ix4 0 (hi hl) m d) :=
  (heads_hi_apply _ slices_S8x1024x64_o4_0_0_S4x1024x64 hl m d).trans (shapeCast_1abc_abc_apply x1 _ (hi hl) m d)

/-- Short head `hs` of the value block. -/
theorem pay8_apply (x2 : Vec Ideal S1x8x1024x64 .f32) (hs : Fin 4) (m : Fin 1024) (d : Fin 64) :
    k3_pay8 (F := Ideal) x2 (ix3 hs m d) = x2 (ix4 0 (lo hs) m d) :=
  (heads_lo_apply _ slices_S8x1024x64_o0_0_0_S4x1024x64 hs m d).trans (shapeCast_1abc_abc_apply x2 _ (lo hs) m d)

/-- Long head `hl` of the value block. -/
theorem pay9_apply (x2 : Vec Ideal S1x8x1024x64 .f32) (hl : Fin 4) (m : Fin 1024) (d : Fin 64) :
    k3_pay9 (F := Ideal) x2 (ix3 hl m d) = x2 (ix4 0 (hi hl) m d) :=
  (heads_hi_apply _ slices_S8x1024x64_o4_0_0_S4x1024x64 hl m d).trans (shapeCast_1abc_abc_apply x2 _ (hi hl) m d)

/-! ## The mask's ingredients -/

/-- A per-head parameter spread over the head's rows and columns. -/
theorem param_spread_apply {α : Type} (v : S4.Idx → α) (h1 : S4.ShapeCasts S4x1x1) (h2 : S4x1x1.Broadcasts S4x128x1024)
    (hh : Fin 4) (r : Fin 128) (m : Fin 1024) :
    broadcastTo S4x128x1024 (shapeCast S4x1x1 v h1) h2 (ix3 hh r m) = v (ix1 hh) :=
  (broadcastTo_a11_abc_apply _ h2 hh r m).trans (shapeCast_a_a11_apply v h1 hh 0 0)

/-- The one `[1, 128, 1024]` table, recast through `[128, 1024]`, shared by the four heads. -/
theorem table_spread_apply {α : Type} (v : S1x128x1024.Idx → α) (h1 : S1x128x1024.ShapeCasts S128x1024)
    (h2 : S128x1024.ShapeCasts S1x128x1024) (h3 : S1x128x1024.Broadcasts S4x128x1024)
    (hh : Fin 4) (r : Fin 128) (m : Fin 1024) :
    broadcastTo S4x128x1024 (shapeCast S1x128x1024 (shapeCast S128x1024 v h1) h2) h3 (ix3 hh r m) = v (ix3 (0 : Fin 1) r m) :=
  (broadcastTo_1bc_abc_apply _ h3 hh r m).trans
    ((shapeCast_ab_1ab_apply _ h2 0 r m).trans (shapeCast_1ab_ab_apply v h1 r m))

/-- The word of `1.0`. -/
theorem ofBits_one_f32 : Ideal.ofBits .f32 0x3F800000#32 = 1 := by
  simp [Ideal.ofBits, Ideal.ieee]
  rw [← EReal.coe_mul]
  norm_num

/-- A select on `a = b` (ordered comparison) is the `if`. -/
theorem select_oeq {α : Type} (a b : EReal) (x y : α) :
    Scalar.select (Ideal.cmp .oeq a b) x y = if a = b then x else y := by
  unfold Ideal.cmp Scalar.select
  by_cases h : a = b <;> simp [h]

end Cert.Attn.Ops

end
-- ==== Proof.AttnCanon.lean ====
/-
  The two output blocks of the attention body as their stored pieces.

  Each output block is written by two stores: heads 0–3 at head offset 0 and, after it, heads 4–7 at head offset 4.
  An entry of head `4 + hl` lies under the later store and reads its payload at `(0, hl, ·, ·)`; an entry of head
  `hs < 4` lies outside it and reads the earlier store's payload at `(0, hs, ·, ·)`. The loads go through the whole
  input blocks.
-/
import proofs.«158447_j8366596293037_2_alg».proof.Proof.Gen.KernelIdeal.Frame
import proofs.«158447_j8366596293037_2_alg».proof.Proof.AttnOps

noncomputable section

namespace Cert.Attn.Canon

open Cert.KernelIdeal Cert.KernelIdeal.Gen Idealize.ShloMosaic Idealize.ShloMosaic.ValueIdx Cert.Attn.Ops

theorem hz4 : (![0, 0, 0, 0] : Fin 4 → ℕ) = fun _ => 0 := by funext a; fin_cases a <;> rfl
theorem hz3 : (![0, 0, 0] : Fin 3 → ℕ) = fun _ => 0 := by funext a; fin_cases a <;> rfl
theorem hz1 : (![0] : Fin 1 → ℕ) = fun _ => 0 := by funext a; fin_cases a; rfl

theorem ld_q (x : Vec Ideal S1x8x128x64 .f32) : View.ld x r3_0 = x := View.ld_unit_zero hz4 _ x
theorem ld_kv (x : Vec Ideal S1x8x1024x64 .f32) : View.ld x r3_1 = x := View.ld_unit_zero hz4 _ x
theorem ld_s (x : Vec Ideal S1x128x1024 .f32) : View.ld x r3_2 = x := View.ld_unit_zero hz3 _ x
theorem ld_p (x : Vec Ideal S4 .f32) : View.ld x r3_3 = x := View.ld_unit_zero hz1 _ x

/-- An entry of a long head is under the later store of the weights block. -/
theorem idx_w_hi (hl : Fin 4) (r : Fin 128) (m : Fin 1024) :
    (ix4 (0 : Fin 1) (hi hl) r m : S1x8x128x1024.Idx) = r3_7.emb (ix4 (0 : Fin 1) hl r m) :=
  funext fun a => Fin.ext (by
    match a with
    | ⟨0, _⟩ => rfl
    | ⟨1, _⟩ => show 4 + hl.val = 4 + 1 * hl.val; omega
    | ⟨2, _⟩ => show r.val = 0 + 1 * r.val; omega
    | ⟨3, _⟩ => show m.val = 0 + 1 * m.val; omega)

/-- An entry of a short head is under the earlier store of the weights block, -/
theorem idx_w_lo (hs : Fin 4) (r : Fin 128) (m : Fin 1024) :
    (ix4 (0 : Fin 1) (lo hs) r m : S1x8x128x1024.Idx) = r3_5.emb (ix4 (0 : Fin 1) hs r m) :=
  funext fun a => Fin.ext (by
    match a with
    | ⟨0, _⟩ => rfl
    | ⟨1, _⟩ => show hs.val = 0 + 1 * hs.val; omega
    | ⟨2, _⟩ => show r.val = 0 + 1 * r.val; omega
    | ⟨3, _⟩ => show m.val = 0 + 1 * m.val; omega)

/-- and not under the later one. -/
theorem not_mem_w (hs : Fin 4) (r : Fin 128) (m : Fin 1024) :
    (ix4 (0 : Fin 1) (lo hs) r m : S1x8x128x1024.Idx) ∉ r3_7.set := by
  rw [Rect.mem_set_unit]
  intro h
  have h1 : 4 ≤ hs.val := (h 1).1
  have := hs.isLt
  omega

theorem idx_o_hi (hl : Fin 4) (r : Fin 128) (d : Fin 64) :
    (ix4 (0 : Fin 1) (hi hl) r d : S1x8x128x64.Idx) = r3_6.emb (ix4 (0 : Fin 1) hl r d) :=
  funext fun a => Fin.ext (by
    match a with
    | ⟨0, _⟩ => rfl
    | ⟨1, _⟩ => show 4 + hl.val = 4 + 1 * hl.val; omega
    | ⟨2, _⟩ => show r.val = 0 + 1 * r.val; omega
    | ⟨3, _⟩ => show d.val = 0 + 1 * d.val; omega)

theorem idx_o_lo (hs : Fin 4) (r : Fin 128) (d : Fin 64) :
    (ix4 (0 : Fin 1) (lo hs) r d : S1x8x128x64.Idx) = r3_4.emb (ix4 (0 : Fin 1) hs r d) :=
  funext fun a => Fin.ext (by
    match a with
    | ⟨0, _⟩ => rfl
    | ⟨1, _⟩ => show hs.val = 0 + 1 * hs.val; omega
    | ⟨2, _⟩ => show r.val = 0 + 1 * r.val; omega
    | ⟨3, _⟩ => show d.val = 0 + 1 * d.val; omega)

theorem not_mem_o (hs : Fin 4) (r : Fin 128) (d : Fin 64) :
    (ix4 (0 : Fin 1) (lo hs) r d : S1x8x128x64.Idx) ∉ r3_6.set := by
  rw [Rect.mem_set_unit]
  intro h
  have h1 : 4 ≤ hs.val := (h 1).1
  have := hs.isLt
  omega

/-- The weights block at a long head's entry. -/
theorem out3_7_hi (x0 : Vec Ideal S1x8x128x64 .f32) (x1 x2 : Vec Ideal S1x8x1024x64 .f32) (x3 : Vec Ideal S1x128x1024 .f32)
    (x4 x5 : Vec Ideal S4 .f32) (hl : Fin 4) (r : Fin 128) (m : Fin 1024) :
    Gen.out3_7 (F := Ideal) x0 x1 x2 x3 x4 x5 (ix4 0 (hi hl) r m)
      = k3_pay2 (F := Ideal) (k3_pay18 (F := Ideal) (k3_pay6 (F := Ideal) x0) (k3_pay7 (F := Ideal) x1)) (ix4 0 hl r m) := by
  unfold Gen.out3_7
  rw [ld_q, ld_kv, ld_s, ld_p x4, ld_p x5, idx_w_hi]
  exact View.canon_cons_emb r3_7 _ _ _

/-- The weights block at a short head's entry. -/
theorem out3_7_lo (x0 : Vec Ideal S1x8x128x64 .f32) (x1 x2 : Vec Ideal S1x8x1024x64 .f32) (x3 : Vec Ideal S1x128x1024 .f32)
    (x4 x5 : Vec Ideal S4 .f32) (hs : Fin 4) (r : Fin 128) (m : Fin 1024) :
    Gen.out3_7 (F := Ideal) x0 x1 x2 x3 x4 x5 (ix4 0 (lo hs) r m)
      = k3_pay17 (F := Ideal) (k3_pay10 (F := Ideal) x0 x1) (k3_pay12 (F := Ideal) x3 x4) (k3_pay13 (F := Ideal))
          (k3_pay14 (F := Ideal) x3 x4 x5) (ix4 0 hs r m) := by
  unfold Gen.out3_7
  rw [ld_q, ld_kv, ld_s, ld_p x4, ld_p x5]
  refine (View.canon_cons_of_not_mem _ _ ?_).trans ?_
  · exact not_mem_w hs r m
  rw [idx_w_lo]
  exact View.canon_cons_emb r3_5 _ _ _

/-- The out block at a long head's entry. -/
theorem out3_6_hi (x0 : Vec Ideal S1x8x128x64 .f32) (x1 x2 : Vec Ideal S1x8x1024x64 .f32) (x3 : Vec Ideal S1x128x1024 .f32)
    (x4 x5 : Vec Ideal S4 .f32) (hl : Fin 4) (r : Fin 128) (d : Fin 64) :
    Gen.out3_6 (F := Ideal) x0 x1 x2 x3 x4 x5 (ix4 0 (hi hl) r d)
      = k3_pay1 (F := Ideal) (k3_pay19 (F := Ideal) (k3_pay6 (F := Ideal) x0) (k3_pay7 (F := Ideal) x1)
          (k3_pay9 (F := Ideal) x2)) (ix4 0 hl r d) := by
  unfold Gen.out3_6
  rw [ld_q, ld_kv x1, ld_kv x2, ld_s, ld_p x4, ld_p x5, idx_o_hi]
  exact View.canon_cons_emb r3_6 _ _ _

/-- The out block at a short head's entry. -/
theorem out3_6_lo (x0 : Vec Ideal S1x8x128x64 .f32) (x1 x2 : Vec Ideal S1x8x1024x64 .f32) (x3 : Vec Ideal S1x128x1024 .f32)
    (x4 x5 : Vec Ideal S4 .f32) (hs : Fin 4) (r : Fin 128) (d : Fin 64) :
    Gen.out3_6 (F := Ideal) x0 x1 x2 x3 x4 x5 (ix4 0 (lo hs) r d)
      = k3_pay16 (F := Ideal) (k3_pay8 (F := Ideal) x2) (k3_pay10 (F := Ideal) x0 x1) (k3_pay12 (F := Ideal) x3 x4)
          (k3_pay13 (F := Ideal)) (k3_pay14 (F := Ideal) x3 x4 x5) (ix4 0 hs r d) := by
  unfold Gen.out3_6
  rw [ld_q, ld_kv x1, ld_kv x2, ld_s, ld_p x4, ld_p x5]
  refine (View.canon_cons_of_not_mem _ _ ?_).trans ?_
  · exact not_mem_o hs r d
  rw [idx_o_lo]
  exact View.canon_cons_emb r3_4 _ _ _

end Cert.Attn.Canon

end
-- ==== Proof.AttnShort.lean ====
/-
  Heads 0–3 of the attention body, entry by entry.

  The logits of short head `hs` are the scaled scores times the decay mask: `1` where the hop excess
  `e = max (sph − hop) 0` is zero and `exp (e · log γ)` elsewhere, `γ` the logistic of the head's parameter. Each row of
  logits goes through the max-shifted softmax; the stored weights block is that, and the stored out block is the
  weights times the head's value rows.
-/
import proofs.«158447_j8366596293037_2_alg».proof.Proof.Spec
import proofs.«158447_j8366596293037_2_alg».proof.Proof.AttnOps

noncomputable section

open scoped BigOperators

namespace Cert.Attn.Short

open Cert.KernelIdeal Cert.KernelIdeal.Gen Idealize.ShloMosaic Idealize.ShloMosaic.ValueIdx Cert.Attn.Ops

/-- The short heads' scaled scores are the payload's product. -/
theorem pay10_eq (x0 : Vec Ideal S1x8x128x64 .f32) (x1 : Vec Ideal S1x8x1024x64 .f32) :
    k3_pay10 (F := Ideal) x0 x1
      = scoreOf (extractStridedSlice S4x128x64 ![0, 0, 0] (k3_pay3 (F := Ideal) x0) slices_S8x128x64_o0_0_0_S4x128x64)
          (extractStridedSlice S4x1024x64 ![0, 0, 0] (k3_pay4 (F := Ideal) x1) slices_S8x1024x64_o0_0_0_S4x1024x64) := rfl

theorem pay10_apply (x0 : Vec Ideal S1x8x128x64 .f32) (x1 : Vec Ideal S1x8x1024x64 .f32) (hs : Fin 4) (r : Fin 128)
    (m : Fin 1024) : k3_pay10 (F := Ideal) x0 x1 (ix3 hs r m) = blkScore x0 x1 (lo hs) r m := by
  rw [pay10_eq, scoreOf_apply]
  unfold blkScore eighth
  exact congrArg (· * _) (Finset.sum_congr rfl fun d _ => by rw [q_lo_apply, k_lo_apply])

/-- The hop excess `max (sph − hop) 0` of short head `hs` at `(r, m)`. -/
theorem pay11_apply (x3 : Vec Ideal S1x128x1024 .f32) (x4 : Vec Ideal S4 .f32) (hs : Fin 4) (r : Fin 128) (m : Fin 1024) :
    k3_pay11 (F := Ideal) x3 x4 (ix3 hs r m) = max (x3 (ix3 0 r m) - x4 (ix1 hs)) 0 := by
  show max (broadcastTo S4x128x1024 (shapeCast S1x128x1024 (shapeCast S128x1024 x3 shapeCasts_S1x128x1024_S128x1024)
        shapeCasts_S128x1024_S1x128x1024) broadcasts_S1x128x1024_S4x128x1024 (ix3 hs r m)
      - broadcastTo S4x128x1024 (shapeCast S4x1x1 x4 shapeCasts_S4_S4x1x1) broadcasts_S4x1x1_S4x128x1024 (ix3 hs r m))
      (Ideal.ofBits .f32 0x00000000#32) = _
  rw [table_spread_apply, param_spread_apply, Ideal.ofBits_zero_f32]

/-- The exponent `e · log γ` of short head `hs` at `(r, m)`. -/
theorem pay14_apply (x3 : Vec Ideal S1x128x1024 .f32) (x4 x5 : Vec Ideal S4 .f32) (hs : Fin 4) (r : Fin 128)
    (m : Fin 1024) :
    k3_pay14 (F := Ideal) x3 x4 x5 (ix3 hs r m)
      = max (x3 (ix3 0 r m) - x4 (ix1 hs)) 0 * Ideal.log (Ideal.logistic (x5 (ix1 hs))) := by
  show k3_pay11 (F := Ideal) x3 x4 (ix3 hs r m)
      * broadcastTo S4x128x1024 (shapeCast S4x1x1 (log (logistic x5)) shapeCasts_S4_S4x1x1) broadcasts_S4x1x1_S4x128x1024
          (ix3 hs r m) = _
  rw [param_spread_apply, pay11_apply]
  rfl

/-- The decay mask of short head `hs` at `(r, m)`. -/
theorem mask_apply (x3 : Vec Ideal S1x128x1024 .f32) (x4 x5 : Vec Ideal S4 .f32) (hs : Fin 4) (r : Fin 128) (m : Fin 1024) :
    select (k3_pay12 (F := Ideal) x3 x4) (k3_pay13 (F := Ideal)) (exp (k3_pay14 (F := Ideal) x3 x4 x5)) (ix3 hs r m)
      = maskExpAt (x3 (ix3 0 r m)) (x4 (ix1 hs)) (x5 (ix1 hs)) := by
  show Scalar.select (Ideal.cmp .oeq (k3_pay11 (F := Ideal) x3 x4 (ix3 hs r m)) (Ideal.ofBits .f32 0x00000000#32))
      (Ideal.ofBits .f32 0x3F800000#32) (Ideal.exp (k3_pay14 (F := Ideal) x3 x4 x5 (ix3 hs r m))) = _
  rw [select_oeq, pay14_apply, pay11_apply, Ideal.ofBits_zero_f32, ofBits_one_f32]
  rfl

/-- The short heads' logits: scores times mask. -/
def logitS (x0 : Vec Ideal S1x8x128x64 .f32) (x1 : Vec Ideal S1x8x1024x64 .f32) (x3 : Vec Ideal S1x128x1024 .f32)
    (x4 x5 : Vec Ideal S4 .f32) : FVec Ideal S4x128x1024 .f32 :=
  mulf (k3_pay10 (F := Ideal) x0 x1)
    (select (k3_pay12 (F := Ideal) x3 x4) (k3_pay13 (F := Ideal)) (exp (k3_pay14 (F := Ideal) x3 x4 x5)))

theorem shortOf_lo (hs : Fin 4) : shortOf (lo hs) = hs := Fin.ext (Nat.mod_eq_of_lt hs.isLt)

theorem logitS_apply (x0 : Vec Ideal S1x8x128x64 .f32) (x1 : Vec Ideal S1x8x1024x64 .f32) (x3 : Vec Ideal S1x128x1024 .f32)
    (x4 x5 : Vec Ideal S4 .f32) (hs : Fin 4) (r : Fin 128) (m : Fin 1024) :
    logitS x0 x1 x3 x4 x5 (ix3 hs r m) = blkLogit x0 x1 x3 x4 x5 (lo hs) r m := by
  show k3_pay10 (F := Ideal) x0 x1 (ix3 hs r m)
      * select (k3_pay12 (F := Ideal) x3 x4) (k3_pay13 (F := Ideal)) (exp (k3_pay14 (F := Ideal) x3 x4 x5)) (ix3 hs r m) = _
  rw [pay10_apply, mask_apply]
  unfold blkLogit
  rw [if_pos (show (lo hs).val < 4 from hs.isLt), shortOf_lo]

/-- The short heads' weights are the softmax of the logits' rows. -/
theorem pay15_eq (v18 : FVec Ideal S4x128x1024 .f32) (v32 : IVec S4x128x1024 1) (v33 v35 : FVec Ideal S4x128x1024 .f32) :
    k3_pay15 (F := Ideal) v18 v32 v33 v35 = softChain (mulf v18 (select v32 v33 (exp v35))) := rfl

theorem weights_apply (x0 : Vec Ideal S1x8x128x64 .f32) (x1 : Vec Ideal S1x8x1024x64 .f32) (x3 : Vec Ideal S1x128x1024 .f32)
    (x4 x5 : Vec Ideal S4 .f32) (hs : Fin 4) (r : Fin 128) (m : Fin 1024) :
    k3_pay15 (F := Ideal) (k3_pay10 (F := Ideal) x0 x1) (k3_pay12 (F := Ideal) x3 x4) (k3_pay13 (F := Ideal))
        (k3_pay14 (F := Ideal) x3 x4 x5) (ix3 hs r m)
      = blkW x0 x1 x3 x4 x5 (lo hs) r m := by
  rw [pay15_eq]
  exact softChain_apply (logitS x0 x1 x3 x4 x5) hs r m (blkLogit x0 x1 x3 x4 x5 (lo hs) r)
    (fun k => logitS_apply x0 x1 x3 x4 x5 hs r k)

/-- The stored weights block of the short heads. -/
theorem short_w (x0 : Vec Ideal S1x8x128x64 .f32) (x1 : Vec Ideal S1x8x1024x64 .f32) (x3 : Vec Ideal S1x128x1024 .f32)
    (x4 x5 : Vec Ideal S4 .f32) (hs : Fin 4) (r : Fin 128) (m : Fin 1024) :
    k3_pay17 (F := Ideal) (k3_pay10 (F := Ideal) x0 x1) (k3_pay12 (F := Ideal) x3 x4) (k3_pay13 (F := Ideal))
        (k3_pay14 (F := Ideal) x3 x4 x5) (ix4 0 hs r m)
      = blkW x0 x1 x3 x4 x5 (lo hs) r m :=
  (shapeCast_abc_1abc_apply _ shapeCasts_S4x128x1024_S1x4x128x1024 0 hs r m).trans (weights_apply x0 x1 x3 x4 x5 hs r m)

/-- The short heads' out rows are the weights times the value rows. -/
theorem pay16_eq (v12 : FVec Ideal S4x1024x64 .f32) (v18 : FVec Ideal S4x128x1024 .f32) (v32 : IVec S4x128x1024 1)
    (v33 v35 : FVec Ideal S4x128x1024 .f32) :
    k3_pay16 (F := Ideal) v12 v18 v32 v33 v35
      = shapeCast S1x4x128x64 (mixOf (k3_pay15 (F := Ideal) v18 v32 v33 v35) v12) shapeCasts_S4x128x64_S1x4x128x64 := rfl

/-- The stored out block of the short heads. -/
theorem short_out (x0 : Vec Ideal S1x8x128x64 .f32) (x1 x2 : Vec Ideal S1x8x1024x64 .f32) (x3 : Vec Ideal S1x128x1024 .f32)
    (x4 x5 : Vec Ideal S4 .f32) (hs : Fin 4) (r : Fin 128) (d : Fin 64) :
    k3_pay16 (F := Ideal) (k3_pay8 (F := Ideal) x2) (k3_pay10 (F := Ideal) x0 x1) (k3_pay12 (F := Ideal) x3 x4)
        (k3_pay13 (F := Ideal)) (k3_pay14 (F := Ideal) x3 x4 x5) (ix4 0 hs r d)
      = blkOut x0 x1 x2 x3 x4 x5 (lo hs) r d := by
  rw [pay16_eq]
  refine (shapeCast_abc_1abc_apply _ shapeCasts_S4x128x64_S1x4x128x64 0 hs r d).trans ?_
  rw [mixOf_apply]
  unfold blkOut
  exact Finset.sum_congr rfl fun m _ => by rw [weights_apply, pay8_apply]

end Cert.Attn.Short

end
-- ==== Proof.AttnLong.lean ====
/-
  The long-range heads (4–7) of the attention block, entry by entry. These heads carry no decay mask: their logits
  are the scaled scores themselves, so the stored weights are the max-shifted softmax of the score rows and the stored
  outputs are those weights applied to the value rows of the same head.
-/
import proofs.«158447_j8366596293037_2_alg».proof.Proof.Spec
import proofs.«158447_j8366596293037_2_alg».proof.Proof.AttnOps

noncomputable section

open scoped BigOperators

namespace Cert.Attn.Body.Long

open Cert.KernelIdeal Cert.KernelIdeal.Gen Idealize.ShloMosaic Idealize.ShloMosaic.ValueIdx Cert.Attn.Ops

variable (x0 : Vec Ideal S1x8x128x64 .f32) (x1 x2 : Vec Ideal S1x8x1024x64 .f32) (x3 : Vec Ideal S1x128x1024 .f32)
  (x4 x5 : Vec Ideal S4 .f32)

/-- The weights of four heads are the softmax of every row of their scaled scores. -/
theorem pay18_eq (q : FVec Ideal S4x128x64 .f32) (k : FVec Ideal S4x1024x64 .f32) :
    k3_pay18 (F := Ideal) q k = softChain (scoreOf q k) := rfl

/-- The outputs of four heads are their weights applied to their value rows. -/
theorem pay19_eq (q : FVec Ideal S4x128x64 .f32) (k v : FVec Ideal S4x1024x64 .f32) :
    k3_pay19 (F := Ideal) q k v = mixOf (k3_pay18 (F := Ideal) q k) v := rfl

/-- A long head's score row is the block's logit row of that head: no mask on heads 4–7. -/
theorem score_row (hl : Fin 4) (r : Fin 128) (k : Fin 1024) :
    scoreOf (k3_pay6 (F := Ideal) x0) (k3_pay7 (F := Ideal) x1) (ix3 hl r k) = blkLogit x0 x1 x3 x4 x5 (hi hl) r k := by
  refine (scoreOf_apply _ _ hl r k).trans ?_
  unfold blkLogit
  rw [if_neg (show ¬ (hi hl).val < 4 from Nat.not_lt.2 (Nat.le_add_right 4 hl.val))]
  unfold blkScore eighth
  simp only [pay6_apply, pay7_apply]

/-- The weights of long head `hl` before the unit axis is put back. -/
theorem weights_at (hl : Fin 4) (r : Fin 128) (m : Fin 1024) :
    k3_pay18 (F := Ideal) (k3_pay6 x0) (k3_pay7 x1) (ix3 hl r m) = blkW x0 x1 x3 x4 x5 (hi hl) r m := by
  rw [pay18_eq]
  exact softChain_apply _ hl r m (blkLogit x0 x1 x3 x4 x5 (hi hl) r) (score_row x0 x1 x3 x4 x5 hl r)

/-- The stored weights of the long heads. -/
theorem long_w (hl : Fin 4) (r : Fin 128) (m : Fin 1024) :
    k3_pay2 (F := Ideal) (k3_pay18 (k3_pay6 x0) (k3_pay7 x1)) (ix4 0 hl r m) = blkW x0 x1 x3 x4 x5 (hi hl) r m :=
  (shapeCast_abc_1abc_apply _ _ 0 hl r m).trans (weights_at x0 x1 x3 x4 x5 hl r m)

/-- The stored outputs of the long heads. -/
theorem long_o (hl : Fin 4) (r : Fin 128) (d : Fin 64) :
    k3_pay1 (F := Ideal) (k3_pay19 (k3_pay6 x0) (k3_pay7 x1) (k3_pay9 x2)) (ix4 0 hl r d)
      = blkOut x0 x1 x2 x3 x4 x5 (hi hl) r d := by
  unfold k3_pay1
  refine (shapeCast_abc_1abc_apply _ _ 0 hl r d).trans ?_
  rw [pay19_eq]
  refine (mixOf_apply _ _ hl r d).trans ?_
  unfold blkOut
  refine Finset.sum_congr rfl fun m _ => ?_
  rw [weights_at x0 x1 x3 x4 x5 hl r m, pay9_apply]

end Cert.Attn.Body.Long

end
-- ==== Proof.AttnBody.lean ====
/-
  The attention kernel's two output blocks, entry by entry: the weights block at (0, h, r, m) is the max-shifted softmax
  weight of key m for query row r of head h, and the out block at (0, h, r, d) is the weighted sum of the value rows.

  Each block is stored in two pieces, heads 0–3 and heads 4–7; an entry is read from the piece its head lies in, and
  that piece's payload at the entry is the block's specification there: with the decay mask on the logits for heads
  0–3, without it for heads 4–7.
-/
import proofs.«158447_j8366596293037_2_alg».proof.Proof.Spec
import proofs.«158447_j8366596293037_2_alg».proof.Proof.Gen.KernelIdeal.Frame
import proofs.«158447_j8366596293037_2_alg».proof.Proof.AttnCanon
import proofs.«158447_j8366596293037_2_alg».proof.Proof.AttnShort
import proofs.«158447_j8366596293037_2_alg».proof.Proof.AttnLong

noncomputable section

namespace Cert.Attn.Body

open Cert.KernelIdeal Cert.KernelIdeal.Gen Idealize.ShloMosaic Idealize.ShloMosaic.ValueIdx Cert.Attn.Ops

/-- Every head is one of heads 0–3 or one of heads 4–7. -/
theorem head_cases (h : Fin 8) : (∃ hs : Fin 4, h = lo hs) ∨ (∃ hl : Fin 4, h = hi hl) := by
  by_cases hlt : h.val < 4
  · exact Or.inl ⟨⟨h.val, hlt⟩, Fin.ext rfl⟩
  · exact Or.inr ⟨⟨h.val - 4, by have := h.isLt; omega⟩, Fin.ext (by show h.val = 4 + (h.val - 4); omega)⟩

theorem out3_7_apply (x0 : Vec Ideal S1x8x128x64 .f32) (x1 x2 : Vec Ideal S1x8x1024x64 .f32) (x3 : Vec Ideal S1x128x1024 .f32)
    (x4 x5 : Vec Ideal S4 .f32) (h : Fin 8) (r : Fin 128) (m : Fin 1024) :
    Gen.out3_7 (F := Ideal) x0 x1 x2 x3 x4 x5 (ix4 0 h r m) = Cert.Attn.blkW x0 x1 x3 x4 x5 h r m := by
  rcases head_cases h with ⟨hs, rfl⟩ | ⟨hl, rfl⟩
  · exact (Canon.out3_7_lo x0 x1 x2 x3 x4 x5 hs r m).trans (Short.short_w x0 x1 x3 x4 x5 hs r m)
  · exact (Canon.out3_7_hi x0 x1 x2 x3 x4 x5 hl r m).trans (Long.long_w x0 x1 x3 x4 x5 hl r m)

theorem out3_6_apply (x0 : Vec Ideal S1x8x128x64 .f32) (x1 x2 : Vec Ideal S1x8x1024x64 .f32) (x3 : Vec Ideal S1x128x1024 .f32)
    (x4 x5 : Vec Ideal S4 .f32) (h : Fin 8) (r : Fin 128) (d : Fin 64) :
    Gen.out3_6 (F := Ideal) x0 x1 x2 x3 x4 x5 (ix4 0 h r d) = Cert.Attn.blkOut x0 x1 x2 x3 x4 x5 h r d := by
  rcases head_cases h with ⟨hs, rfl⟩ | ⟨hl, rfl⟩
  · exact (Canon.out3_6_lo x0 x1 x2 x3 x4 x5 hs r d).trans (Short.short_out x0 x1 x2 x3 x4 x5 hs r d)
  · exact (Canon.out3_6_hi x0 x1 x2 x3 x4 x5 hl r d).trans (Long.long_o x0 x1 x2 x3 x4 x5 hl r d)

end Cert.Attn.Body

end
-- ==== Proof.AttnBlocks.lean ====
/-
  Region 3 of the kernel program runs over 4 × 8 points. Point number `t` handles batch entry `t / 8` and the
  block of 128 query rows number `t % 8`. This module reads each window's block at a point as the window's array at
  the shifted index (block coordinate = block index × block size + coordinate inside the block), and shows that the
  blocks of the two output windows cover their arrays: row `n` of batch entry `bi` lies in the block of point
  `8 bi + n / 128`.
-/
import proofs.«158447_j8366596293037_2_alg».proof.Proof.Gen.KernelIdeal.Frame
import Idealize.ShloMosaic.Lib.Pipeline.Value
import Idealize.ShloMosaic.Lib.ValueIdx

noncomputable section

namespace Cert.Attn.Arr

open Cert.KernelIdeal Cert.KernelIdeal.Gen Idealize.ShloMosaic Idealize.ShloMosaic.TcCoe Idealize.SL.Sem
open Idealize.ShloMosaic.ValueIdx
open Idealize.ShloMosaic.Pipeline (Dat)

theorem lt32 (t : Fin cfg3.N) : t.val < 32 := lt_of_lt_of_eq t.isLt N_3

/-- The batch entry point `t` works on. -/
def pb (t : Fin cfg3.N) : Fin 4 := ⟨t.val / 8, by have := lt32 t; omega⟩
/-- Row `r` of point `t`'s block of query rows, as a row of the array. -/
def row (t : Fin cfg3.N) (r : Fin 128) : Fin 1024 := ⟨(t.val % 8) * 128 + r.val, by have := r.isLt; have := Nat.mod_lt t.val (show 0 < 8 by decide); omega⟩

/-- The point of batch entry `bi` and row block `qi`. -/
def pt (bi : Fin 4) (qi : Fin 8) : Fin cfg3.N := ⟨bi.val * 8 + qi.val, by rw [show cfg3.N = 32 from N_3]; have := bi.isLt; have := qi.isLt; omega⟩

/-- The block indices of the windows at a point, decided over the 32 points. -/
theorem idx_facts : ∀ t : Fin cfg3.N,
    (win3_0.index t (0 : Fin 4) = t.val / 8 ∧ win3_0.index t (1 : Fin 4) = 0 ∧ win3_0.index t (2 : Fin 4) = t.val % 8 ∧ win3_0.index t (3 : Fin 4) = 0)
    ∧ (win3_1.index t (0 : Fin 4) = t.val / 8 ∧ win3_1.index t (1 : Fin 4) = 0 ∧ win3_1.index t (2 : Fin 4) = 0 ∧ win3_1.index t (3 : Fin 4) = 0)
    ∧ (win3_2.index t (0 : Fin 4) = t.val / 8 ∧ win3_2.index t (1 : Fin 4) = 0 ∧ win3_2.index t (2 : Fin 4) = 0 ∧ win3_2.index t (3 : Fin 4) = 0)
    ∧ (win3_3.index t (0 : Fin 3) = t.val / 8 ∧ win3_3.index t (1 : Fin 3) = t.val % 8 ∧ win3_3.index t (2 : Fin 3) = 0)
    ∧ (win3_4.index t (0 : Fin 1) = 0)
    ∧ (win3_5.index t (0 : Fin 1) = 0)
    ∧ (win3_6.index t (0 : Fin 4) = t.val / 8 ∧ win3_6.index t (1 : Fin 4) = 0 ∧ win3_6.index t (2 : Fin 4) = t.val % 8 ∧ win3_6.index t (3 : Fin 4) = 0)
    ∧ (win3_7.index t (0 : Fin 4) = t.val / 8 ∧ win3_7.index t (1 : Fin 4) = 0 ∧ win3_7.index t (2 : Fin 4) = t.val % 8 ∧ win3_7.index t (3 : Fin 4) = 0) :=
  (by decide +kernel : ∀ t : Fin grid3.N, _)

variable (V : (c : Dev nD) → (b : Ref sig .tc) → Buf (Elt Ideal) ((c : Thread nD τ).loc b))

/-- The query block of a point is the query array at the point's batch entry and rows. -/
theorem read0 (c : Dev nD) (t : Fin cfg3.N) (h : Fin 8) (r : Fin 128) (d : Fin 64) :
    (iblk3 (F := Ideal) V c 0 t : S1x8x128x64.Idx → EReal) (ix4 0 h r d)
      = (V c (Pipeline.arrRef spec3 0) : S4x8x1024x64.Idx → EReal) (ix4 (pb t) h (row t r) d) := by
  obtain ⟨⟨e0, e1, e2, e3⟩, -⟩ := idx_facts t
  show V c (Pipeline.arrRef spec3 0) (((cfg3.win 0).blk t).view.emb (ix4 0 h r d)) = V c (Pipeline.arrRef spec3 0) _
  refine congrArg _ ?_
  funext a; apply Fin.ext
  match a with
  | ⟨0, _⟩ => show win3_0.index t (0 : Fin 4) * 1 + 1 * 0 = t.val / 8; omega
  | ⟨1, _⟩ => show win3_0.index t (1 : Fin 4) * 8 + 1 * h.val = h.val; omega
  | ⟨2, _⟩ => show win3_0.index t (2 : Fin 4) * 128 + 1 * r.val = (t.val % 8) * 128 + r.val; omega
  | ⟨3, _⟩ => show win3_0.index t (3 : Fin 4) * 64 + 1 * d.val = d.val; omega

/-- The key block of a point is the whole key array of the point's batch entry. -/
theorem read1 (c : Dev nD) (t : Fin cfg3.N) (h : Fin 8) (m : Fin 1024) (d : Fin 64) :
    (iblk3 (F := Ideal) V c 1 t : S1x8x1024x64.Idx → EReal) (ix4 0 h m d)
      = (V c (Pipeline.arrRef spec3 1) : S4x8x1024x64.Idx → EReal) (ix4 (pb t) h m d) := by
  obtain ⟨-, ⟨e0, e1, e2, e3⟩, -⟩ := idx_facts t
  show V c (Pipeline.arrRef spec3 1) (((cfg3.win 1).blk t).view.emb (ix4 0 h m d)) = V c (Pipeline.arrRef spec3 1) _
  refine congrArg _ ?_
  funext a; apply Fin.ext
  match a with
  | ⟨0, _⟩ => show win3_1.index t (0 : Fin 4) * 1 + 1 * 0 = t.val / 8; omega
  | ⟨1, _⟩ => show win3_1.index t (1 : Fin 4) * 8 + 1 * h.val = h.val; omega
  | ⟨2, _⟩ => show win3_1.index t (2 : Fin 4) * 1024 + 1 * m.val = m.val; omega
  | ⟨3, _⟩ => show win3_1.index t (3 : Fin 4) * 64 + 1 * d.val = d.val; omega

/-- The value block of a point is the whole value array of the point's batch entry. -/
theorem read2 (c : Dev nD) (t : Fin cfg3.N) (h : Fin 8) (m : Fin 1024) (d : Fin 64) :
    (iblk3 (F := Ideal) V c 2 t : S1x8x1024x64.Idx → EReal) (ix4 0 h m d)
      = (V c (Pipeline.arrRef spec3 2) : S4x8x1024x64.Idx → EReal) (ix4 (pb t) h m d) := by
  obtain ⟨-, -, ⟨e0, e1, e2, e3⟩, -⟩ := idx_facts t
  show V c (Pipeline.arrRef spec3 2) (((cfg3.win 2).blk t).view.emb (ix4 0 h m d)) = V c (Pipeline.arrRef spec3 2) _
  refine congrArg _ ?_
  funext a; apply Fin.ext
  match a with
  | ⟨0, _⟩ => show win3_2.index t (0 : Fin 4) * 1 + 1 * 0 = t.val / 8; omega
  | ⟨1, _⟩ => show win3_2.index t (1 : Fin 4) * 8 + 1 * h.val = h.val; omega
  | ⟨2, _⟩ => show win3_2.index t (2 : Fin 4) * 1024 + 1 * m.val = m.val; omega
  | ⟨3, _⟩ => show win3_2.index t (3 : Fin 4) * 64 + 1 * d.val = d.val; omega

/-- The hop-distance block of a point is the hop-distance array at the point's batch entry and rows. -/
theorem read3 (c : Dev nD) (t : Fin cfg3.N) (r : Fin 128) (m : Fin 1024) :
    (iblk3 (F := Ideal) V c 3 t : S1x128x1024.Idx → EReal) (ix3 0 r m)
      = (V c (Pipeline.arrRef spec3 3) : S4x1024x1024.Idx → EReal) (ix3 (pb t) (row t r) m) := by
  obtain ⟨-, -, -, ⟨e0, e1, e2⟩, -⟩ := idx_facts t
  show V c (Pipeline.arrRef spec3 3) (((cfg3.win 3).blk t).view.emb (ix3 0 r m)) = V c (Pipeline.arrRef spec3 3) _
  refine congrArg _ ?_
  funext a; apply Fin.ext
  match a with
  | ⟨0, _⟩ => show win3_3.index t (0 : Fin 3) * 1 + 1 * 0 = t.val / 8; omega
  | ⟨1, _⟩ => show win3_3.index t (1 : Fin 3) * 128 + 1 * r.val = (t.val % 8) * 128 + r.val; omega
  | ⟨2, _⟩ => show win3_3.index t (2 : Fin 3) * 1024 + 1 * m.val = m.val; omega

/-- The hop thresholds are read whole at every point. -/
theorem read4 (c : Dev nD) (t : Fin cfg3.N) (s : Fin 4) :
    (iblk3 (F := Ideal) V c 4 t : S4.Idx → EReal) (ix1 s) = (V c (Pipeline.arrRef spec3 4) : S4.Idx → EReal) (ix1 s) := by
  obtain ⟨-, -, -, -, e0, -⟩ := idx_facts t
  show V c (Pipeline.arrRef spec3 4) (((cfg3.win 4).blk t).view.emb (ix1 s)) = V c (Pipeline.arrRef spec3 4) _
  refine congrArg _ ?_
  funext a; apply Fin.ext
  match a with
  | ⟨0, _⟩ => show win3_4.index t (0 : Fin 1) * 4 + 1 * s.val = s.val; omega

/-- The decay parameters are read whole at every point. -/
theorem read5 (c : Dev nD) (t : Fin cfg3.N) (s : Fin 4) :
    (iblk3 (F := Ideal) V c 5 t : S4.Idx → EReal) (ix1 s) = (V c (Pipeline.arrRef spec3 5) : S4.Idx → EReal) (ix1 s) := by
  obtain ⟨-, -, -, -, -, e0, -⟩ := idx_facts t
  show V c (Pipeline.arrRef spec3 5) (((cfg3.win 5).blk t).view.emb (ix1 s)) = V c (Pipeline.arrRef spec3 5) _
  refine congrArg _ ?_
  funext a; apply Fin.ext
  match a with
  | ⟨0, _⟩ => show win3_5.index t (0 : Fin 1) * 4 + 1 * s.val = s.val; omega

/-- An index of the weights array is in point `t`'s block iff each coordinate is in the block's range on its axis. -/
theorem mem_blk7 (t : Fin cfg3.N) (i : S4x8x1024x1024.Idx) :
    i ∈ ((cfg3.win 7).blk t).view.set ↔ ∀ a : Fin 4, win3_7.index t a * S1x8x128x1024.size a ≤ (i a).val ∧ (i a).val < win3_7.index t a * S1x8x128x1024.size a + S1x8x128x1024.size a := by
  show i ∈ ((View.whole main_v15_1).slice (win3_7.rect t)).set ↔ _
  rw [View.set_slice_whole, Rect.mem_set_unit]
  exact Iff.rfl

/-- Every index of the weights array is in the block of the point of its batch entry and row block. -/
theorem cover7 (i : S4x8x1024x1024.Idx) :
    ∃ t : Fin cfg3.N, (cfg3.win 7).flush t = true ∧ i ∈ ((cfg3.win 7).blk t).view.set := by
  have h0 : (i 0).val < 4 := (i 0).isLt
  have h1 : (i 1).val < 8 := (i 1).isLt
  have h2 : (i 2).val < 1024 := (i 2).isLt
  have h3 : (i 3).val < 1024 := (i 3).isLt
  refine ⟨pt ⟨(i 0).val, h0⟩ ⟨(i 2).val / 128, by omega⟩, flush3_7 _, ?_⟩
  rw [mem_blk7]
  obtain ⟨-, -, -, -, -, -, -, ⟨e0, e1, e2, e3⟩⟩ := idx_facts (pt ⟨(i 0).val, h0⟩ ⟨(i 2).val / 128, by omega⟩)
  have hv : (pt ⟨(i 0).val, h0⟩ ⟨(i 2).val / 128, by omega⟩).val = (i 0).val * 8 + (i 2).val / 128 := rfl
  intro a
  match a with
  | ⟨0, _⟩ => show win3_7.index _ (0 : Fin 4) * 1 ≤ (i 0).val ∧ (i 0).val < win3_7.index _ (0 : Fin 4) * 1 + 1; omega
  | ⟨1, _⟩ => show win3_7.index _ (1 : Fin 4) * 8 ≤ (i 1).val ∧ (i 1).val < win3_7.index _ (1 : Fin 4) * 8 + 8; omega
  | ⟨2, _⟩ => show win3_7.index _ (2 : Fin 4) * 128 ≤ (i 2).val ∧ (i 2).val < win3_7.index _ (2 : Fin 4) * 128 + 128; omega
  | ⟨3, _⟩ => show win3_7.index _ (3 : Fin 4) * 1024 ≤ (i 3).val ∧ (i 3).val < win3_7.index _ (3 : Fin 4) * 1024 + 1024; omega

/-- An index of the output array is in point `t`'s block iff each coordinate is in the block's range on its axis. -/
theorem mem_blk6 (t : Fin cfg3.N) (i : S4x8x1024x64.Idx) :
    i ∈ ((cfg3.win 6).blk t).view.set ↔ ∀ a : Fin 4, win3_6.index t a * S1x8x128x64.size a ≤ (i a).val ∧ (i a).val < win3_6.index t a * S1x8x128x64.size a + S1x8x128x64.size a := by
  show i ∈ ((View.whole main_v15_0).slice (win3_6.rect t)).set ↔ _
  rw [View.set_slice_whole, Rect.mem_set_unit]
  exact Iff.rfl

/-- Every index of the output array is in the block of the point of its batch entry and row block. -/
theorem cover6 (i : S4x8x1024x64.Idx) :
    ∃ t : Fin cfg3.N, (cfg3.win 6).flush t = true ∧ i ∈ ((cfg3.win 6).blk t).view.set := by
  have h0 : (i 0).val < 4 := (i 0).isLt
  have h1 : (i 1).val < 8 := (i 1).isLt
  have h2 : (i 2).val < 1024 := (i 2).isLt
  have h3 : (i 3).val < 64 := (i 3).isLt
  refine ⟨pt ⟨(i 0).val, h0⟩ ⟨(i 2).val / 128, by omega⟩, flush3_6 _, ?_⟩
  rw [mem_blk6]
  obtain ⟨-, -, -, -, -, -, ⟨e0, e1, e2, e3⟩, -⟩ := idx_facts (pt ⟨(i 0).val, h0⟩ ⟨(i 2).val / 128, by omega⟩)
  have hv : (pt ⟨(i 0).val, h0⟩ ⟨(i 2).val / 128, by omega⟩).val = (i 0).val * 8 + (i 2).val / 128 := rfl
  intro a
  match a with
  | ⟨0, _⟩ => show win3_6.index _ (0 : Fin 4) * 1 ≤ (i 0).val ∧ (i 0).val < win3_6.index _ (0 : Fin 4) * 1 + 1; omega
  | ⟨1, _⟩ => show win3_6.index _ (1 : Fin 4) * 8 ≤ (i 1).val ∧ (i 1).val < win3_6.index _ (1 : Fin 4) * 8 + 8; omega
  | ⟨2, _⟩ => show win3_6.index _ (2 : Fin 4) * 128 ≤ (i 2).val ∧ (i 2).val < win3_6.index _ (2 : Fin 4) * 128 + 128; omega
  | ⟨3, _⟩ => show win3_6.index _ (3 : Fin 4) * 64 ≤ (i 3).val ∧ (i 3).val < win3_6.index _ (3 : Fin 4) * 64 + 64; omega

/-- Where an entry of point `t`'s block of weights sits in the weights array. -/
theorem emb7 (t : Fin cfg3.N) (h : Fin 8) (r : Fin 128) (m : Fin 1024) :
    (((cfg3.win 7).blk t).view.emb (ix4 0 h r m : S1x8x128x1024.Idx) : S4x8x1024x1024.Idx) = ix4 (pb t) h (row t r) m := by
  obtain ⟨-, -, -, -, -, -, -, ⟨e0, e1, e2, e3⟩⟩ := idx_facts t
  funext a; apply Fin.ext
  match a with
  | ⟨0, _⟩ => show win3_7.index t (0 : Fin 4) * 1 + 1 * 0 = t.val / 8; omega
  | ⟨1, _⟩ => show win3_7.index t (1 : Fin 4) * 8 + 1 * h.val = h.val; omega
  | ⟨2, _⟩ => show win3_7.index t (2 : Fin 4) * 128 + 1 * r.val = (t.val % 8) * 128 + r.val; omega
  | ⟨3, _⟩ => show win3_7.index t (3 : Fin 4) * 1024 + 1 * m.val = m.val; omega

/-- Where an entry of point `t`'s block of outputs sits in the output array. -/
theorem emb6 (t : Fin cfg3.N) (h : Fin 8) (r : Fin 128) (d : Fin 64) :
    (((cfg3.win 6).blk t).view.emb (ix4 0 h r d : S1x8x128x64.Idx) : S4x8x1024x64.Idx) = ix4 (pb t) h (row t r) d := by
  obtain ⟨-, -, -, -, -, -, ⟨e0, e1, e2, e3⟩, -⟩ := idx_facts t
  funext a; apply Fin.ext
  match a with
  | ⟨0, _⟩ => show win3_6.index t (0 : Fin 4) * 1 + 1 * 0 = t.val / 8; omega
  | ⟨1, _⟩ => show win3_6.index t (1 : Fin 4) * 8 + 1 * h.val = h.val; omega
  | ⟨2, _⟩ => show win3_6.index t (2 : Fin 4) * 128 + 1 * r.val = (t.val % 8) * 128 + r.val; omega
  | ⟨3, _⟩ => show win3_6.index t (3 : Fin 4) * 64 + 1 * d.val = d.val; omega

end Cert.Attn.Arr

end
-- ==== Proof.AttnArrays.lean ====
/-
  From the attention blocks to the arrays. Point `t` of the 4 × 8 grid computes, for batch entry `t / 8`, the 128
  query rows `128 (t % 8) … 128 (t % 8) + 127` of all 8 heads: it reads those rows of the query heads, ALL keys and
  values of the batch entry, those rows of the hop distances and the per-head parameters whole. Every read of a block
  is a read of its array at the shifted index, so the block's attention weights and weighted sums are the arrays'
  attention weights and weighted sums at the shifted row. The points' blocks cover both output arrays, so after the
  region each output array holds the attention weights, resp. the heads' outputs, of the arrays the region found.
-/
import proofs.«158447_j8366596293037_2_alg».proof.Proof.Spec
import proofs.«158447_j8366596293037_2_alg».proof.Proof.AttnBody
import proofs.«158447_j8366596293037_2_alg».proof.Proof.AttnBlocks

noncomputable section

namespace Cert.Attn.Arr

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block against the arrays, over variables -/

section Block

variable (xq : TQ) (xk xv : TK) (xs : TSb) (xh xg : TP)
variable (Aq Ak Av : TH) (As : TS) (Ah Ag : TP) (bi : Fin 4) (rowOf : Fin 128 → Fin 1024)

/-- If the blocks are the arrays at batch entry `bi` and rows `rowOf r`, the block's weights are the arrays'. -/
theorem blk_weights
    (hq : ∀ h r d, xq (ix4 0 h r d) = Aq (ix4 bi h (rowOf r) d))
    (hk : ∀ h m d, xk (ix4 0 h m d) = Ak (ix4 bi h m d))
    (hs : ∀ r m, xs (ix3 0 r m) = As (ix3 bi (rowOf r) m))
    (hh : ∀ s, xh (ix1 s) = Ah (ix1 s)) (hg : ∀ s, xg (ix1 s) = Ag (ix1 s))
    (h : Fin 8) (r : Fin 128) (m : Fin 1024) :
    blkW xq xk xs xh xg h r m = attnW (asHeads Aq) (asHeads Ak) (maskExp As Ah Ag) bi h (rowOf r) m := by
  unfold blkW attnW
  refine congrArg (fun l => softRow l m) (funext fun k => ?_)
  unfold blkLogit logit blkScore score maskExp asHeads
  simp only [hq, hk, hs, hh, hg]

/-- Likewise the block's weighted sums of the value rows. -/
theorem blk_out
    (hq : ∀ h r d, xq (ix4 0 h r d) = Aq (ix4 bi h (rowOf r) d))
    (hk : ∀ h m d, xk (ix4 0 h m d) = Ak (ix4 bi h m d))
    (hv : ∀ h m d, xv (ix4 0 h m d) = Av (ix4 bi h m d))
    (hs : ∀ r m, xs (ix3 0 r m) = As (ix3 bi (rowOf r) m))
    (hh : ∀ s, xh (ix1 s) = Ah (ix1 s)) (hg : ∀ s, xg (ix1 s) = Ag (ix1 s))
    (h : Fin 8) (r : Fin 128) (d : Fin 64) :
    blkOut xq xk xv xs xh xg h r d
      = headOut (attnW (asHeads Aq) (asHeads Ak) (maskExp As Ah Ag)) (asHeads Av) bi h (rowOf r) d := by
  unfold blkOut headOut
  refine Finset.sum_congr rfl fun m _ => ?_
  rw [blk_weights xq xk xs xh xg Aq Ak As Ah Ag bi rowOf hq hk hs hh hg h r m, hv]
  rfl

end Block

/-! ## The two output arrays after the region -/

variable (V : (c : Dev nD) → (b : Ref sig .tc) → Buf (Elt Ideal) ((c : Thread nD τ).loc b))

/-- The attention weights of the arrays the region finds. -/
abbrev Wts (c : Dev nD) : Rows :=
  attnW (asHeads (V c (Pipeline.arrRef spec3 0))) (asHeads (V c (Pipeline.arrRef spec3 1)))
    (maskExp (V c (Pipeline.arrRef spec3 3)) (V c (Pipeline.arrRef spec3 4)) (V c (Pipeline.arrRef spec3 5)))

/-- What point `t` writes back to the weights array is its block of the arrays' attention weights. -/
theorem flushed7_eq (c : Dev nD) (t : Fin cfg3.N) :
    (dat3 (F := Ideal) V c).flushed 7 t
      = ((cfg3.win 7).blk t).view.read (Elt Ideal) (fun i : S4x8x1024x1024.Idx => Wts V c (i 0) (i 1) (i 2) (i 3)) := by
  show (cfg3.win 7).cut (grid3.coords t) ((dat3 (F := Ideal) V c).after 7 t) = _
  rw [after3_7]
  refine funext fun (j : S1x8x128x1024.Idx) => ?_
  obtain ⟨z, h, r, m, rfl⟩ : ∃ (z : Fin 1) (h : Fin 8) (r : Fin 128) (m : Fin 1024), j = ix4 z h r m :=
    ⟨j 0, j 1, j 2, j 3, eq_ix4 j⟩
  obtain rfl : z = 0 := Subsingleton.elim _ _
  show out3_7 (F := Ideal) (iblk3 V c 0 t) (iblk3 V c 1 t) (iblk3 V c 2 t) (iblk3 V c 3 t) (iblk3 V c 4 t) (iblk3 V c 5 t) (ix4 0 h r m)
    = (fun i : S4x8x1024x1024.Idx => Wts V c (i 0) (i 1) (i 2) (i 3)) (((cfg3.win 7).blk t).view.emb (ix4 0 h r m : S1x8x128x1024.Idx))
  rw [emb7 t h r m]
  refine (Body.out3_7_apply (iblk3 V c 0 t) (iblk3 V c 1 t) (iblk3 V c 2 t) (iblk3 V c 3 t) (iblk3 V c 4 t) (iblk3 V c 5 t) h r m).trans ?_
  exact blk_weights (iblk3 V c 0 t) (iblk3 V c 1 t) (iblk3 V c 3 t) (iblk3 V c 4 t) (iblk3 V c 5 t)
    (V c (Pipeline.arrRef spec3 0)) (V c (Pipeline.arrRef spec3 1)) (V c (Pipeline.arrRef spec3 3)) (V c (Pipeline.arrRef spec3 4)) (V c (Pipeline.arrRef spec3 5))
    (pb t) (row t) (read0 V c t) (read1 V c t) (read3 V c t) (read4 V c t) (read5 V c t) h r m

/-- After the region the weights array holds the attention weights of the arrays the region found. -/
theorem weights_arr (c : Dev nD) :
    (dat3 (F := Ideal) V c).arrAt 7 cfg3.N
      = fun i => attnW (asHeads (V c (Pipeline.arrRef spec3 0))) (asHeads (V c (Pipeline.arrRef spec3 1)))
          (maskExp (V c (Pipeline.arrRef spec3 3)) (V c (Pipeline.arrRef spec3 4)) (V c (Pipeline.arrRef spec3 5))) (i 0) (i 1) (i 2) (i 3) :=
  (dat3 (F := Ideal) V c).arrAt_eq_of_cover 7 (fun i : S4x8x1024x1024.Idx => Wts V c (i 0) (i 1) (i 2) (i 3))
    (fun t _ => flushed7_eq V c t) cover7

/-- What point `t` writes back to the output array is its block of the heads' outputs. -/
theorem flushed6_eq (c : Dev nD) (t : Fin cfg3.N) :
    (dat3 (F := Ideal) V c).flushed 6 t
      = ((cfg3.win 6).blk t).view.read (Elt Ideal)
          (fun i : S4x8x1024x64.Idx => headOut (Wts V c) (asHeads (V c (Pipeline.arrRef spec3 2))) (i 0) (i 1) (i 2) (i 3)) := by
  show (cfg3.win 6).cut (grid3.coords t) ((dat3 (F := Ideal) V c).after 6 t) = _
  rw [after3_6]
  refine funext fun (j : S1x8x128x64.Idx) => ?_
  obtain ⟨z, h, r, d, rfl⟩ : ∃ (z : Fin 1) (h : Fin 8) (r : Fin 128) (d : Fin 64), j = ix4 z h r d :=
    ⟨j 0, j 1, j 2, j 3, eq_ix4 j⟩
  obtain rfl : z = 0 := Subsingleton.elim _ _
  show out3_6 (F := Ideal) (iblk3 V c 0 t) (iblk3 V c 1 t) (iblk3 V c 2 t) (iblk3 V c 3 t) (iblk3 V c 4 t) (iblk3 V c 5 t) (ix4 0 h r d)
    = (fun i : S4x8x1024x64.Idx => headOut (Wts V c) (asHeads (V c (Pipeline.arrRef spec3 2))) (i 0) (i 1) (i 2) (i 3))
        (((cfg3.win 6).blk t).view.emb (ix4 0 h r d : S1x8x128x64.Idx))
  rw [emb6 t h r d]
  refine (Body.out3_6_apply (iblk3 V c 0 t) (iblk3 V c 1 t) (iblk3 V c 2 t) (iblk3 V c 3 t) (iblk3 V c 4 t) (iblk3 V c 5 t) h r d).trans ?_
  exact blk_out (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (pb t) (row t) (read0 V c t) (read1 V c t) (read2 V c t) (read3 V c t) (read4 V c t) (read5 V c t) h r d

/-- After the region the output array holds the heads' outputs: the attention weights applied to the value heads. -/
theorem out_arr (c : Dev nD) :
    (dat3 (F := Ideal) V c).arrAt 6 cfg3.N
      = fun i => headOut (attnW (asHeads (V c (Pipeline.arrRef spec3 0))) (asHeads (V c (Pipeline.arrRef spec3 1)))
          (maskExp (V c (Pipeline.arrRef spec3 3)) (V c (Pipeline.arrRef spec3 4)) (V c (Pipeline.arrRef spec3 5))))
          (asHeads (V c (Pipeline.arrRef spec3 2))) (i 0) (i 1) (i 2) (i 3) :=
  (dat3 (F := Ideal) V c).arrAt_eq_of_cover 6
    (fun i : S4x8x1024x64.Idx => headOut (Wts V c) (asHeads (V c (Pipeline.arrRef spec3 2))) (i 0) (i 1) (i 2) (i 3))
    (fun t _ => flushed6_eq V c t) cover6

end Cert.Attn.Arr

end
-- ==== Proof.KernelValue.lean ====
/-
  What the idealized kernel program leaves in its two result buffers, as the specification's functions of the arguments.
  Each of the three first regions is a dense layer on flattened rows; re-laid into heads its result is the projection
  `head`. The attention region turns the three head arrays, `sph` and the per-head parameters into the weights and the
  per-head outputs; the last region is the dense layer on the re-flattened outputs, which unflattened is `final`.
-/
import proofs.«158447_j8366596293037_2_alg».proof.Proof.Spec
import proofs.«158447_j8366596293037_2_alg».proof.Proof.Layout
import proofs.«158447_j8366596293037_2_alg».proof.Proof.Walk
import proofs.«158447_j8366596293037_2_alg».proof.Proof.LinearArrays
import proofs.«158447_j8366596293037_2_alg».proof.Proof.AttnArrays

set_option maxRecDepth 16384

noncomputable section

namespace Cert.Attn.KValue

open Cert.KernelIdeal Cert.KernelIdeal.Gen Idealize.ShloMosaic Idealize.ShloMosaic.TcCoe Idealize.SL.Sem Idealize.ShloMosaic.StableHlo
open Cert.Attn Cert.Attn.Walk

variable (m : (ℓ : Loc nD τ sig) → Buf (Elt Idealize.ShloMosaic.Ideal) ℓ) (ρ : Dev nD → PrngReg) (c : Dev nD)

/-- Region 0's result: the dense layer on the flattened `q`. -/
theorem dense_q : W2 m ρ c (Proc.devRef .tc main_v2)
    = dense2 (shapeCast S4096x512 (m ((c : Thread nD τ).loc main_arg0)) shapeCasts_S4x1024x512_S4096x512)
        (transpose S512x512 [1, 0] (m ((c : Thread nD τ).loc main_arg4)) transposes_S512x512_S512x512_1_0)
        (m ((c : Thread nD τ).loc main_arg5)) := by
  refine (W2_arr m ρ c 3).trans ((Cert.Attn.Lin.arr0 (V1 m ρ) c).trans ?_)
  show dense2 (W1 m ρ c (Proc.devRef .tc main_v0)) (W1 m ρ c (Proc.devRef .tc main_v1)) (W1 m ρ c (Proc.devRef .tc main_arg5)) = _
  rw [in0_x, in0_w, in0_b]

/-- Region 1's result: the dense layer on the flattened `k`. -/
theorem dense_k : W4 m ρ c (Proc.devRef .tc main_v7)
    = dense2 (shapeCast S4096x512 (m ((c : Thread nD τ).loc main_arg1)) shapeCasts_S4x1024x512_S4096x512)
        (transpose S512x512 [1, 0] (m ((c : Thread nD τ).loc main_arg6)) transposes_S512x512_S512x512_1_0)
        (m ((c : Thread nD τ).loc main_arg7)) := by
  refine (W4_arr m ρ c 3).trans ((Cert.Attn.Lin.arr1 (V3 m ρ) c).trans ?_)
  show dense2 (W3 m ρ c (Proc.devRef .tc main_v5)) (W3 m ρ c (Proc.devRef .tc main_v6)) (W3 m ρ c (Proc.devRef .tc main_arg7)) = _
  rw [in1_x, in1_w, in1_b]

/-- Region 2's result: the dense layer on the flattened `v`. -/
theorem dense_v : W6 m ρ c (Proc.devRef .tc main_v12)
    = dense2 (shapeCast S4096x512 (m ((c : Thread nD τ).loc main_arg2)) shapeCasts_S4x1024x512_S4096x512)
        (transpose S512x512 [1, 0] (m ((c : Thread nD τ).loc main_arg8)) transposes_S512x512_S512x512_1_0)
        (m ((c : Thread nD τ).loc main_arg9)) := by
  refine (W6_arr m ρ c 3).trans ((Cert.Attn.Lin.arr2 (V5 m ρ) c).trans ?_)
  show dense2 (W5 m ρ c (Proc.devRef .tc main_v10)) (W5 m ρ c (Proc.devRef .tc main_v11)) (W5 m ρ c (Proc.devRef .tc main_arg9)) = _
  rw [in2_x, in2_w, in2_b]

/-- The attention region's three head arrays are the three projections. -/
theorem heads_q_eq : asHeads (W7 m ρ c (Proc.devRef .tc main_v4))
    = head (m ((c : Thread nD τ).loc main_arg0)) (m ((c : Thread nD τ).loc main_arg4)) (m ((c : Thread nD τ).loc main_arg5)) := by
  rw [in3_q, heads_q, dense_q]
  exact heads_of_dense2 _ _ _ _ _ _ _

theorem heads_k_eq : asHeads (W7 m ρ c (Proc.devRef .tc main_v9))
    = head (m ((c : Thread nD τ).loc main_arg1)) (m ((c : Thread nD τ).loc main_arg6)) (m ((c : Thread nD τ).loc main_arg7)) := by
  rw [in3_k, heads_k, dense_k]
  exact heads_of_dense2 _ _ _ _ _ _ _

theorem heads_v_eq : asHeads (W7 m ρ c (Proc.devRef .tc main_v14))
    = head (m ((c : Thread nD τ).loc main_arg2)) (m ((c : Thread nD τ).loc main_arg8)) (m ((c : Thread nD τ).loc main_arg9)) := by
  rw [in3_v, dense_v]
  exact heads_of_dense2 _ _ _ _ _ _ _

/-- The attention weights of the kernel program, with the mask in its exponential spelling. -/
abbrev kW : Rows :=
  attnW (head (m ((c : Thread nD τ).loc main_arg0)) (m ((c : Thread nD τ).loc main_arg4)) (m ((c : Thread nD τ).loc main_arg5)))
    (head (m ((c : Thread nD τ).loc main_arg1)) (m ((c : Thread nD τ).loc main_arg6)) (m ((c : Thread nD τ).loc main_arg7)))
    (maskExp (m ((c : Thread nD τ).loc main_arg3)) (m ((c : Thread nD τ).loc main_arg12)) (m ((c : Thread nD τ).loc main_arg13)))

/-- Region 3's weights array. -/
theorem attn_weights : W8 m ρ c (Proc.devRef .tc main_v15_1) = fun i => kW m c (i 0) (i 1) (i 2) (i 3) := by
  refine (W8_arr m ρ c 7).trans ((Cert.Attn.Arr.weights_arr (V7 m ρ) c).trans ?_)
  show (fun i : S4x8x1024x1024.Idx => attnW (asHeads (W7 m ρ c (Proc.devRef .tc main_v4))) (asHeads (W7 m ρ c (Proc.devRef .tc main_v9)))
    (maskExp (W7 m ρ c (Proc.devRef .tc main_arg3)) (W7 m ρ c (Proc.devRef .tc main_arg12)) (W7 m ρ c (Proc.devRef .tc main_arg13)))
    (i 0) (i 1) (i 2) (i 3)) = _
  rw [heads_q_eq, heads_k_eq, in3_sph, in3_hop, in3_g]
  rfl

/-- Region 3's out array. -/
theorem attn_out : W8 m ρ c (Proc.devRef .tc main_v15_0)
    = fun i => headOut (kW m c) (head (m ((c : Thread nD τ).loc main_arg2)) (m ((c : Thread nD τ).loc main_arg8)) (m ((c : Thread nD τ).loc main_arg9)))
        (i 0) (i 1) (i 2) (i 3) := by
  refine (W8_arr m ρ c 6).trans ((Cert.Attn.Arr.out_arr (V7 m ρ) c).trans ?_)
  show (fun i : S4x8x1024x64.Idx => headOut (attnW (asHeads (W7 m ρ c (Proc.devRef .tc main_v4))) (asHeads (W7 m ρ c (Proc.devRef .tc main_v9)))
    (maskExp (W7 m ρ c (Proc.devRef .tc main_arg3)) (W7 m ρ c (Proc.devRef .tc main_arg12)) (W7 m ρ c (Proc.devRef .tc main_arg13))))
    (asHeads (W7 m ρ c (Proc.devRef .tc main_v14))) (i 0) (i 1) (i 2) (i 3)) = _
  rw [heads_q_eq, heads_k_eq, heads_v_eq, in3_sph, in3_hop, in3_g]
  rfl

/-- The second result. -/
theorem result_weights : W11 m ρ c (Proc.devRef .tc main_v15_1)
    = weights (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (maskExp (m ((c : Thread nD τ).loc main_arg3)) (m ((c : Thread nD τ).loc main_arg12)) (m ((c : Thread nD τ).loc main_arg13))) :=
  (res_weights m ρ c).trans (attn_weights m ρ c)

/-- The first result. -/
theorem result_output : W11 m ρ c (Proc.devRef .tc main_v20)
    = output (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11))
        (maskExp (m ((c : Thread nD τ).loc main_arg3)) (m ((c : Thread nD τ).loc main_arg12)) (m ((c : Thread nD τ).loc main_arg13))) := by
  have e : W10 m ρ c (Proc.devRef .tc main_v19)
      = dense2 (W9 m ρ c (Proc.devRef .tc main_v17)) (W9 m ρ c (Proc.devRef .tc main_v18)) (W9 m ρ c (Proc.devRef .tc main_arg11)) :=
    (W10_arr m ρ c 3).trans (Cert.Attn.Lin.arr4 (V9 m ρ) c)
  rw [res_out, e, in4_x, in4_w, in4_b, attn_out]
  funext i
  rw [final_of_dense2]
  rfl

end Cert.Attn.KValue

end
-- ==== Proof.RefHeads.lean ====
/-
  The reference's three projections, entry by entry.

  Each of the query, key and value inputs goes through the same five steps: a contraction of the 512 input columns against
  row `e` of the weight matrix, the bias of column `e` added, the 512 columns split into 8 heads of 64 lanes, and the head
  axis moved in front of the row axis. Entry `(bi, h, n, d)` of the result is therefore entry `(bi, n, 64 h + d)` of the
  biased product, which is the specification's `head`.
-/
import proofs.«158447_j8366596293037_2_alg».proof.Proof.RefRead
import proofs.«158447_j8366596293037_2_alg».proof.Proof.Spec

noncomputable section

open scoped BigOperators

namespace Cert.Attn.Ref

open Idealize.ShloMosaic Idealize.ShloMosaic.ValueIdx Cert.ReferenceIdeal Cert.ReferenceIdeal.ReadP

/-- Heads in front of rows, then heads and lanes merged into columns: `(bi, h, n, d)` is read at `(bi, n, 64 h + d)`.
    The row-major position `((1024 bi + n) 8 + h) 64 + d` is `(1024 bi + n) 512 + (64 h + d)`. -/
theorem split_idx (bi : Fin 4) (h : Fin 8) (n : Fin 1024) (d : Fin 64) :
    idx_main_v4 (idx_main_v5 (ix4 bi h n d)) = ix3 bi n (col h d) := by
  have := bi.isLt; have := h.isLt; have := n.isLt; have := d.isLt
  funext a; apply Fin.ext
  match a with
  | ⟨0, _⟩ => show (((bi.val * 1024 + n.val) * 8 + h.val) * 64 + d.val) / 524288 = bi.val; omega
  | ⟨1, _⟩ => show (((bi.val * 1024 + n.val) * 8 + h.val) * 64 + d.val) / 512 % 1024 = n.val; omega
  | ⟨2, _⟩ => show (((bi.val * 1024 + n.val) * 8 + h.val) * 64 + d.val) % 512 = h.val * 64 + d.val; omega

/-- The contraction reads the input's row `(bi, n)` at column `k`. -/
theorem lidx_proj (bi : Fin 4) (n : Fin 1024) (e k : Fin 512) : lidx_main_v0 (ix3 bi n e) k = ix3 bi n k := by
  funext a; match a with | ⟨0, _⟩ => rfl | ⟨1, _⟩ => rfl | ⟨2, _⟩ => rfl

/-- The contraction reads the weight's row `e` at column `k`. -/
theorem ridx_proj (bi : Fin 4) (n : Fin 1024) (e k : Fin 512) : ridx_main_v0 (ix3 bi n e) k = ix2 e k := by
  funext a; match a with | ⟨0, _⟩ => rfl | ⟨1, _⟩ => rfl

/-- The bias spread over batch entries and rows is read at its own column. -/
theorem bias_idx (bi : Fin 4) (n : Fin 1024) (e : Fin 512) : idx_main_v1 (idx_main_v2 (ix3 bi n e)) = ix1 e := by
  funext a; match a with | ⟨0, _⟩ => rfl

/-- The query projection split into heads is `head`. Stated for any input, weight and bias: the key and value projections
    are the same five operations. -/
theorem v5_at (x : (⟨S4x1024x512, .f32⟩ : BufTy).Contents (Elt Ideal)) (W : (⟨S512x512, .f32⟩ : BufTy).Contents (Elt Ideal)) (b : (⟨S512, .f32⟩ : BufTy).Contents (Elt Ideal))
    (bi : Fin 4) (h : Fin 8) (n : Fin 1024) (d : Fin 64) :
    val_main_v5 (F := Ideal) x W b (ix4 bi h n d) = head x W b bi h n d := by
  rw [val_main_v5_apply, val_main_v4_apply, split_idx, val_main_v3_apply, val_main_v0_apply, val_main_v2_apply,
    val_main_v1_apply, bias_idx]
  simp only [lidx_proj, ridx_proj, Ideal.addf_def]
  rfl

/-- The key projection split into heads. -/
theorem v11_at (x : (⟨S4x1024x512, .f32⟩ : BufTy).Contents (Elt Ideal)) (W : (⟨S512x512, .f32⟩ : BufTy).Contents (Elt Ideal)) (b : (⟨S512, .f32⟩ : BufTy).Contents (Elt Ideal))
    (bi : Fin 4) (h : Fin 8) (n : Fin 1024) (d : Fin 64) :
    val_main_v11 (F := Ideal) x W b (ix4 bi h n d) = head x W b bi h n d := v5_at x W b bi h n d

/-- The value projection split into heads. -/
theorem v17_at (x : (⟨S4x1024x512, .f32⟩ : BufTy).Contents (Elt Ideal)) (W : (⟨S512x512, .f32⟩ : BufTy).Contents (Elt Ideal)) (b : (⟨S512, .f32⟩ : BufTy).Contents (Elt Ideal))
    (bi : Fin 4) (h : Fin 8) (n : Fin 1024) (d : Fin 64) :
    val_main_v17 (F := Ideal) x W b (ix4 bi h n d) = head x W b bi h n d := v5_at x W b bi h n d

/-- Head `h` of the four short heads (0–3) among the eight. -/
def lo (h : Fin 4) : Fin 8 := ⟨h.val, by have := h.isLt; omega⟩
/-- Head `h` of the four long heads (4–7) among the eight. -/
def hi (h : Fin 4) : Fin 8 := ⟨4 + h.val, by have := h.isLt; omega⟩

/-- The slice of heads 0–3 keeps every coordinate. -/
theorem lo_idx (bi h : Fin 4) (n : Fin 1024) (d : Fin 64) : idx_main_v18 (ix4 bi h n d) = ix4 bi (lo h) n d := by
  funext a; match a with | ⟨0, _⟩ => rfl | ⟨1, _⟩ => rfl | ⟨2, _⟩ => rfl | ⟨3, _⟩ => rfl

/-- The slice of heads 4–7 reads head `4 + h`. -/
theorem hi_idx (bi h : Fin 4) (n : Fin 1024) (d : Fin 64) : idx_main_v19 (ix4 bi h n d) = ix4 bi (hi h) n d := by
  funext a; match a with | ⟨0, _⟩ => rfl | ⟨1, _⟩ => rfl | ⟨2, _⟩ => rfl | ⟨3, _⟩ => rfl

/-- Query heads 0–3. -/
theorem v18_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v18 (F := Ideal) x W b (ix4 bi h n d) = head x W b bi (lo h) n d := by
  rw [val_main_v18_apply, lo_idx, v5_at]
/-- Query heads 4–7. -/
theorem v19_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v19 (F := Ideal) x W b (ix4 bi h n d) = head x W b bi (hi h) n d := by
  rw [val_main_v19_apply, hi_idx, v5_at]
/-- Key heads 0–3. -/
theorem v20_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v20 (F := Ideal) x W b (ix4 bi h n d) = head x W b bi (lo h) n d := by
  rw [val_main_v20_apply, show idx_main_v20 (ix4 bi h n d) = ix4 bi (lo h) n d from lo_idx bi h n d, v11_at]
/-- Key heads 4–7. -/
theorem v21_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v21 (F := Ideal) x W b (ix4 bi h n d) = head x W b bi (hi h) n d := by
  rw [val_main_v21_apply, show idx_main_v21 (ix4 bi h n d) = ix4 bi (hi h) n d from hi_idx bi h n d, v11_at]
/-- Value heads 0–3. -/
theorem v22_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v22 (F := Ideal) x W b (ix4 bi h n d) = head x W b bi (lo h) n d := by
  rw [val_main_v22_apply, show idx_main_v22 (ix4 bi h n d) = ix4 bi (lo h) n d from lo_idx bi h n d, v17_at]
/-- Value heads 4–7. -/
theorem v23_at (x : (⟨S4x1024x512, .f32⟩ : BufTy).Contents (Elt Ideal)) (W : (⟨S512x512, .f32⟩ : BufTy).Contents (Elt Ideal)) (b : (⟨S512, .f32⟩ : BufTy).Contents (Elt Ideal)) (bi h : Fin 4) (n : Fin 1024) (d : Fin 64) :
    val_main_v23 (F := Ideal) x W b (ix4 bi h n d) = head x W b bi (hi h) n d := by
  rw [val_main_v23_apply, show idx_main_v23 (ix4 bi h n d) = ix4 bi (hi h) n d from hi_idx bi h n d, v17_at]

end Cert.Attn.Ref

end
-- ==== Proof.RefWeights.lean ====
/-
  The reference's attention weights, entry by entry.

  For heads 0–3 the scaled scores are multiplied by the decay mask `γ ^ max (sph − hop) 0`, `γ` the logistic of the head's
  parameter written out as `1 / (1 + exp (−g))`; for heads 4–7 the scores are used as they are. Either way each row of
  logits goes through the same chain: a row maximum folded from −∞ (and compared with −∞ once more), the shifted
  exponentials, their sum started from zero, the quotient. That chain is the specification's `softRow`; the two groups of
  four heads are then laid one after the other along the head axis.
-/
import proofs.«158447_j8366596293037_2_alg».proof.Proof.RefHeads
import Idealize.ShloMosaic.PureOps.Reduce

noncomputable section

open scoped BigOperators

namespace Cert.Attn.Ref

open Idealize.ShloMosaic Idealize.ShloMosaic.ValueIdx Cert.ReferenceIdeal Cert.ReferenceIdeal.ReadP

variable (x0 x1 : (⟨S4x1024x512, .f32⟩ : BufTy).Contents (Elt Ideal)) (x3 : (⟨S4x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x12 x13 : (⟨S4, .f32⟩ : BufTy).Contents (Elt Ideal))

/-! ## Scores -/

/-- The score contraction reads query row `n` at lane `d`. -/
theorem lidx_score (bi h : Fin 4) (n m : Fin 1024) (d : Fin 64) : lidx_main_v24 (ix4 bi h n m) d = ix4 bi h n d := by
  funext a; match a with | ⟨0, _⟩ => rfl | ⟨1, _⟩ => rfl | ⟨2, _⟩ => rfl | ⟨3, _⟩ => rfl

/-- The score contraction reads key row `m` at lane `d`. -/
theorem ridx_score (bi h : Fin 4) (n m : Fin 1024) (d : Fin 64) : ridx_main_v24 (ix4 bi h n m) d = ix4 bi h m d := by
  funext a; match a with | ⟨0, _⟩ => rfl | ⟨1, _⟩ => rfl | ⟨2, _⟩ => rfl | ⟨3, _⟩ => rfl

/-- Scaled scores of heads 0–3. -/
theorem v26_at (bi h : Fin 4) (n m : Fin 1024) :
    val_main_v26 (F := Ideal) x0 x1 x4 x5 x6 x7 (ix4 bi h n m) = score (head x0 x4 x5) (head x1 x6 x7) bi (lo h) n m := by
  rw [val_main_v26_apply, val_main_v24_apply, val_main_v25_apply, val_main_cst_apply]
  simp only [Ideal.mulf_def, Ideal.ofBits_def]
  unfold score eighth
  refine congrArg (· * Ideal.ofBits .f32 0x3E000000#32) (Finset.sum_congr rfl fun d _ => ?_)
  rw [lidx_score, ridx_score, v18_at, v20_at]

/-- Scaled scores of heads 4–7. -/
theorem v57_at (bi h : Fin 4) (n m : Fin 1024) :
    val_main_v57 (F := Ideal) x0 x1 x4 x5 x6 x7 (ix4 bi h n m) = score (head x0 x4 x5) (head x1 x6 x7) bi (hi h) n m := by
  rw [val_main_v57_apply, val_main_v55_apply, val_main_v56_apply, val_main_cst_5_apply]
  simp only [Ideal.mulf_def, Ideal.ofBits_def]
  unfold score eighth
  refine congrArg (· * Ideal.ofBits .f32 0x3E000000#32) (Finset.sum_congr rfl fun d _ => ?_)
  rw [show lidx_main_v55 (ix4 bi h n m) d = ix4 bi h n d from lidx_score bi h n m d,
    show ridx_main_v55 (ix4 bi h n m) d = ix4 bi h m d from ridx_score bi h n m d, v19_at, v21_at]

/-! ## The decay mask of heads 0–3 -/

/-- The word of the literal one. -/
theorem one_f32 : Ideal.ofBits .f32 0x3F800000#32 = 1 := by
  simp [Ideal.ofBits, Ideal.ieee, -EReal.coe_mul]; norm_num

/-- `1 / (1 + exp (−g))` is the logistic of `g`. -/
theorem v38_at (h : Fin 4) : val_main_v38 (F := Ideal) x13 (ix1 h) = Ideal.logistic (x13 (ix1 h)) := by
  rw [val_main_v38_apply, val_main_v37_apply, val_main_cst_1_apply, val_main_v36_apply, val_main_v35_apply,
    val_main_cst_0_apply, val_main_v34_apply, val_main_v33_apply]
  simp only [Ideal.hostDivf_def, Ideal.addf_def, Ideal.hostUnary_exp_def, Ideal.hostNegf_def, Ideal.negf_def,
    Ideal.ofBits_def, one_f32]
  rfl

/-- A per-head parameter spread over batch entries, rows and columns is read at its head. -/
theorem param_idx (bi h : Fin 4) (n m : Fin 1024) : idx_main_v39 (idx_main_v40 (ix4 bi h n m)) = ix1 h := by
  funext a; match a with | ⟨0, _⟩ => rfl

/-- The hop distances spread over the heads are read at `(bi, n, m)`. -/
theorem sph_idx (bi h : Fin 4) (n m : Fin 1024) : idx_main_v27 (idx_main_v29 (ix4 bi h n m)) = ix3 bi n m := by
  funext a; match a with | ⟨0, _⟩ => rfl | ⟨1, _⟩ => rfl | ⟨2, _⟩ => rfl

/-- The decay base of head `h`. -/
theorem v40_at (bi h : Fin 4) (n m : Fin 1024) :
    val_main_v40 (F := Ideal) x13 (ix4 bi h n m) = Ideal.logistic (x13 (ix1 h)) := by
  rw [val_main_v40_apply, val_main_v39_apply, param_idx, v38_at]

/-- The hop excess `max (sph − hop) 0`. -/
theorem v32_at (bi h : Fin 4) (n m : Fin 1024) :
    val_main_v32 (F := Ideal) x3 x12 (ix4 bi h n m) = max (x3 (ix3 bi n m) - x12 (ix1 h)) 0 := by
  rw [val_main_v32_apply, val_main_v31_apply, val_main_v29_apply, val_main_v27_apply, sph_idx, val_main_v30_apply,
    val_main_v28_apply, show idx_main_v28 (idx_main_v30 (ix4 bi h n m)) = ix1 h from param_idx bi h n m,
    val_main_call0_v0_apply, val_main_call0_cst_apply]
  simp only [Ideal.maximumf_def, Ideal.subf_def, Ideal.ofBits_def, Ideal.ofBits_zero_f32]

/-- A short head uses its own parameters. -/
theorem shortOf_lo (h : Fin 4) : shortOf (lo h) = h := Fin.ext (Nat.mod_eq_of_lt h.isLt)

/-- The mask of heads 0–3 is the specification's, in its power spelling. -/
theorem v41_at (bi h : Fin 4) (n m : Fin 1024) :
    val_main_v41 (F := Ideal) x3 x12 x13 (ix4 bi h n m) = maskPow x3 x12 x13 bi (lo h) n m := by
  rw [val_main_v41_apply, v40_at, v32_at]
  simp only [Ideal.hostPowf_def]
  unfold maskPow maskPowAt
  rw [shortOf_lo]

/-- The logits of heads 0–3: score times mask. -/
theorem v42_at (bi h : Fin 4) (n m : Fin 1024) :
    val_main_v42 (F := Ideal) x0 x1 x3 x4 x5 x6 x7 x12 x13 (ix4 bi h n m)
      = logit (head x0 x4 x5) (head x1 x6 x7) (maskPow x3 x12 x13) bi (lo h) n m := by
  rw [val_main_v42_apply, v26_at, v41_at]
  simp only [Ideal.mulf_def]
  unfold logit
  rw [if_pos (show (lo h).val < 4 from h.isLt)]

/-- The logits of heads 4–7 are the scores, whatever the mask. -/
theorem long_logit (msk : Rows) (bi h : Fin 4) (n m : Fin 1024) :
    score (head x0 x4 x5) (head x1 x6 x7) bi (hi h) n m = logit (head x0 x4 x5) (head x1 x6 x7) msk bi (hi h) n m := by
  unfold logit
  rw [if_neg (show ¬ (hi h).val < 4 from by show ¬ 4 + h.val < 4; omega)]

/-! ## The softmax chain -/

/-- The row axis of a `[4, 4, 1024, 1024]` array can be reduced away. -/
theorem red3 : S4x4x1024x1024.Reduces [3] S4x4x1024 := by decide

/-- Putting column `k` back into the reduced index `(bi, h, n)`. -/
theorem lift_row (hR : S4x4x1024x1024.Reduces [3] S4x4x1024) (bi h : Fin 4) (n : Fin 1024)
    (k : Fin (S4x4x1024x1024.size 3)) : hR.lift (ix3 bi h n) k = ix4 bi h n (⟨k.val, k.isLt⟩ : Fin 1024) := by
  funext c; apply Fin.ext
  fin_cases c <;> rfl

/-- The maximum with −∞ is the other argument. -/
theorem max_negInf (y : EReal) : max (Ideal.ofBits .f32 0xFF800000#32) y = y := by simp [Ideal.ofBits, Ideal.ieee]

/-- A reduction along the last axis with a maximum body, started from the literal −∞, is `rowMax` of the row. -/
theorem hostRowMax (L : (⟨S4x4x1024x1024, .f32⟩ : BufTy).Contents (Elt Ideal)) (c : (⟨S_, .f32⟩ : BufTy).Contents (Elt Ideal))
    (hc : ∀ i, c i = Ideal.ofBits .f32 0xFF800000#32)
    (h' : S4x4x1024x1024.ReducesTo [3] S4x4x1024) (hu : 0 < S_.numel) (bi h : Fin 4) (n : Fin 1024) :
    Host.reduce (FloatOps.maximumf (F := Ideal) (φ := .f32)) L c h' hu (ix3 bi h n) = rowMax fun k => L (ix4 bi h n k) := by
  refine (Host.reduce_eq_fold_single (FloatOps.maximumf (F := Ideal) (φ := .f32)) L c h' red3 hu (ix3 bi h n)).trans ?_
  rw [hc]
  have hf : (L ∘ red3.lift (ix3 bi h n)) = fun k : Fin 1024 => L (ix4 bi h n k) :=
    funext fun k => congrArg L (lift_row red3 bi h n k)
  unfold rowMax negInf
  exact congrArg (fun f => Finset.fold max (Ideal.ofBits .f32 0xFF800000#32) f (Finset.univ : Finset (Fin 1024))) hf

/-- A per-row value spread over the row is read at the row. -/
theorem row_idx (bi h : Fin 4) (n m : Fin 1024) : idx_main_v46 (idx_main_v47 (ix4 bi h n m)) = ix3 bi h n := by
  funext a; match a with | ⟨0, _⟩ => rfl | ⟨1, _⟩ => rfl | ⟨2, _⟩ => rfl

/-- The row sum reads column `j` of the row. -/
theorem sum_idx (bi h : Fin 4) (n j : Fin 1024) : idx_main_v50 (ix3 bi h n) j = ix4 bi h n j := by
  funext a; match a with | ⟨0, _⟩ => rfl | ⟨1, _⟩ => rfl | ⟨2, _⟩ => rfl | ⟨3, _⟩ => rfl

/-! ### Heads 0–3 -/

/-- The row maximum of the masked logits. -/
theorem v43_at (bi h : Fin 4) (n : Fin 1024) :
    val_main_v43 (F := Ideal) x0 x1 x3 x4 x5 x6 x7 x12 x13 (ix3 bi h n) = rowMax fun k => val_main_v42 (F := Ideal) x0 x1 x3 x4 x5 x6 x7 x12 x13 (ix4 bi h n k) := by
  unfold val_main_v43
  exact hostRowMax _ _ (fun _ => rfl) _ _ bi h n

/-- Taking the maximum with −∞ once more changes nothing. -/
theorem v45_at (bi h : Fin 4) (n : Fin 1024) :
    val_main_v45 (F := Ideal) x0 x1 x3 x4 x5 x6 x7 x12 x13 (ix3 bi h n) = rowMax fun k => val_main_v42 (F := Ideal) x0 x1 x3 x4 x5 x6 x7 x12 x13 (ix4 bi h n k) := by
  rw [val_main_v45_apply, val_main_v44_apply, val_main_cst_3_apply, v43_at]
  simp only [Ideal.maximumf_def, Ideal.ofBits_def]
  exact max_negInf _

/-- The row maximum spread back over the row. -/
theorem v47_at (bi h : Fin 4) (n m : Fin 1024) :
    val_main_v47 (F := Ideal) x0 x1 x3 x4 x5 x6 x7 x12 x13 (ix4 bi h n m) = rowMax fun k => val_main_v42 (F := Ideal) x0 x1 x3 x4 x5 x6 x7 x12 x13 (ix4 bi h n k) := by
  rw [val_main_v47_apply, val_main_v46_apply,
    show idx_main_v46 (idx_main_v47 (ix4 bi h n m)) = ix3 bi h n from row_idx bi h n m, v45_at]

/-- The shifted exponentials. -/
theorem v49_at (bi h : Fin 4) (n m : Fin 1024) :
    val_main_v49 (F := Ideal) x0 x1 x3 x4 x5 x6 x7 x12 x13 (ix4 bi h n m)
      = Ideal.exp (val_main_v42 (F := Ideal) x0 x1 x3 x4 x5 x6 x7 x12 x13 (ix4 bi h n m)
          - rowMax fun k => val_main_v42 (F := Ideal) x0 x1 x3 x4 x5 x6 x7 x12 x13 (ix4 bi h n k)) := by
  rw [val_main_v49_apply, val_main_v48_apply, v47_at]
  simp only [Ideal.hostUnary_exp_def, Ideal.subf_def]

/-- Their sum along the row, started from zero. -/
theorem v50_at (bi h : Fin 4) (n : Fin 1024) :
    val_main_v50 (F := Ideal) x0 x1 x3 x4 x5 x6 x7 x12 x13 (ix3 bi h n)
      = ∑ j : Fin 1024, Ideal.exp (val_main_v42 (F := Ideal) x0 x1 x3 x4 x5 x6 x7 x12 x13 (ix4 bi h n j)
          - rowMax fun k => val_main_v42 (F := Ideal) x0 x1 x3 x4 x5 x6 x7 x12 x13 (ix4 bi h n k)) := by
  rw [val_main_v50_apply, val_main_cst_4_apply]
  simp only [Ideal.ofBits_def, Ideal.ofBits_zero_f32, zero_add]
  refine Finset.sum_congr rfl fun j _ => ?_
  rw [show idx_main_v50 (ix3 bi h n) j = ix4 bi h n j from sum_idx bi h n j, v49_at]

/-- The weights of heads 0–3 are the softmax of the row of masked logits. -/
theorem v53_soft (bi h : Fin 4) (n m : Fin 1024) :
    val_main_v53 (F := Ideal) x0 x1 x3 x4 x5 x6 x7 x12 x13 (ix4 bi h n m)
      = softRow (fun k => val_main_v42 (F := Ideal) x0 x1 x3 x4 x5 x6 x7 x12 x13 (ix4 bi h n k)) m := by
  rw [val_main_v53_apply, v49_at, val_main_v52_apply, val_main_v51_apply,
    show idx_main_v51 (idx_main_v52 (ix4 bi h n m)) = ix3 bi h n from row_idx bi h n m, v50_at]
  simp only [Ideal.hostDivf_def]
  rfl

/-- The weights of heads 0–3 are the specification's. -/
theorem short_weights (bi h : Fin 4) (n m : Fin 1024) :
    val_main_v53 (F := Ideal) x0 x1 x3 x4 x5 x6 x7 x12 x13 (ix4 bi h n m)
      = attnW (head x0 x4 x5) (head x1 x6 x7) (maskPow x3 x12 x13) bi (lo h) n m := by
  have e : (fun k => val_main_v42 (F := Ideal) x0 x1 x3 x4 x5 x6 x7 x12 x13 (ix4 bi h n k))
      = logit (head x0 x4 x5) (head x1 x6 x7) (maskPow x3 x12 x13) bi (lo h) n :=
    funext fun k => v42_at x0 x1 x3 x4 x5 x6 x7 x12 x13 bi h n k
  rw [v53_soft, e]
  rfl

/-! ### Heads 4–7 -/

/-- The row maximum of the plain scores. -/
theorem v58_at (bi h : Fin 4) (n : Fin 1024) :
    val_main_v58 (F := Ideal) x0 x1 x4 x5 x6 x7 (ix3 bi h n) = rowMax fun k => val_main_v57 (F := Ideal) x0 x1 x4 x5 x6 x7 (ix4 bi h n k) := by
  unfold val_main_v58
  exact hostRowMax _ _ (fun _ => rfl) _ _ bi h n

/-- Taking the maximum with −∞ once more changes nothing. -/
theorem v60_at (bi h : Fin 4) (n : Fin 1024) :
    val_main_v60 (F := Ideal) x0 x1 x4 x5 x6 x7 (ix3 bi h n) = rowMax fun k => val_main_v57 (F := Ideal) x0 x1 x4 x5 x6 x7 (ix4 bi h n k) := by
  rw [val_main_v60_apply, val_main_v59_apply, val_main_cst_7_apply, v58_at]
  simp only [Ideal.maximumf_def, Ideal.ofBits_def]
  exact max_negInf _

/-- The row maximum spread back over the row. -/
theorem v62_at (bi h : Fin 4) (n m : Fin 1024) :
    val_main_v62 (F := Ideal) x0 x1 x4 x5 x6 x7 (ix4 bi h n m) = rowMax fun k => val_main_v57 (F := Ideal) x0 x1 x4 x5 x6 x7 (ix4 bi h n k) := by
  rw [val_main_v62_apply, val_main_v61_apply,
    show idx_main_v61 (idx_main_v62 (ix4 bi h n m)) = ix3 bi h n from row_idx bi h n m, v60_at]

/-- The shifted exponentials. -/
theorem v64_at (bi h : Fin 4) (n m : Fin 1024) :
    val_main_v64 (F := Ideal) x0 x1 x4 x5 x6 x7 (ix4 bi h n m)
      = Ideal.exp (val_main_v57 (F := Ideal) x0 x1 x4 x5 x6 x7 (ix4 bi h n m)
          - rowMax fun k => val_main_v57 (F := Ideal) x0 x1 x4 x5 x6 x7 (ix4 bi h n k)) := by
  rw [val_main_v64_apply, val_main_v63_apply, v62_at]
  simp only [Ideal.hostUnary_exp_def, Ideal.subf_def]

/-- Their sum along the row, started from zero. -/
theorem v65_at (bi h : Fin 4) (n : Fin 1024) :
    val_main_v65 (F := Ideal) x0 x1 x4 x5 x6 x7 (ix3 bi h n)
      = ∑ j : Fin 1024, Ideal.exp (val_main_v57 (F := Ideal) x0 x1 x4 x5 x6 x7 (ix4 bi h n j)
          - rowMax fun k => val_main_v57 (F := Ideal) x0 x1 x4 x5 x6 x7 (ix4 bi h n k)) := by
  rw [val_main_v65_apply, val_main_cst_8_apply]
  simp only [Ideal.ofBits_def, Ideal.ofBits_zero_f32, zero_add]
  refine Finset.sum_congr rfl fun j _ => ?_
  rw [show idx_main_v65 (ix3 bi h n) j = ix4 bi h n j from sum_idx bi h n j, v64_at]

/-- The weights of heads 4–7 are the softmax of the row of scores. -/
theorem v68_soft (bi h : Fin 4) (n m : Fin 1024) :
    val_main_v68 (F := Ideal) x0 x1 x4 x5 x6 x7 (ix4 bi h n m)
      = softRow (fun k => val_main_v57 (F := Ideal) x0 x1 x4 x5 x6 x7 (ix4 bi h n k)) m := by
  rw [val_main_v68_apply, v64_at, val_main_v67_apply, val_main_v66_apply,
    show idx_main_v66 (idx_main_v67 (ix4 bi h n m)) = ix3 bi h n from row_idx bi h n m, v65_at]
  simp only [Ideal.hostDivf_def]
  rfl

/-- The weights of heads 4–7 are the specification's, whatever the mask. -/
theorem long_weights (msk : Rows) (bi h : Fin 4) (n m : Fin 1024) :
    val_main_v68 (F := Ideal) x0 x1 x4 x5 x6 x7 (ix4 bi h n m)
      = attnW (head x0 x4 x5) (head x1 x6 x7) msk bi (hi h) n m := by
  have e : (fun k => val_main_v57 (F := Ideal) x0 x1 x4 x5 x6 x7 (ix4 bi h n k))
      = logit (head x0 x4 x5) (head x1 x6 x7) msk bi (hi h) n :=
    funext fun k => (v57_at x0 x1 x4 x5 x6 x7 bi h n k).trans (long_logit x0 x1 x4 x5 x6 x7 msk bi h n k)
  rw [v68_soft, e]
  rfl

/-! ## The two groups of heads side by side -/

/-- Along the head axis of two four-head arrays laid one after the other, a head below 4 is read in the first. -/
theorem cat_left {c : Nat} (cat : Shape.Concatenates [(⟨4, ![4, 4, 1024, c]⟩ : Shape), ⟨4, ![4, 4, 1024, c]⟩] ⟨4, ![4, 8, 1024, c]⟩ 1)
    (a b : (⟨4, ![4, 4, 1024, c]⟩ : Shape).Idx → EReal) (bi : Fin 4) (h : Fin 8) (n : Fin 1024) (m : Fin c) (hh : h.val < 4) :
    concatenate (⟨4, ![4, 8, 1024, c]⟩ : Shape) 1 [⟨⟨4, ![4, 4, 1024, c]⟩, a⟩, ⟨⟨4, ![4, 4, 1024, c]⟩, b⟩] cat (ix4 bi h n m)
      = a (ix4 bi (⟨h.val, hh⟩ : Fin 4) n m) :=
  concatenate_pair_apply_left 1 a b cat _ rfl _ (fun j => by
    match j with
    | ⟨0, _⟩ => rfl
    | ⟨1, _⟩ => rfl
    | ⟨2, _⟩ => rfl
    | ⟨3, _⟩ => rfl)

/-- A head from 4 on is read in the second, four less. -/
theorem cat_right {c : Nat} (cat : Shape.Concatenates [(⟨4, ![4, 4, 1024, c]⟩ : Shape), ⟨4, ![4, 4, 1024, c]⟩] ⟨4, ![4, 8, 1024, c]⟩ 1)
    (a b : (⟨4, ![4, 4, 1024, c]⟩ : Shape).Idx → EReal) (bi : Fin 4) (h : Fin 8) (n : Fin 1024) (m : Fin c) (hh : ¬ h.val < 4) :
    concatenate (⟨4, ![4, 8, 1024, c]⟩ : Shape) 1 [⟨⟨4, ![4, 4, 1024, c]⟩, a⟩, ⟨⟨4, ![4, 4, 1024, c]⟩, b⟩] cat (ix4 bi h n m)
      = b (ix4 bi (⟨h.val - 4, by have := h.isLt; omega⟩ : Fin 4) n m) :=
  concatenate_pair_apply_right 1 a b cat _ rfl rfl _
    (fun j hj => by
      match j with
      | ⟨0, _⟩ => rfl
      | ⟨1, _⟩ => exact absurd rfl hj
      | ⟨2, _⟩ => rfl
      | ⟨3, _⟩ => rfl)
    (by show h.val - 4 + 4 = h.val; omega)

/-- A head below 4 is short head `h`. -/
theorem lo_of_lt (h : Fin 8) (hh : h.val < 4) : lo (⟨h.val, hh⟩ : Fin 4) = h := Fin.ext rfl
/-- A head from 4 on is long head `h − 4`. -/
theorem hi_of_ge (h : Fin 8) (hh : ¬ h.val < 4) : hi (⟨h.val - 4, by have := h.isLt; omega⟩ : Fin 4) = h :=
  Fin.ext (by show 4 + (h.val - 4) = h.val; omega)

/-- The reference's second result is the specification's weights, the mask in its power spelling. -/
theorem ref_weights :
    Cert.ReferenceIdeal.ReadP.val_main_v71 (F := Ideal) x0 x1 x3 x4 x5 x6 x7 x12 x13
      = Cert.Attn.weights x0 x1 x4 x5 x6 x7 (Cert.Attn.maskPow x3 x12 x13) := by
  funext i
  obtain ⟨bi, h, n, m, rfl⟩ : ∃ (bi : Fin 4) (h : Fin 8) (n m : Fin 1024), i = ix4 bi h n m :=
    ⟨i 0, i 1, i 2, i 3, eq_ix4 i⟩
  show _ = attnW (head x0 x4 x5) (head x1 x6 x7) (maskPow x3 x12 x13) bi h n m
  unfold val_main_v71
  by_cases hh : h.val < 4
  · rw [cat_left _ _ _ bi h n m hh, short_weights, lo_of_lt h hh]
  · rw [cat_right _ _ _ bi h n m hh, long_weights x0 x1 x4 x5 x6 x7 (maskPow x3 x12 x13), hi_of_ge h hh]

end Cert.Attn.Ref

end
-- ==== Proof.RefOutput.lean ====
/-
  The reference's first result, entry by entry.

  Each group of four heads takes the weighted sums of its value heads; the two groups are laid one after the other along the
  head axis, the head axis is moved back behind the row axis, heads and lanes are merged into 512 columns (column `e` is lane
  `e mod 64` of head `e / 64`), and the rows go through the output projection: a contraction against row `e` of the weight
  matrix plus the bias of column `e`. That is the specification's `final` of `headOut`.
-/
import proofs.«158447_j8366596293037_2_alg».proof.Proof.RefWeights

noncomputable section

open scoped BigOperators

namespace Cert.Attn.Ref

open Idealize.ShloMosaic Idealize.ShloMosaic.ValueIdx Cert.ReferenceIdeal Cert.ReferenceIdeal.ReadP

variable (x0 x1 x2 : (⟨S4x1024x512, .f32⟩ : BufTy).Contents (Elt Ideal)) (x3 : (⟨S4x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 x13 : (⟨S4, .f32⟩ : BufTy).Contents (Elt Ideal))

/-- The weighted sum reads weight `(n, k)`. -/
theorem lidx_out (bi h : Fin 4) (n : Fin 1024) (d : Fin 64) (k : Fin 1024) : lidx_main_v54 (ix4 bi h n d) k = ix4 bi h n k := by
  funext a; match a with | ⟨0, _⟩ => rfl | ⟨1, _⟩ => rfl | ⟨2, _⟩ => rfl | ⟨3, _⟩ => rfl

/-- The weighted sum reads value row `k` at lane `d`. -/
theorem ridx_out (bi h : Fin 4) (n : Fin 1024) (d : Fin 64) (k : Fin 1024) : ridx_main_v54 (ix4 bi h n d) k = ix4 bi h k d := by
  funext a; match a with | ⟨0, _⟩ => rfl | ⟨1, _⟩ => rfl | ⟨2, _⟩ => rfl | ⟨3, _⟩ => rfl

/-- Attention output of heads 0–3. -/
theorem v54_at (bi h : Fin 4) (n : Fin 1024) (d : Fin 64) :
    val_main_v54 (F := Ideal) x0 x1 x2 x3 x4 x5 x6 x7 x8 x9 x12 x13 (ix4 bi h n d)
      = headOut (attnW (head x0 x4 x5) (head x1 x6 x7) (maskPow x3 x12 x13)) (head x2 x8 x9) bi (lo h) n d := by
  rw [val_main_v54_apply]
  unfold headOut
  refine Finset.sum_congr rfl fun k _ => ?_
  rw [lidx_out, ridx_out, short_weights, v22_at]

/-- Attention output of heads 4–7. -/
theorem v69_at (msk : Rows) (bi h : Fin 4) (n : Fin 1024) (d : Fin 64) :
    val_main_v69 (F := Ideal) x0 x1 x2 x4 x5 x6 x7 x8 x9 (ix4 bi h n d)
      = headOut (attnW (head x0 x4 x5) (head x1 x6 x7) msk) (head x2 x8 x9) bi (hi h) n d := by
  rw [val_main_v69_apply]
  unfold headOut
  refine Finset.sum_congr rfl fun k _ => ?_
  rw [show lidx_main_v69 (ix4 bi h n d) k = ix4 bi h n k from lidx_out bi h n d k,
    show ridx_main_v69 (ix4 bi h n d) k = ix4 bi h k d from ridx_out bi h n d k,
    long_weights x0 x1 x4 x5 x6 x7 msk, v23_at]

/-- The eight heads' outputs side by side. -/
theorem v70_at (bi : Fin 4) (h : Fin 8) (n : Fin 1024) (d : Fin 64) :
    val_main_v70 (F := Ideal) x0 x1 x2 x3 x4 x5 x6 x7 x8 x9 x12 x13 (ix4 bi h n d)
      = headOut (attnW (head x0 x4 x5) (head x1 x6 x7) (maskPow x3 x12 x13)) (head x2 x8 x9) bi h n d := by
  unfold val_main_v70
  by_cases hh : h.val < 4
  · rw [cat_left _ _ _ bi h n d hh, v54_at, lo_of_lt h hh]
  · rw [cat_right _ _ _ bi h n d hh, v69_at x0 x1 x2 x4 x5 x6 x7 x8 x9 (maskPow x3 x12 x13), hi_of_ge h hh]

/-- Rows in front of heads again. -/
theorem swap_idx (bi : Fin 4) (n : Fin 1024) (h : Fin 8) (d : Fin 64) : idx_main_v72 (ix4 bi n h d) = ix4 bi h n d := by
  funext a; match a with | ⟨0, _⟩ => rfl | ⟨1, _⟩ => rfl | ⟨2, _⟩ => rfl | ⟨3, _⟩ => rfl

/-- Heads and lanes merged into columns: column `e` of row `(bi, n)` is lane `e mod 64` of head `e / 64`. The row-major
    position `(1024 bi + n) 512 + e` is `((1024 bi + n) 8 + e / 64) 64 + e mod 64`. -/
theorem merge_idx (bi : Fin 4) (n : Fin 1024) (e : Fin 512) :
    idx_main_v73 (ix3 bi n e) = ix4 bi n (colHead e) (colLane e) := by
  have := bi.isLt; have := n.isLt; have := e.isLt
  funext a; apply Fin.ext
  match a with
  | ⟨0, _⟩ => show ((bi.val * 1024 + n.val) * 512 + e.val) / 524288 = bi.val; omega
  | ⟨1, _⟩ => show ((bi.val * 1024 + n.val) * 512 + e.val) / 512 % 1024 = n.val; omega
  | ⟨2, _⟩ => show ((bi.val * 1024 + n.val) * 512 + e.val) / 64 % 8 = e.val / 64; omega
  | ⟨3, _⟩ => show ((bi.val * 1024 + n.val) * 512 + e.val) % 64 = e.val % 64; omega

/-- The heads' outputs as 512-wide rows. -/
theorem v73_at (bi : Fin 4) (n : Fin 1024) (e : Fin 512) :
    val_main_v73 (F := Ideal) x0 x1 x2 x3 x4 x5 x6 x7 x8 x9 x12 x13 (ix3 bi n e)
      = headOut (attnW (head x0 x4 x5) (head x1 x6 x7) (maskPow x3 x12 x13)) (head x2 x8 x9) bi (colHead e) n (colLane e) := by
  rw [val_main_v73_apply, merge_idx, val_main_v72_apply, swap_idx, v70_at]

/-- The output projection. -/
theorem v77_at (bi : Fin 4) (n : Fin 1024) (e : Fin 512) :
    val_main_v77 (F := Ideal) x0 x1 x2 x3 x4 x5 x6 x7 x8 x9 x10 x11 x12 x13 (ix3 bi n e)
      = final (headOut (attnW (head x0 x4 x5) (head x1 x6 x7) (maskPow x3 x12 x13)) (head x2 x8 x9)) x10 x11 bi n e := by
  rw [val_main_v77_apply, val_main_v74_apply, val_main_v76_apply, val_main_v75_apply,
    show idx_main_v75 (idx_main_v76 (ix3 bi n e)) = ix1 e from bias_idx bi n e]
  simp only [Ideal.addf_def]
  unfold final
  refine congrArg (· + x11 (ix1 e)) (Finset.sum_congr rfl fun k _ => ?_)
  rw [show lidx_main_v74 (ix3 bi n e) k = ix3 bi n k from lidx_proj bi n e k,
    show ridx_main_v74 (ix3 bi n e) k = ix2 e k from ridx_proj bi n e k, v73_at]

/-- The reference's first result is the specification's output, the mask in its power spelling. -/
theorem ref_output :
    Cert.ReferenceIdeal.ReadP.val_main_v77 (F := Ideal) x0 x1 x2 x3 x4 x5 x6 x7 x8 x9 x10 x11 x12 x13
      = Cert.Attn.output x0 x1 x2 x4 x5 x6 x7 x8 x9 x10 x11 (Cert.Attn.maskPow x3 x12 x13) := by
  funext i
  obtain ⟨bi, n, e, rfl⟩ : ∃ (bi : Fin 4) (n : Fin 1024) (e : Fin 512), i = ix3 bi n e := ⟨i 0, i 1, i 2, eq_ix3 i⟩
  exact v77_at x0 x1 x2 x3 x4 x5 x6 x7 x8 x9 x10 x11 x12 x13 bi n e

end Cert.Attn.Ref

end
-- ==== Proof.lean ====
/-
  Two-branch multi-head attention: a Pallas program (three dense projections, one fused attention kernel over all eight
  heads, one output projection, with reshapes and transposes between them) against its plain array reference.

  On the extended reals both programs compute the same two arrays. The projections are `x · Wᵀ + b`, in the kernel as a
  dense layer on the flattened rows against the transposed weights; the scores are scaled dot products; heads 0–3
  multiply them by a decay mask, which the reference spells `γ ^ e` and the kernel `1` if `e = 0` else `exp (e · log γ)`,
  with `γ` the logistic of a per-head parameter and `e = max (sph − hop) 0`: the two spellings agree because, the inputs
  being finite, `γ` is a real in (0, 1) and `e` a real ≥ 0 (this is the one place the precondition is used); each row of
  logits becomes weights by the max-shifted softmax; the weighted sums of the value heads are laid side by side and
  projected once more. The kernel computes the weights block of 128 query rows by block, each block from its own rows
  only, so the blocks assemble to the whole array. Nothing was rewritten by the idealization, so `preserves` is trivial.
-/
import proofs.«158447_j8366596293037_2_alg».proof.Defs
import proofs.«158447_j8366596293037_2_alg».proof.Proof.Gen.Kernel
import proofs.«158447_j8366596293037_2_alg».proof.Proof.Gen.Kernel.Skeleton
import proofs.«158447_j8366596293037_2_alg».proof.Proof.Gen.Kernel.Launch
import proofs.«158447_j8366596293037_2_alg».proof.Proof.Gen.Kernel.Points
import proofs.«158447_j8366596293037_2_alg».proof.Proof.Gen.Kernel.Frame
import proofs.«158447_j8366596293037_2_alg».proof.Proof.Gen.KernelIdeal
import proofs.«158447_j8366596293037_2_alg».proof.Proof.Gen.KernelIdeal.Skeleton
import proofs.«158447_j8366596293037_2_alg».proof.Proof.Gen.KernelIdeal.Launch
import proofs.«158447_j8366596293037_2_alg».proof.Proof.Gen.KernelIdeal.Points
import proofs.«158447_j8366596293037_2_alg».proof.Proof.Gen.KernelIdeal.Frame
import proofs.«158447_j8366596293037_2_alg».proof.Proof.Gen.ReferenceIdeal
import proofs.«158447_j8366596293037_2_alg».proof.Proof.Gen.Pre_finite_inputs
import proofs.«158447_j8366596293037_2_alg».proof.Proof.RefRead
import proofs.«158447_j8366596293037_2_alg».proof.Proof.Spec
import proofs.«158447_j8366596293037_2_alg».proof.Proof.MaskLaw
import proofs.«158447_j8366596293037_2_alg».proof.Proof.Finite
import proofs.«158447_j8366596293037_2_alg».proof.Proof.KernelRun
import proofs.«158447_j8366596293037_2_alg».proof.Proof.KernelValue
import proofs.«158447_j8366596293037_2_alg».proof.Proof.RefOutput
import proofs.«158447_j8366596293037_2_alg».proof.Proof.RefWeights
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.ValueP.run (F := Idealize.ShloMosaic.Ideal) m ρ)

/-- Both programs end with the specification's two arrays of the arguments: the kernel's with the mask in its
    exponential spelling, the reference's in its power spelling, which agree on finite inputs. -/
theorem algebraic : Cert.algebraic_KernelIdeal_ReferenceIdeal := by
  intro m ρ m' ρ' hpre hagree
  refine ⟨fun c => Cert.Attn.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (Cert.Attn.maskExp (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    fun c => Cert.Attn.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (Cert.Attn.maskExp (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))), ?_, ?_⟩
  · refine (θ_run Cert.KernelIdeal.defs _ _).mono (fun r h c => ?_) (Cert.Attn.KRun.run (F := Idealize.ShloMosaic.Ideal) m ρ)
    obtain ⟨h1, h2, hrest⟩ := h c
    exact ⟨h1.trans (Cert.Attn.KValue.result_output m ρ c), h2.trans (Cert.Attn.KValue.result_weights m ρ c), hrest⟩
  · refine (θ_run Cert.ReferenceIdeal.defs _ _).mono (fun r h c => ?_)
      (Cert.ReferenceIdeal.ValueP.run (F := Idealize.ShloMosaic.Ideal) m' ρ')
    obtain ⟨h1, h2, hrest⟩ := h c
    obtain ⟨hs, hh, hg⟩ := Cert.Attn.Finite.reals_of_pre _ _ _ _ _ _ _ _ _ _ _ _ _ _ (hpre c)
    have hmask := Cert.Attn.maskExp_eq_maskPow _ _ _ hs hh hg
    obtain ⟨e0, e1, e2, e3, e4, e5, e6, e7, e8, e9, e10, e11, e12, e13⟩ := hagree c
    refine ⟨h1.trans ?_, h2.trans ?_, hrest⟩
    · rw [Cert.ReferenceIdeal.ReadP.val_main_v77_eq, Cert.Attn.Ref.ref_output, e0, e1, e2, e3, e4, e5, e6, e7, e8, e9, e10, e11, e12, e13, ← hmask]
    · rw [Cert.ReferenceIdeal.ReadP.val_main_v71_eq, Cert.Attn.Ref.ref_weights, e0, e1, e3, e4, e5, e6, e7, e12, e13, ← hmask]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
